-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64 .f32) (main_arg12 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128 .f32) (main_arg8 : FVec F S128x64 .f32) (main_arg9 : FVec F S128x64 .f32) (main_arg10 : FVec F S64 .f32) (main_arg11 : FVec F S64 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128 .f32) (main_arg7 : FVec F S128 .f32) (main_arg8 : FVec F S128x64 .f32) (main_arg9 : FVec F S128x64 .f32) (main_arg10 : FVec F S64 .f32) (main_arg11 : FVec F S64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 76
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x64, .f32⟩
  | .hbm, ⟨62, _⟩ => ⟨S100000x64, .f32⟩
  | .hbm, ⟨63, _⟩ => ⟨S1x64, .f32⟩
  | .hbm, ⟨64, _⟩ => ⟨S1x64, .f32⟩
  | .hbm, ⟨65, _⟩ => ⟨S_, .f32⟩
  | .hbm, ⟨66, _⟩ => ⟨S1x64, .f32⟩
  | .hbm, ⟨67, _⟩ => ⟨S1x64, .f32⟩
  | .hbm, ⟨68, _⟩ => ⟨S_, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S128x64, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v16_2 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37_0 : Ref sig .tc := ⟨.hbm, 62, rfl⟩
abbrev main_v37_1 : Ref sig .tc := ⟨.hbm, 63, rfl⟩
abbrev main_v37_2 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg8_0 : Ref sig .tc := ⟨.vmem, 35, rfl⟩
abbrev cc2_scratch0 : Ref sig .tc := ⟨.vmem, 36, rfl⟩
abbrev cc2_scratch1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem8_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S128x64_S128x64_0_0 : ∀ a, (![0, 0] : Fin 2 → Nat) a + S128x64.size a ≤ S128x64.size a
  h_S128x64 : 0 < S128x64.numel
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S5000x64_S5000x64 : S5000x64.ShapeCasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v37_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v37_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v37_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128, .f32⟩
  | 6 => ⟨S128, .f32⟩
  | 7 => ⟨S128, .f32⟩
  | 8 => ⟨S128x64, .f32⟩
  | 9 => ⟨S128x64, .f32⟩
  | 10 => ⟨S64, .f32⟩
  | 11 => ⟨S64, .f32⟩
  | 12 => ⟨S64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x128, .f32⟩
  | 37 => ⟨S100000x128, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S128, .f32⟩
  | 46 => ⟨S_, .f32⟩
  | 47 => ⟨S128, .f32⟩
  | 48 => ⟨S128, .f32⟩
  | 49 => ⟨S1x128, .f32⟩
  | 50 => ⟨S100000x128, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S128, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S_, .f32⟩
  | 91 => ⟨S1600000, .f32⟩
  | 92 => ⟨S_, .f32⟩
  | 93 => ⟨S100000, .f32⟩
  | 94 => ⟨S1600000x1, .i32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x128, .f32⟩
  | 101 => ⟨S100000x128, .f32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S64, .f32⟩
  | 110 => ⟨S_, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S100000x64, .f32⟩
  | 117 => ⟨S_, .f32⟩
  | 118 => ⟨S64, .f32⟩
  | 119 => ⟨S_, .f32⟩
  | 120 => ⟨S64, .f32⟩
  | 121 => ⟨S64, .f32⟩
  | 122 => ⟨S1x64, .f32⟩
  | 123 => ⟨S100000x64, .f32⟩
  | 124 => ⟨S100000x64, .f32⟩
  | 125 => ⟨S_, .f32⟩
  | 126 => ⟨S64, .f32⟩
  | 127 => ⟨S64, .f32⟩
  | _ => ⟨S100000x128, .f32⟩

abbrev hbmTy0_1 (i : Nat) : BufTy := match i % 128 with
  | 0 => ⟨S64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call0_cst : Ref sig .tc := ⟨.hbm, 74, rfl⟩
abbrev main_call0_v0 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibWholeStore.lean ====
/-
  Whole-buffer stores and the loads that follow them.

  A kernel body that writes a staging buffer through the rectangle covering all of it (offsets zero, the buffer's own
  extents) leaves there the stored value, whatever earlier stores of the same point left underneath; and a load of the
  whole buffer after such a store reads that value back. Both are stated for a store that comes LAST in a list of
  pieces of any length, so that they serve a buffer written once and a buffer zeroed and then overwritten alike.
-/
import Idealize.ShloMosaic.Lib.Pipeline.FrameBody
import Idealize.ShloMosaic.Lib.Pipeline.Value

noncomputable section

namespace Cert.LibWholeStore

open Idealize.ShloMosaic

variable {Val : EltTy → Type} [∀ e, Nonempty (Val e)] {S : Shape} {e : EltTy}

/-- Every index lies under a last piece that covers the whole shape. -/
theorem cover_cons {off : Fin S.rank → Nat} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set :=
  ⟨_, List.mem_cons.mpr (Or.inl rfl), View.mem_set_unit_zero h inb y⟩

/-- After a list of stores whose last one covers the whole buffer, the buffer reads as that store's value. -/
theorem read_writes_cons {sig : RefSig} {κ : Kind} {sp : Space} (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w :=
  (View.read_writes_eq_canon v f _ (cover_cons h inb w L)).trans (View.canon_cons_unit_zero h inb w L)

/-- A load of the whole buffer after such stores reads the last store's value. -/
theorem readCov_cons {sig : RefSig} {κ : Kind} {sp : Space} (v : View sig κ sp S e)
    {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld v _ _ (cover_cons h inb w L), View.canon_cons_unit_zero h inb w L, View.ld_unit_zero h inb w]

/-- The two-coordinate zero offset, however it is spelt. -/
theorem zero2 : (![0, 0] : Fin 2 → Nat) = fun _ => 0 := by
  funext a; fin_cases a <;> rfl

end Cert.LibWholeStore

end
-- ==== Proof.K.R0.lean ====
/-
  The first linear layer with its running column statistics (output width 128) as one region of the program: what each
  window's staging buffer and the two scratch rows hold before and after the body at every grid point, the body's run
  at the first point and at a later one, and the per-point obligation the launch asks for. For any float
  interpretation and any contents `V` of the buffers when the region is entered.
-/
import proofs.«172402_j2388001816783_1_alg».proof.Proof.Gen.Kernel.Launch
import proofs.«172402_j2388001816783_1_alg».proof.Proof.Gen.Kernel.Skeleton
import proofs.«172402_j2388001816783_1_alg».proof.Proof.Gen.Kernel.Points
import proofs.«172402_j2388001816783_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear layer with running column statistics, output width 128 (pipeline 0).
At each of the 20 grid points the body reads a block of 5000 rows of the layer's input, of the aggregated
neighbours and of the degrees, and the two weight matrices and the bias; it stores the block of pre-activations, and adds
the block's column sums and column sums of squares to two rows it keeps in scratch memory from one point to the next
(both rows are zeroed at the first point); after every point it copies the two rows to two one-row outputs. -/

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles of the body's loads and stores. -/
abbrev rX0 : Rect S5000x128 := Rect.unit (s := S5000x128) ![0, 0] S5000x128.size inb_S5000x128_S5000x128_0_0
abbrev rD0 : Rect S5000x1 := Rect.unit (s := S5000x1) ![0, 0] S5000x1.size inb_S5000x1_S5000x1_0_0
abbrev rW0 : Rect S128x128 := Rect.unit (s := S128x128) ![0, 0] S128x128.size inb_S128x128_S128x128_0_0
abbrev rV0 : Rect S1x128 := Rect.unit (s := S1x128) ![0, 0] S1x128.size inb_S1x128_S1x128_0_0

/-- The block of pre-activations the body stores, from the six input blocks. -/
def lin0 (x a : Vec F S5000x128 .f32) (dg : Vec F S5000x1 .f32) (ws wn : Vec F S128x128 .f32) (b : Vec F S1x128 .f32) : Vec F S5000x128 .f32 :=
  k0_pay4 (View.ld x rX0) (View.ld a rX0) (View.ld dg rD0) (View.ld ws rW0) (View.ld wn rW0) (View.ld b rV0)
/-- The running row of column sums after a point, from the row `s` the point found. -/
def sumS0 (x a : Vec F S5000x128 .f32) (dg : Vec F S5000x1 .f32) (ws wn : Vec F S128x128 .f32) (b : Vec F S1x128 .f32) (s : Vec F S1x128 .f32) : Vec F S1x128 .f32 :=
  k0_pay5 (View.ld x rX0) (View.ld a rX0) (View.ld dg rD0) (View.ld ws rW0) (View.ld wn rW0) (View.ld b rV0) s
/-- The running row of column sums of squares after a point, from the row `q` the point found. -/
def sqS0 (x a : Vec F S5000x128 .f32) (dg : Vec F S5000x1 .f32) (ws wn : Vec F S128x128 .f32) (b : Vec F S1x128 .f32) (q : Vec F S1x128 .f32) : Vec F S1x128 .f32 :=
  k0_pay1 (lin0 x a dg ws wn b) q

/-- The body's branch: taken at the first grid point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 20 = 0 :=
  (by decide +kernel : ∀ t : Fin grid0.N, cond0 (grid0.coords t) ↔ t.val % 20 = 0)

set_option maxHeartbeats 2000000 in
/-- The body at the first point: the two scratch rows at anything; both are zeroed, then hold the first block's sums. -/
theorem sound_kernel0_first (c : Dev nD) (E : Set ℕ) (i : grid0.Coords) (hc : cond0 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x a : Vec F S5000x128 .f32) (dg : Vec F S5000x1 .f32) (ws wn : Vec F S128x128 .f32) (b : Vec F S1x128 .f32) (K : PUnit → sProp 𝕄) :
    iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
            ∗ owns (c : Thread nD τ) arg7 fullShare (lin0 x a dg ws wn b) ∗ owns (c : Thread nD τ) arg8 fullShare (sumS0 x a dg ws wn b (k0_pay2 (F := F))) ∗ owns (c : Thread nD τ) arg9 fullShare (sqS0 x a dg ws wn b (k0_pay3 (F := F))) ∗ owns (c : Thread nD τ) arg10 fullShare (sumS0 x a dg ws wn b (k0_pay2 (F := F))) ∗ owns (c : Thread nD τ) arg11 fullShare (sqS0 x a dg ws wn b (k0_pay3 (F := F)))) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10 arg11 harg11) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf1 hf2 hf3 hf4 hf5 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact Cert.LibWholeStore.read_writes_cons _ _ Cert.LibWholeStore.zero2 _ _ _
  isplitl [H8]
  · iexists _; isplitr
    swap; · iexact H8
    ipureintro; sl_unfold_words
    exact (Cert.LibWholeStore.read_writes_cons _ _ Cert.LibWholeStore.zero2 _ _ _).trans ((Cert.LibWholeStore.readCov_cons _ Cert.LibWholeStore.zero2 _ _ _).trans
      (congrArg (fun s => sumS0 _ _ _ _ _ _ s) (Cert.LibWholeStore.readCov_cons _ Cert.LibWholeStore.zero2 _ _ _)))
  isplitl [H9]
  · iexists _; isplitr
    swap; · iexact H9
    ipureintro; sl_unfold_words
    exact (Cert.LibWholeStore.read_writes_cons _ _ Cert.LibWholeStore.zero2 _ _ _).trans ((Cert.LibWholeStore.readCov_cons _ Cert.LibWholeStore.zero2 _ _ _).trans
      (congrArg (fun q => sqS0 _ _ _ _ _ _ q) (Cert.LibWholeStore.readCov_cons _ Cert.LibWholeStore.zero2 _ _ _)))
  isplitl [H10]
  · iexists _; isplitr
    swap; · iexact H10
    ipureintro; sl_unfold_words
    exact (Cert.LibWholeStore.read_writes_cons _ _ Cert.LibWholeStore.zero2 _ _ _).trans
      (congrArg (fun s => sumS0 _ _ _ _ _ _ s) (Cert.LibWholeStore.readCov_cons _ Cert.LibWholeStore.zero2 _ _ _))
  iexists _; isplitr
  swap; · iexact H11
  ipureintro; sl_unfold_words
  exact (Cert.LibWholeStore.read_writes_cons _ _ Cert.LibWholeStore.zero2 _ _ _).trans
    (congrArg (fun q => sqS0 _ _ _ _ _ _ q) (Cert.LibWholeStore.readCov_cons _ Cert.LibWholeStore.zero2 _ _ _))

set_option maxHeartbeats 2000000 in
/-- The body at a later point: the two scratch rows at what the point before left; each gains the block's sums. -/
theorem sound_kernel0_later (c : Dev nD) (E : Set ℕ) (i : grid0.Coords) (hc : ¬ cond0 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x a : Vec F S5000x128 .f32) (dg : Vec F S5000x1 .f32) (ws wn : Vec F S128x128 .f32) (b s q : Vec F S1x128 .f32) (K : PUnit → sProp 𝕄) :
    iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
            ∗ owns (c : Thread nD τ) arg7 fullShare (lin0 x a dg ws wn b) ∗ owns (c : Thread nD τ) arg8 fullShare (sumS0 x a dg ws wn b (View.ld s rV0)) ∗ owns (c : Thread nD τ) arg9 fullShare (sqS0 x a dg ws wn b (View.ld q rV0)) ∗ owns (c : Thread nD τ) arg10 fullShare (sumS0 x a dg ws wn b (View.ld s rV0)) ∗ owns (c : Thread nD τ) arg11 fullShare (sqS0 x a dg ws wn b (View.ld q rV0))) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10 arg11 harg11) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  subst hf1 hf2 hf3 hf4 hf5 hf6 hf10 hf11
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact Cert.LibWholeStore.read_writes_cons _ _ Cert.LibWholeStore.zero2 _ _ _
  isplitl [H8]
  · iexists _; isplitr
    swap; · iexact H8
    ipureintro; sl_unfold_words
    exact (Cert.LibWholeStore.read_writes_cons _ _ Cert.LibWholeStore.zero2 _ _ _).trans (Cert.LibWholeStore.readCov_cons _ Cert.LibWholeStore.zero2 _ _ _)
  isplitl [H9]
  · iexists _; isplitr
    swap; · iexact H9
    ipureintro; sl_unfold_words
    exact (Cert.LibWholeStore.read_writes_cons _ _ Cert.LibWholeStore.zero2 _ _ _).trans (Cert.LibWholeStore.readCov_cons _ Cert.LibWholeStore.zero2 _ _ _)
  isplitl [H10]
  · iexists _; isplitr
    swap; · iexact H10
    ipureintro; sl_unfold_words
    exact Cert.LibWholeStore.read_writes_cons _ _ Cert.LibWholeStore.zero2 _ _ _
  iexists _; isplitr
  swap; · iexact H11
  ipureintro; sl_unfold_words
  exact Cert.LibWholeStore.read_writes_cons _ _ Cert.LibWholeStore.zero2 _ _ _

/-! ## What the two running rows hold after each point -/

/-- The two running rows after point `n`: zero plus the first block's sums, then each later block's added. -/
def acc0 (c : Dev nD) : (n : ℕ) → n < cfg0.N → Vec F S1x128 .f32 × Vec F S1x128 .f32
  | 0, hn => (sumS0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (k0_pay2 (F := F)),
      sqS0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (k0_pay3 (F := F)))
  | n + 1, hn => (sumS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (View.ld (acc0 c n (Nat.lt_of_succ_lt hn)).1 rV0),
      sqS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (View.ld (acc0 c n (Nat.lt_of_succ_lt hn)).2 rV0))

theorem acc0_zero (c : Dev nD) (t : Fin cfg0.N) (hz : t.val = 0) :
    acc0 V c t.val t.isLt = (sumS0 (iblk0 V c 0 t) (iblk0 V c 1 t) (iblk0 V c 2 t) (iblk0 V c 3 t) (iblk0 V c 4 t) (iblk0 V c 5 t) (k0_pay2 (F := F)), sqS0 (iblk0 V c 0 t) (iblk0 V c 1 t) (iblk0 V c 2 t) (iblk0 V c 3 t) (iblk0 V c 4 t) (iblk0 V c 5 t) (k0_pay3 (F := F))) := by
  obtain ⟨n, hn⟩ := t
  cases n with
  | zero => rfl
  | succ n => exact absurd hz (Nat.succ_ne_zero n)

theorem acc0_pos (c : Dev nD) (t : Fin cfg0.N) (hz : t.val ≠ 0) :
    acc0 V c t.val t.isLt
      = (sumS0 (iblk0 V c 0 t) (iblk0 V c 1 t) (iblk0 V c 2 t) (iblk0 V c 3 t) (iblk0 V c 4 t) (iblk0 V c 5 t) (View.ld (acc0 V c (t.val - 1) (Nat.lt_of_le_of_lt (Nat.sub_le _ _) t.isLt)).1 rV0),
         sqS0 (iblk0 V c 0 t) (iblk0 V c 1 t) (iblk0 V c 2 t) (iblk0 V c 3 t) (iblk0 V c 4 t) (iblk0 V c 5 t) (View.ld (acc0 V c (t.val - 1) (Nat.lt_of_le_of_lt (Nat.sub_le _ _) t.isLt)).2 rV0)) := by
  obtain ⟨n, hn⟩ := t
  cases n with
  | zero => exact absurd rfl hz
  | succ n => rfl

/-- The two scratch rows, as whole buffers. -/
abbrev scA0 : Memref sig .tc .vmem S1x128 .f32 := Memref.whole cc0_scratch0
abbrev scB0 : Memref sig .tc .vmem S1x128 .f32 := Memref.whole cc0_scratch1

/-- The region's invariant before point `n`: before the first point every scratch buffer at anything; afterwards the
    two running rows at what the point before left, the other scoped buffers and the generator register at anything. -/
def PhiS0 (c : Dev nD) : (n : ℕ) → n ≤ cfg0.N → sProp 𝕄
  | 0, _ => Pipeline.ΦA spec0 c
  | n + 1, hn => iprop(iprop(iprop(owns (c : Thread nD τ) scA0 fullShare (acc0 V c n hn).1 ∗ owns (c : Thread nD τ) scB0 fullShare (acc0 V c n hn).2)
      ∗ Pipeline.scopedRestBut (Ix := Unit) (Name := ℕ) (U := UR sig nD τ) (Lvl := ℕ) (Val := Elt F) spec0 c [cc0_scratch0, cc0_scratch1])
      ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scA0 fullShare (acc0 V c n hn).1 ∗ owns (c : Thread nD τ) scB0 fullShare (acc0 V c n hn).2)
      ∗ Pipeline.scopedRestBut (Ix := Unit) (Name := ℕ) (U := UR sig nD τ) (Lvl := ℕ) (Val := Elt F) spec0 c [cc0_scratch0, cc0_scratch1])
      ∗ (∃ r, prngReg c r)) := rfl
theorem PhiS0_pos (c : Dev nD) (n : ℕ) (h : n ≤ cfg0.N) (hz : n ≠ 0) :
    PhiS0 V c n h = iprop(iprop(iprop(owns (c : Thread nD τ) scA0 fullShare (acc0 V c (n - 1) (by omega)).1 ∗ owns (c : Thread nD τ) scB0 fullShare (acc0 V c (n - 1) (by omega)).2)
      ∗ Pipeline.scopedRestBut (Ix := Unit) (Name := ℕ) (U := UR sig nD τ) (Lvl := ℕ) (Val := Elt F) spec0 c [cc0_scratch0, cc0_scratch1])
      ∗ (∃ r, prngReg c r)) := by
  cases n with
  | zero => exact absurd rfl hz
  | succ n => rfl

/-- The class invariant with the two scratch rows taken out as owned buffers at some contents. -/
theorem PhiA0_eq (c : Dev nD) :
    (Pipeline.ΦA spec0 c : sProp 𝕄)
      = iprop(iprop(iprop((∃ d, owns (c : Thread nD τ) scA0 fullShare d) ∗ (∃ d, owns (c : Thread nD τ) scB0 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scA0, scB0, owns_whole]; try rfl

/-! ## The proof data and the per-point obligation -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => lin0 (iblk0 V c 0 t) (iblk0 V c 1 t) (iblk0 V c 2 t) (iblk0 V c 3 t) (iblk0 V c 4 t) (iblk0 V c 5 t)
    | ⟨7, _⟩ => (acc0 V c t.val t.isLt).1
    | ⟨8, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = lin0 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = (acc0 V c t.val t.isLt).1 := by dsimp only [dat0]
theorem after0_8 (c : Dev nD) (t : Fin cfg0.N) : (dat0 V c).after 8 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7, after0_8]
  have hN : t.val < 20 := lt_of_lt_of_eq t.isLt (show cfg0.N = 20 from N_0)
  by_cases hz : t.val = 0
  · rw [PhiS0_castSucc V c t, PhiS0_zero V c _ _ hz, PhiA0_eq, acc0_zero V c t hz]
    iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_first c Set.univ (grid0.coords t) ((hcond0 t).mpr (by omega)) _ _ _ _ _ _ _ _ _ _ _ _ _ _ _ _ _ _ _ _ _ _
      (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrb Hg]
    · isplitl [HS0 HS1 Hrb]
      · isplitl [HS0 HS1]
        · isplitl [HS0]; · iexact HS0
          iexact HS1
        iexact Hrb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS0_castSucc V c t, PhiS0_pos V c _ _ hz, acc0_pos V c t hz]
    iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_later c Set.univ (grid0.coords t) (fun h => hz (by have := (hcond0 t).mp h; omega)) _ _ _ _ _ _ _ _ _ _ _ _ _ _ _ _ _ _ _ _ _ _
      (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrb Hg]
    · isplitl [HS0 HS1 Hrb]
      · isplitl [HS0 HS1]
        · isplitl [HS0]; · iexact HS0
          iexact HS1
        iexact Hrb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation0 (c : Dev nD) : BodyObligation (dat0 (F := F) V c) (defs₀ (F := F)) Variants.none () Set.univ := fun t => by
  rw [bigSep_W0, bigSep_W0]
  exact sound_body0 V c t

/-- After any point the invariant gives the class invariant back: what the running rows hold is forgotten. -/
theorem Phi_out0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 20 := N_0; omega), PhiA0_eq]
  iintro ⟨⟨⟨HS0, HS1⟩, Hrb⟩, Hg⟩
  isplitl [HS0 HS1 Hrb]
  · isplitl [HS0 HS1]
    · isplitl [HS0]; · iexists _; iexact HS0
      iexists _; iexact HS1
    iexact Hrb
  iexact Hg

end Region0

end Cert.Kernel.Hand

end
-- ==== Proof.K.R1.lean ====
/-
  The first normalisation kernel (batch normalisation followed by a rectifier, width 128) as one region of the
  program: what each window's staging buffer holds before and after the body at every grid point, the body's run on
  whole staging buffers, and the per-point obligation the launch asks for. Stated for any float interpretation and
  for any contents `V` of the buffers when the region is entered.
-/
import proofs.«172402_j2388001816783_1_alg».proof.Proof.Gen.Kernel.Launch
import proofs.«172402_j2388001816783_1_alg».proof.Proof.Gen.Kernel.Skeleton
import proofs.«172402_j2388001816783_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The normalisation kernel of width 128 (pipeline 1): at each of the 20 grid points it reads a block of 5000 rows
of the pre-activation and the four row vectors (mean, variance, scale, shift), and stores the normalised block. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangle of the 5000-row block, and of a row vector. -/
abbrev rB1 : Rect S5000x128 := Rect.unit (s := S5000x128) ![0, 0] S5000x128.size inb_S5000x128_S5000x128_0_0
abbrev rV1 : Rect S1x128 := Rect.unit (s := S1x128) ![0, 0] S1x128.size inb_S1x128_S1x128_0_0

theorem zero2_1 : (![0, 0] : Fin 2 → Nat) = fun _ => 0 := by
  funext a; fin_cases a <;> rfl

/-- What the body leaves in the output block: its one whole-block store. -/
def out1 (mu var : Vec F S1x128 .f32) (x : Vec F S5000x128 .f32) (ga be : Vec F S1x128 .f32) : Vec F S5000x128 .f32 :=
  View.canon [⟨rB1, k1_pay1 (View.ld mu rV1) (View.ld var rV1) (View.ld x rB1) (View.ld ga rV1) (View.ld be rV1)⟩]

theorem cover1 (p0 : Vec F S5000x128 .f32) (y : S5000x128.Idx) :
    ∃ pc ∈ ([⟨rB1, p0⟩] : List (View.Piece (Elt F) S5000x128 .f32)), y ∈ pc.1.set :=
  ⟨_, List.mem_singleton_self _, View.mem_set_unit_zero zero2_1 inb_S5000x128_S5000x128_0_0 y⟩

set_option maxHeartbeats 1000000 in
/-- The body on whole staging memrefs: the five inputs at read contents, the output at anything; it runs to the
    continuation with the inputs as they were and the output at `out1` of them. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x : Vec F S5000x128 .f32) (mu var ga be : Vec F S1x128 .f32) (K : PUnit → sProp 𝕄) :
    iprop(owns (c : Thread nD τ) arg1 fullShare x ∗ owns (c : Thread nD τ) arg2 fullShare mu ∗ owns (c : Thread nD τ) arg3 fullShare var
        ∗ owns (c : Thread nD τ) arg4 fullShare ga ∗ owns (c : Thread nD τ) arg5 fullShare be ∗ (∃ d, owns (c : Thread nD τ) arg6 fullShare d)
        ∗ (iprop(owns (c : Thread nD τ) arg1 fullShare x ∗ owns (c : Thread nD τ) arg2 fullShare mu ∗ owns (c : Thread nD τ) arg3 fullShare var
            ∗ owns (c : Thread nD τ) arg4 fullShare ga ∗ owns (c : Thread nD τ) arg5 fullShare be
            ∗ owns (c : Thread nD τ) arg6 fullShare (out1 mu var x ga be)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-- The proof data of pipeline 1 on core `c`: the arrays as the region finds them; after the body each input's buffer
    at its block and the output's at `out1` of the input blocks; the scoped rest and the generator register untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 1 t) (iblk1 V c 2 t) (iblk1 V c 0 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1 (iblk1 V c 1 t) (iblk1 V c 2 t) (iblk1 V c 0 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.R2.lean ====
/-
  The second linear layer with its running column statistics (output width 64) as one region of the program: the same
  account as for the first one, at the narrower output.
-/
import proofs.«172402_j2388001816783_1_alg».proof.Proof.Gen.Kernel.Launch
import proofs.«172402_j2388001816783_1_alg».proof.Proof.Gen.Kernel.Skeleton
import proofs.«172402_j2388001816783_1_alg».proof.Proof.Gen.Kernel.Points
import proofs.«172402_j2388001816783_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear layer with running column statistics, output width 64 (pipeline 2).
At each of the 20 grid points the body reads a block of 5000 rows of the layer's input, of the aggregated
neighbours and of the degrees, and the two weight matrices and the bias; it stores the block of pre-activations, and adds
the block's column sums and column sums of squares to two rows it keeps in scratch memory from one point to the next
(both rows are zeroed at the first point); after every point it copies the two rows to two one-row outputs. -/

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles of the body's loads and stores. -/
abbrev rX2 : Rect S5000x128 := Rect.unit (s := S5000x128) ![0, 0] S5000x128.size inb_S5000x128_S5000x128_0_0
abbrev rD2 : Rect S5000x1 := Rect.unit (s := S5000x1) ![0, 0] S5000x1.size inb_S5000x1_S5000x1_0_0
abbrev rW2 : Rect S128x64 := Rect.unit (s := S128x64) ![0, 0] S128x64.size inb_S128x64_S128x64_0_0
abbrev rV2 : Rect S1x64 := Rect.unit (s := S1x64) ![0, 0] S1x64.size inb_S1x64_S1x64_0_0

/-- The block of pre-activations the body stores, from the six input blocks. -/
def lin2 (x a : Vec F S5000x128 .f32) (dg : Vec F S5000x1 .f32) (ws wn : Vec F S128x64 .f32) (b : Vec F S1x64 .f32) : Vec F S5000x64 .f32 :=
  k2_pay5 (View.ld x rX2) (View.ld a rX2) (View.ld dg rD2) (View.ld ws rW2) (View.ld wn rW2) (View.ld b rV2)
/-- The running row of column sums after a point, from the row `s` the point found. -/
def sumS2 (x a : Vec F S5000x128 .f32) (dg : Vec F S5000x1 .f32) (ws wn : Vec F S128x64 .f32) (b : Vec F S1x64 .f32) (s : Vec F S1x64 .f32) : Vec F S1x64 .f32 :=
  k2_pay1 (k2_pay6 (View.ld x rX2) (View.ld a rX2) (View.ld dg rD2) (View.ld ws rW2) (View.ld wn rW2) (View.ld b rV2) s)
/-- The running row of column sums of squares after a point, from the row `q` the point found. -/
def sqS2 (x a : Vec F S5000x128 .f32) (dg : Vec F S5000x1 .f32) (ws wn : Vec F S128x64 .f32) (b : Vec F S1x64 .f32) (q : Vec F S1x64 .f32) : Vec F S1x64 .f32 :=
  k2_pay2 (lin2 x a dg ws wn b) q

/-- The body's branch: taken at the first grid point only. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val % 20 = 0 :=
  (by decide +kernel : ∀ t : Fin grid2.N, cond2 (grid2.coords t) ↔ t.val % 20 = 0)

set_option maxHeartbeats 2000000 in
/-- The body at the first point: the two scratch rows at anything; both are zeroed, then hold the first block's sums. -/
theorem sound_kernel2_first (c : Dev nD) (E : Set ℕ) (i : grid2.Coords) (hc : cond2 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x64 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S5000x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (arg11 : Memref sig .tc .vmem S1x64 .f32) (harg11 : arg11.IsWhole)
    (x a : Vec F S5000x128 .f32) (dg : Vec F S5000x1 .f32) (ws wn : Vec F S128x64 .f32) (b : Vec F S1x64 .f32) (K : PUnit → sProp 𝕄) :
    iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
            ∗ owns (c : Thread nD τ) arg7 fullShare (lin2 x a dg ws wn b) ∗ owns (c : Thread nD τ) arg8 fullShare (sumS2 x a dg ws wn b (k2_pay3 (F := F))) ∗ owns (c : Thread nD τ) arg9 fullShare (sqS2 x a dg ws wn b (k2_pay4 (F := F))) ∗ owns (c : Thread nD τ) arg10 fullShare (sumS2 x a dg ws wn b (k2_pay3 (F := F))) ∗ owns (c : Thread nD τ) arg11 fullShare (sqS2 x a dg ws wn b (k2_pay4 (F := F)))) -∗ K ⟨⟩))
      ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10 arg11 harg11) K := by
  simp only [cc2__linear_stats_kernel_eq_skeleton]; unfold cc2__linear_stats_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf1 hf2 hf3 hf4 hf5 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact Cert.LibWholeStore.read_writes_cons _ _ Cert.LibWholeStore.zero2 _ _ _
  isplitl [H8]
  · iexists _; isplitr
    swap; · iexact H8
    ipureintro; sl_unfold_words
    exact (Cert.LibWholeStore.read_writes_cons _ _ Cert.LibWholeStore.zero2 _ _ _).trans ((Cert.LibWholeStore.readCov_cons _ Cert.LibWholeStore.zero2 _ _ _).trans
      (congrArg (fun s => sumS2 _ _ _ _ _ _ s) (Cert.LibWholeStore.readCov_cons _ Cert.LibWholeStore.zero2 _ _ _)))
  isplitl [H9]
  · iexists _; isplitr
    swap; · iexact H9
    ipureintro; sl_unfold_words
    exact (Cert.LibWholeStore.read_writes_cons _ _ Cert.LibWholeStore.zero2 _ _ _).trans ((Cert.LibWholeStore.readCov_cons _ Cert.LibWholeStore.zero2 _ _ _).trans
      (congrArg (fun q => sqS2 _ _ _ _ _ _ q) (Cert.LibWholeStore.readCov_cons _ Cert.LibWholeStore.zero2 _ _ _)))
  isplitl [H10]
  · iexists _; isplitr
    swap; · iexact H10
    ipureintro; sl_unfold_words
    exact (Cert.LibWholeStore.read_writes_cons _ _ Cert.LibWholeStore.zero2 _ _ _).trans
      (congrArg (fun s => sumS2 _ _ _ _ _ _ s) (Cert.LibWholeStore.readCov_cons _ Cert.LibWholeStore.zero2 _ _ _))
  iexists _; isplitr
  swap; · iexact H11
  ipureintro; sl_unfold_words
  exact (Cert.LibWholeStore.read_writes_cons _ _ Cert.LibWholeStore.zero2 _ _ _).trans
    (congrArg (fun q => sqS2 _ _ _ _ _ _ q) (Cert.LibWholeStore.readCov_cons _ Cert.LibWholeStore.zero2 _ _ _))

set_option maxHeartbeats 2000000 in
/-- The body at a later point: the two scratch rows at what the point before left; each gains the block's sums. -/
theorem sound_kernel2_later (c : Dev nD) (E : Set ℕ) (i : grid2.Coords) (hc : ¬ cond2 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x64 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S5000x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (arg11 : Memref sig .tc .vmem S1x64 .f32) (harg11 : arg11.IsWhole)
    (x a : Vec F S5000x128 .f32) (dg : Vec F S5000x1 .f32) (ws wn : Vec F S128x64 .f32) (b s q : Vec F S1x64 .f32) (K : PUnit → sProp 𝕄) :
    iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
            ∗ owns (c : Thread nD τ) arg7 fullShare (lin2 x a dg ws wn b) ∗ owns (c : Thread nD τ) arg8 fullShare (sumS2 x a dg ws wn b (View.ld s rV2)) ∗ owns (c : Thread nD τ) arg9 fullShare (sqS2 x a dg ws wn b (View.ld q rV2)) ∗ owns (c : Thread nD τ) arg10 fullShare (sumS2 x a dg ws wn b (View.ld s rV2)) ∗ owns (c : Thread nD τ) arg11 fullShare (sqS2 x a dg ws wn b (View.ld q rV2))) -∗ K ⟨⟩))
      ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10 arg11 harg11) K := by
  simp only [cc2__linear_stats_kernel_eq_skeleton]; unfold cc2__linear_stats_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  subst hf1 hf2 hf3 hf4 hf5 hf6 hf10 hf11
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact Cert.LibWholeStore.read_writes_cons _ _ Cert.LibWholeStore.zero2 _ _ _
  isplitl [H8]
  · iexists _; isplitr
    swap; · iexact H8
    ipureintro; sl_unfold_words
    exact (Cert.LibWholeStore.read_writes_cons _ _ Cert.LibWholeStore.zero2 _ _ _).trans (Cert.LibWholeStore.readCov_cons _ Cert.LibWholeStore.zero2 _ _ _)
  isplitl [H9]
  · iexists _; isplitr
    swap; · iexact H9
    ipureintro; sl_unfold_words
    exact (Cert.LibWholeStore.read_writes_cons _ _ Cert.LibWholeStore.zero2 _ _ _).trans (Cert.LibWholeStore.readCov_cons _ Cert.LibWholeStore.zero2 _ _ _)
  isplitl [H10]
  · iexists _; isplitr
    swap; · iexact H10
    ipureintro; sl_unfold_words
    exact Cert.LibWholeStore.read_writes_cons _ _ Cert.LibWholeStore.zero2 _ _ _
  iexists _; isplitr
  swap; · iexact H11
  ipureintro; sl_unfold_words
  exact Cert.LibWholeStore.read_writes_cons _ _ Cert.LibWholeStore.zero2 _ _ _

/-! ## What the two running rows hold after each point -/

/-- The two running rows after point `n`: zero plus the first block's sums, then each later block's added. -/
def acc2 (c : Dev nD) : (n : ℕ) → n < cfg2.N → Vec F S1x64 .f32 × Vec F S1x64 .f32
  | 0, hn => (sumS2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (k2_pay3 (F := F)),
      sqS2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (k2_pay4 (F := F)))
  | n + 1, hn => (sumS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (View.ld (acc2 c n (Nat.lt_of_succ_lt hn)).1 rV2),
      sqS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (View.ld (acc2 c n (Nat.lt_of_succ_lt hn)).2 rV2))

theorem acc2_zero (c : Dev nD) (t : Fin cfg2.N) (hz : t.val = 0) :
    acc2 V c t.val t.isLt = (sumS2 (iblk2 V c 0 t) (iblk2 V c 1 t) (iblk2 V c 2 t) (iblk2 V c 3 t) (iblk2 V c 4 t) (iblk2 V c 5 t) (k2_pay3 (F := F)), sqS2 (iblk2 V c 0 t) (iblk2 V c 1 t) (iblk2 V c 2 t) (iblk2 V c 3 t) (iblk2 V c 4 t) (iblk2 V c 5 t) (k2_pay4 (F := F))) := by
  obtain ⟨n, hn⟩ := t
  cases n with
  | zero => rfl
  | succ n => exact absurd hz (Nat.succ_ne_zero n)

theorem acc2_pos (c : Dev nD) (t : Fin cfg2.N) (hz : t.val ≠ 0) :
    acc2 V c t.val t.isLt
      = (sumS2 (iblk2 V c 0 t) (iblk2 V c 1 t) (iblk2 V c 2 t) (iblk2 V c 3 t) (iblk2 V c 4 t) (iblk2 V c 5 t) (View.ld (acc2 V c (t.val - 1) (Nat.lt_of_le_of_lt (Nat.sub_le _ _) t.isLt)).1 rV2),
         sqS2 (iblk2 V c 0 t) (iblk2 V c 1 t) (iblk2 V c 2 t) (iblk2 V c 3 t) (iblk2 V c 4 t) (iblk2 V c 5 t) (View.ld (acc2 V c (t.val - 1) (Nat.lt_of_le_of_lt (Nat.sub_le _ _) t.isLt)).2 rV2)) := by
  obtain ⟨n, hn⟩ := t
  cases n with
  | zero => exact absurd rfl hz
  | succ n => rfl

/-- The two scratch rows, as whole buffers. -/
abbrev scA2 : Memref sig .tc .vmem S1x64 .f32 := Memref.whole cc2_scratch0
abbrev scB2 : Memref sig .tc .vmem S1x64 .f32 := Memref.whole cc2_scratch1

/-- The region's invariant before point `n`: before the first point every scratch buffer at anything; afterwards the
    two running rows at what the point before left, the other scoped buffers and the generator register at anything. -/
def PhiS2 (c : Dev nD) : (n : ℕ) → n ≤ cfg2.N → sProp 𝕄
  | 0, _ => Pipeline.ΦA spec2 c
  | n + 1, hn => iprop(iprop(iprop(owns (c : Thread nD τ) scA2 fullShare (acc2 V c n hn).1 ∗ owns (c : Thread nD τ) scB2 fullShare (acc2 V c n hn).2)
      ∗ Pipeline.scopedRestBut (Ix := Unit) (Name := ℕ) (U := UR sig nD τ) (Lvl := ℕ) (Val := Elt F) spec2 c [cc2_scratch0, cc2_scratch1])
      ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scA2 fullShare (acc2 V c n hn).1 ∗ owns (c : Thread nD τ) scB2 fullShare (acc2 V c n hn).2)
      ∗ Pipeline.scopedRestBut (Ix := Unit) (Name := ℕ) (U := UR sig nD τ) (Lvl := ℕ) (Val := Elt F) spec2 c [cc2_scratch0, cc2_scratch1])
      ∗ (∃ r, prngReg c r)) := rfl
theorem PhiS2_pos (c : Dev nD) (n : ℕ) (h : n ≤ cfg2.N) (hz : n ≠ 0) :
    PhiS2 V c n h = iprop(iprop(iprop(owns (c : Thread nD τ) scA2 fullShare (acc2 V c (n - 1) (by omega)).1 ∗ owns (c : Thread nD τ) scB2 fullShare (acc2 V c (n - 1) (by omega)).2)
      ∗ Pipeline.scopedRestBut (Ix := Unit) (Name := ℕ) (U := UR sig nD τ) (Lvl := ℕ) (Val := Elt F) spec2 c [cc2_scratch0, cc2_scratch1])
      ∗ (∃ r, prngReg c r)) := by
  cases n with
  | zero => exact absurd rfl hz
  | succ n => rfl

/-- The class invariant with the two scratch rows taken out as owned buffers at some contents. -/
theorem PhiA2_eq (c : Dev nD) :
    (Pipeline.ΦA spec2 c : sProp 𝕄)
      = iprop(iprop(iprop((∃ d, owns (c : Thread nD τ) scA2 fullShare d) ∗ (∃ d, owns (c : Thread nD τ) scB2 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scA2, scB2, owns_whole]; try rfl

/-! ## The proof data and the per-point obligation -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => lin2 (iblk2 V c 0 t) (iblk2 V c 1 t) (iblk2 V c 2 t) (iblk2 V c 3 t) (iblk2 V c 4 t) (iblk2 V c 5 t)
    | ⟨7, _⟩ => (acc2 V c t.val t.isLt).1
    | ⟨8, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = lin2 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = (acc2 V c t.val t.isLt).1 := by dsimp only [dat2]
theorem after2_8 (c : Dev nD) (t : Fin cfg2.N) : (dat2 V c).after 8 t = (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7, after2_8]
  have hN : t.val < 20 := lt_of_lt_of_eq t.isLt (show cfg2.N = 20 from N_2)
  by_cases hz : t.val = 0
  · rw [PhiS2_castSucc V c t, PhiS2_zero V c _ _ hz, PhiA2_eq, acc2_zero V c t hz]
    iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_first c Set.univ (grid2.coords t) ((hcond2 t).mpr (by omega)) _ _ _ _ _ _ _ _ _ _ _ _ _ _ _ _ _ _ _ _ _ _
      (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrb Hg]
    · isplitl [HS0 HS1 Hrb]
      · isplitl [HS0 HS1]
        · isplitl [HS0]; · iexact HS0
          iexact HS1
        iexact Hrb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS2_castSucc V c t, PhiS2_pos V c _ _ hz, acc2_pos V c t hz]
    iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_later c Set.univ (grid2.coords t) (fun h => hz (by have := (hcond2 t).mp h; omega)) _ _ _ _ _ _ _ _ _ _ _ _ _ _ _ _ _ _ _ _ _ _
      (iblk2 V c 0 t) (iblk2 V c 1 t) (iblk2 V c 2 t) (iblk2 V c 3 t) (iblk2 V c 4 t) (iblk2 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrb Hg]
    · isplitl [HS0 HS1 Hrb]
      · isplitl [HS0 HS1]
        · isplitl [HS0]; · iexact HS0
          iexact HS1
        iexact Hrb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation2 (c : Dev nD) : BodyObligation (dat2 (F := F) V c) (defs₀ (F := F)) Variants.none () Set.univ := fun t => by
  rw [bigSep_W2, bigSep_W2]
  exact sound_body2 V c t

/-- After any point the invariant gives the class invariant back: what the running rows hold is forgotten. -/
theorem Phi_out2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro ⟨⟨⟨HS0, HS1⟩, Hrb⟩, Hg⟩
  isplitl [HS0 HS1 Hrb]
  · isplitl [HS0 HS1]
    · isplitl [HS0]; · iexists _; iexact HS0
      iexists _; iexact HS1
    iexact Hrb
  iexact Hg

end Region2

end Cert.Kernel.Hand

end
-- ==== Proof.K.R3.lean ====
/-
  The second normalisation kernel (batch normalisation, width 64, no rectifier) as one region of the program: the
  same account as for the first one, at the narrower row.
-/
import proofs.«172402_j2388001816783_1_alg».proof.Proof.Gen.Kernel.Launch
import proofs.«172402_j2388001816783_1_alg».proof.Proof.Gen.Kernel.Skeleton
import proofs.«172402_j2388001816783_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The normalisation kernel of width 64 (pipeline 3): at each of the 20 grid points it reads a block of 5000 rows
of the pre-activation and the four row vectors (mean, variance, scale, shift), and stores the normalised block. -/

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangle of the 5000-row block, and of a row vector. -/
abbrev rB3 : Rect S5000x64 := Rect.unit (s := S5000x64) ![0, 0] S5000x64.size inb_S5000x64_S5000x64_0_0
abbrev rV3 : Rect S1x64 := Rect.unit (s := S1x64) ![0, 0] S1x64.size inb_S1x64_S1x64_0_0

theorem zero2_3 : (![0, 0] : Fin 2 → Nat) = fun _ => 0 := by
  funext a; fin_cases a <;> rfl

/-- What the body leaves in the output block: its one whole-block store. -/
def out3 (mu var : Vec F S1x64 .f32) (x : Vec F S5000x64 .f32) (ga be : Vec F S1x64 .f32) : Vec F S5000x64 .f32 :=
  View.canon [⟨rB3, k3_pay1 (View.ld mu rV3) (View.ld var rV3) (View.ld x rB3) (View.ld ga rV3) (View.ld be rV3)⟩]

theorem cover3 (p0 : Vec F S5000x64 .f32) (y : S5000x64.Idx) :
    ∃ pc ∈ ([⟨rB3, p0⟩] : List (View.Piece (Elt F) S5000x64 .f32)), y ∈ pc.1.set :=
  ⟨_, List.mem_singleton_self _, View.mem_set_unit_zero zero2_3 inb_S5000x64_S5000x64_0_0 y⟩

set_option maxHeartbeats 1000000 in
/-- The body on whole staging memrefs: the five inputs at read contents, the output at anything; it runs to the
    continuation with the inputs as they were and the output at `out3` of them. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x : Vec F S5000x64 .f32) (mu var ga be : Vec F S1x64 .f32) (K : PUnit → sProp 𝕄) :
    iprop(owns (c : Thread nD τ) arg1 fullShare x ∗ owns (c : Thread nD τ) arg2 fullShare mu ∗ owns (c : Thread nD τ) arg3 fullShare var
        ∗ owns (c : Thread nD τ) arg4 fullShare ga ∗ owns (c : Thread nD τ) arg5 fullShare be ∗ (∃ d, owns (c : Thread nD τ) arg6 fullShare d)
        ∗ (iprop(owns (c : Thread nD τ) arg1 fullShare x ∗ owns (c : Thread nD τ) arg2 fullShare mu ∗ owns (c : Thread nD τ) arg3 fullShare var
            ∗ owns (c : Thread nD τ) arg4 fullShare ga ∗ owns (c : Thread nD τ) arg5 fullShare be
            ∗ owns (c : Thread nD τ) arg6 fullShare (out3 mu var x ga be)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The proof data of pipeline 3 on core `c`: the arrays as the region finds them; after the body each input's buffer
    at its block and the output's at `out3` of the input blocks; the scoped rest and the generator register untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 1 t) (iblk3 V c 2 t) (iblk3 V c 0 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3 (iblk3 V c 1 t) (iblk3 V c 2 t) (iblk3 V c 0 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Run.lean ====
/-
  The whole program as a run: the contents of every unscoped buffer at each boundary between a stretch of host lines and
  a kernel region, folded from the launch memory; the proof data of the four pipelines, each at the contents its region
  is entered with; the four regions as segments of the launch; and the run itself — every weakly fair execution
  terminates, nothing faulting, with every unscoped buffer at the last boundary's contents. For any float
  interpretation.
-/
import proofs.«172402_j2388001816783_1_alg».proof.Proof.Gen.Kernel.Launch
import proofs.«172402_j2388001816783_1_alg».proof.Proof.Gen.Kernel.Skeleton
import proofs.«172402_j2388001816783_1_alg».proof.Proof.Gen.Kernel.Points
import proofs.«172402_j2388001816783_1_alg».proof.Proof.K.R0
import proofs.«172402_j2388001816783_1_alg».proof.Proof.K.R1
import proofs.«172402_j2388001816783_1_alg».proof.Proof.K.R2
import proofs.«172402_j2388001816783_1_alg».proof.Proof.K.R3
import proofs.«172402_j2388001816783_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two segments: a fold from the launch memory -/

/-- Core `c`'s buffers at launch. -/
abbrev W0 : Dev nD → Valuation τ sig (Elt F) := fun c b => m (c, b)
/-- After the host lines before region 0. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its arrays at what its write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- A buffer that is no output of region 0 leaves it as it entered: an input window's array is never written. -/
theorem W2_keep (c : Dev nD) (b : Ref sig .tc) (hb : b ∉ ([main_v16_0, main_v16_1, main_v16_2] : List (Ref sig .tc))) :
    W2 m c (Proc.devRef .tc b) = W1 m c (Proc.devRef .tc b) := by
  by_cases h : ∃ w, Pipeline.arrRef spec0 w = b
  · obtain ⟨w, rfl⟩ := h
    have hin : (cfg0.win w).isOut = false := by
      revert hb; fin_cases w <;> decide
    exact (W2_arr m c w).trans (((dat0 (U1 m) c).arrAt_in w hin _).trans (A_eq0 (U1 m) c w))
  · exact W2_of_ne m c b fun w e => h ⟨w, e⟩
theorem W1_keep (c : Dev nD) (b : Ref sig .tc) (hb : b ∉ hostOps0_W) :
    W1 m c (Proc.devRef .tc b) = W0 m c (Proc.devRef .tc b) :=
  StableHlo.after_of_writes_sub hostOps0 _ hostOps0_writes hb

/-- After the host lines before region 1. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit: its arrays at what its write-backs leave, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- A buffer that is no output of region 1 leaves it as it entered: an input window's array is never written. -/
theorem W4_keep (c : Dev nD) (b : Ref sig .tc) (hb : b ∉ ([main_v25] : List (Ref sig .tc))) :
    W4 m c (Proc.devRef .tc b) = W3 m c (Proc.devRef .tc b) := by
  by_cases h : ∃ w, Pipeline.arrRef spec1 w = b
  · obtain ⟨w, rfl⟩ := h
    have hin : (cfg1.win w).isOut = false := by
      revert hb; fin_cases w <;> decide
    exact (W4_arr m c w).trans (((dat1 (U3 m) c).arrAt_in w hin _).trans (A_eq1 (U3 m) c w))
  · exact W4_of_ne m c b fun w e => h ⟨w, e⟩
theorem W3_keep (c : Dev nD) (b : Ref sig .tc) (hb : b ∉ hostOps1_W) :
    W3 m c (Proc.devRef .tc b) = W2 m c (Proc.devRef .tc b) :=
  StableHlo.after_of_writes_sub hostOps1 _ hostOps1_writes hb

/-- After the host lines before region 2. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit: its arrays at what its write-backs leave, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- A buffer that is no output of region 2 leaves it as it entered: an input window's array is never written. -/
theorem W6_keep (c : Dev nD) (b : Ref sig .tc) (hb : b ∉ ([main_v37_0, main_v37_1, main_v37_2] : List (Ref sig .tc))) :
    W6 m c (Proc.devRef .tc b) = W5 m c (Proc.devRef .tc b) := by
  by_cases h : ∃ w, Pipeline.arrRef spec2 w = b
  · obtain ⟨w, rfl⟩ := h
    have hin : (cfg2.win w).isOut = false := by
      revert hb; fin_cases w <;> decide
    exact (W6_arr m c w).trans (((dat2 (U5 m) c).arrAt_in w hin _).trans (A_eq2 (U5 m) c w))
  · exact W6_of_ne m c b fun w e => h ⟨w, e⟩
theorem W5_keep (c : Dev nD) (b : Ref sig .tc) (hb : b ∉ hostOps2_W) :
    W5 m c (Proc.devRef .tc b) = W4 m c (Proc.devRef .tc b) :=
  StableHlo.after_of_writes_sub hostOps2 _ hostOps2_writes hb

/-- After the host lines before region 3. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- At region 3's exit: its arrays at what its write-backs leave, every other buffer as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- A buffer that is no output of region 3 leaves it as it entered: an input window's array is never written. -/
theorem W8_keep (c : Dev nD) (b : Ref sig .tc) (hb : b ∉ ([main_v46] : List (Ref sig .tc))) :
    W8 m c (Proc.devRef .tc b) = W7 m c (Proc.devRef .tc b) := by
  by_cases h : ∃ w, Pipeline.arrRef spec3 w = b
  · obtain ⟨w, rfl⟩ := h
    have hin : (cfg3.win w).isOut = false := by
      revert hb; fin_cases w <;> decide
    exact (W8_arr m c w).trans (((dat3 (U7 m) c).arrAt_in w hin _).trans (A_eq3 (U7 m) c w))
  · exact W8_of_ne m c b fun w e => h ⟨w, e⟩
theorem W7_keep (c : Dev nD) (b : Ref sig .tc) (hb : b ∉ hostOps3_W) :
    W7 m c (Proc.devRef .tc b) = W6 m c (Proc.devRef .tc b) :=
  StableHlo.after_of_writes_sub hostOps3 _ hostOps3_writes hb

/-- A buffer no host line writes and no region produces ends as launched. -/
theorem W8_launch (c : Dev nD) (b : Ref sig .tc) (h0 : b ∉ hostOps0_W) (h1 : b ∉ hostOps1_W) (h2 : b ∉ hostOps2_W) (h3 : b ∉ hostOps3_W)
    (ho : b ∉ ([main_v16_0, main_v16_1, main_v16_2, main_v25, main_v37_0, main_v37_1, main_v37_2, main_v46] : List (Ref sig .tc))) :
    W8 m c (Proc.devRef .tc b) = m ((c : Thread nD τ).loc b) := by
  have e8 := W8_keep m c b (fun h => ho (by simp only [List.mem_cons, List.mem_nil_iff, or_false] at h ⊢; tauto))
  have e6 := W6_keep m c b (fun h => ho (by simp only [List.mem_cons, List.mem_nil_iff, or_false] at h ⊢; tauto))
  have e4 := W4_keep m c b (fun h => ho (by simp only [List.mem_cons, List.mem_nil_iff, or_false] at h ⊢; tauto))
  have e2 := W2_keep m c b (fun h => ho (by simp only [List.mem_cons, List.mem_nil_iff, or_false] at h ⊢; tauto))
  exact e8.trans ((W7_keep m c b h3).trans (e6.trans ((W5_keep m c b h2).trans (e4.trans ((W3_keep m c b h1).trans (e2.trans ((W1_keep m c b h0).trans rfl)))))))

/-! ## The proof data family and the state carried between segments -/

abbrev admH : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the carried state: entered from every unscoped buffer at `W1`, left at `W2`. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out0 (U1 m) c).trans ?_
    (try unfold Pipeline.ΦA)
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the carried state: entered from every unscoped buffer at `W3`, left at `W4`. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the carried state: entered from every unscoped buffer at `W5`, left at `W6`. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi_out2 (U5 m) c).trans ?_
    (try unfold Pipeline.ΦA)
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the carried state: entered from every unscoped buffer at `W7`, left at `W8`. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
theorem main_run (c : Dev nD) : main (F := F) c = Pipeline.Seg.run (segsH m) := (main_chain c).trans (by chain_rfl)

set_option backward.isDefEq.respectTransparency.types false in
/-- THE RUN. From any memory with zero counters every weakly fair execution of @main on the TensorCores terminates,
    nothing faulting, and every unscoped buffer ends at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: every argument array ends as launched — no host line writes one and no region produces one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
    (h c _ (mem_uc main_arg0 (by decide))).trans (W8_launch m c main_arg0 (by decide) (by decide) (by decide) (by decide) (by decide)),
    (h c _ (mem_uc main_arg1 (by decide))).trans (W8_launch m c main_arg1 (by decide) (by decide) (by decide) (by decide) (by decide)),
    (h c _ (mem_uc main_arg2 (by decide))).trans (W8_launch m c main_arg2 (by decide) (by decide) (by decide) (by decide) (by decide)),
    (h c _ (mem_uc main_arg3 (by decide))).trans (W8_launch m c main_arg3 (by decide) (by decide) (by decide) (by decide) (by decide)),
    (h c _ (mem_uc main_arg4 (by decide))).trans (W8_launch m c main_arg4 (by decide) (by decide) (by decide) (by decide) (by decide)),
    (h c _ (mem_uc main_arg5 (by decide))).trans (W8_launch m c main_arg5 (by decide) (by decide) (by decide) (by decide) (by decide)),
    (h c _ (mem_uc main_arg6 (by decide))).trans (W8_launch m c main_arg6 (by decide) (by decide) (by decide) (by decide) (by decide)),
    (h c _ (mem_uc main_arg7 (by decide))).trans (W8_launch m c main_arg7 (by decide) (by decide) (by decide) (by decide) (by decide)),
    (h c _ (mem_uc main_arg8 (by decide))).trans (W8_launch m c main_arg8 (by decide) (by decide) (by decide) (by decide) (by decide)),
    (h c _ (mem_uc main_arg9 (by decide))).trans (W8_launch m c main_arg9 (by decide) (by decide) (by decide) (by decide) (by decide)),
    (h c _ (mem_uc main_arg10 (by decide))).trans (W8_launch m c main_arg10 (by decide) (by decide) (by decide) (by decide) (by decide)),
    (h c _ (mem_uc main_arg11 (by decide))).trans (W8_launch m c main_arg11 (by decide) (by decide) (by decide) (by decide) (by decide)),
    (h c _ (mem_uc main_arg12 (by decide))).trans (W8_launch m c main_arg12 (by decide) (by decide) (by decide) (by decide) (by decide))⟩)
    (run_all m ρ)

end Cert.Kernel.Hand

end
-- ==== Proof.KI.R0.lean ====
/-
  The first linear layer with its running column statistics (output width 128) as one region of the program: what each
  window's staging buffer and the two scratch rows hold before and after the body at every grid point, the body's run
  at the first point and at a later one, and the per-point obligation the launch asks for. For any float
  interpretation and any contents `V` of the buffers when the region is entered.
-/
import proofs.«172402_j2388001816783_1_alg».proof.Proof.Gen.KernelIdeal.Launch
import proofs.«172402_j2388001816783_1_alg».proof.Proof.Gen.KernelIdeal.Skeleton
import proofs.«172402_j2388001816783_1_alg».proof.Proof.Gen.KernelIdeal.Points
import proofs.«172402_j2388001816783_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear layer with running column statistics, output width 128 (pipeline 0).
At each of the 20 grid points the body reads a block of 5000 rows of the layer's input, of the aggregated
neighbours and of the degrees, and the two weight matrices and the bias; it stores the block of pre-activations, and adds
the block's column sums and column sums of squares to two rows it keeps in scratch memory from one point to the next
(both rows are zeroed at the first point); after every point it copies the two rows to two one-row outputs. -/

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles of the body's loads and stores. -/
abbrev rX0 : Rect S5000x128 := Rect.unit (s := S5000x128) ![0, 0] S5000x128.size inb_S5000x128_S5000x128_0_0
abbrev rD0 : Rect S5000x1 := Rect.unit (s := S5000x1) ![0, 0] S5000x1.size inb_S5000x1_S5000x1_0_0
abbrev rW0 : Rect S128x128 := Rect.unit (s := S128x128) ![0, 0] S128x128.size inb_S128x128_S128x128_0_0
abbrev rV0 : Rect S1x128 := Rect.unit (s := S1x128) ![0, 0] S1x128.size inb_S1x128_S1x128_0_0

/-- The block of pre-activations the body stores, from the six input blocks. -/
def lin0 (x a : Vec F S5000x128 .f32) (dg : Vec F S5000x1 .f32) (ws wn : Vec F S128x128 .f32) (b : Vec F S1x128 .f32) : Vec F S5000x128 .f32 :=
  k0_pay4 (View.ld x rX0) (View.ld a rX0) (View.ld dg rD0) (View.ld ws rW0) (View.ld wn rW0) (View.ld b rV0)
/-- The running row of column sums after a point, from the row `s` the point found. -/
def sumS0 (x a : Vec F S5000x128 .f32) (dg : Vec F S5000x1 .f32) (ws wn : Vec F S128x128 .f32) (b : Vec F S1x128 .f32) (s : Vec F S1x128 .f32) : Vec F S1x128 .f32 :=
  k0_pay5 (View.ld x rX0) (View.ld a rX0) (View.ld dg rD0) (View.ld ws rW0) (View.ld wn rW0) (View.ld b rV0) s
/-- The running row of column sums of squares after a point, from the row `q` the point found. -/
def sqS0 (x a : Vec F S5000x128 .f32) (dg : Vec F S5000x1 .f32) (ws wn : Vec F S128x128 .f32) (b : Vec F S1x128 .f32) (q : Vec F S1x128 .f32) : Vec F S1x128 .f32 :=
  k0_pay1 (lin0 x a dg ws wn b) q

/-- The body's branch: taken at the first grid point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 20 = 0 :=
  (by decide +kernel : ∀ t : Fin grid0.N, cond0 (grid0.coords t) ↔ t.val % 20 = 0)

set_option maxHeartbeats 2000000 in
/-- The body at the first point: the two scratch rows at anything; both are zeroed, then hold the first block's sums. -/
theorem sound_kernel0_first (c : Dev nD) (E : Set ℕ) (i : grid0.Coords) (hc : cond0 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x a : Vec F S5000x128 .f32) (dg : Vec F S5000x1 .f32) (ws wn : Vec F S128x128 .f32) (b : Vec F S1x128 .f32) (K : PUnit → sProp 𝕄) :
    iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
            ∗ owns (c : Thread nD τ) arg7 fullShare (lin0 x a dg ws wn b) ∗ owns (c : Thread nD τ) arg8 fullShare (sumS0 x a dg ws wn b (k0_pay2 (F := F))) ∗ owns (c : Thread nD τ) arg9 fullShare (sqS0 x a dg ws wn b (k0_pay3 (F := F))) ∗ owns (c : Thread nD τ) arg10 fullShare (sumS0 x a dg ws wn b (k0_pay2 (F := F))) ∗ owns (c : Thread nD τ) arg11 fullShare (sqS0 x a dg ws wn b (k0_pay3 (F := F)))) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10 arg11 harg11) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf1 hf2 hf3 hf4 hf5 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact Cert.LibWholeStore.read_writes_cons _ _ Cert.LibWholeStore.zero2 _ _ _
  isplitl [H8]
  · iexists _; isplitr
    swap; · iexact H8
    ipureintro; sl_unfold_words
    exact (Cert.LibWholeStore.read_writes_cons _ _ Cert.LibWholeStore.zero2 _ _ _).trans ((Cert.LibWholeStore.readCov_cons _ Cert.LibWholeStore.zero2 _ _ _).trans
      (congrArg (fun s => sumS0 _ _ _ _ _ _ s) (Cert.LibWholeStore.readCov_cons _ Cert.LibWholeStore.zero2 _ _ _)))
  isplitl [H9]
  · iexists _; isplitr
    swap; · iexact H9
    ipureintro; sl_unfold_words
    exact (Cert.LibWholeStore.read_writes_cons _ _ Cert.LibWholeStore.zero2 _ _ _).trans ((Cert.LibWholeStore.readCov_cons _ Cert.LibWholeStore.zero2 _ _ _).trans
      (congrArg (fun q => sqS0 _ _ _ _ _ _ q) (Cert.LibWholeStore.readCov_cons _ Cert.LibWholeStore.zero2 _ _ _)))
  isplitl [H10]
  · iexists _; isplitr
    swap; · iexact H10
    ipureintro; sl_unfold_words
    exact (Cert.LibWholeStore.read_writes_cons _ _ Cert.LibWholeStore.zero2 _ _ _).trans
      (congrArg (fun s => sumS0 _ _ _ _ _ _ s) (Cert.LibWholeStore.readCov_cons _ Cert.LibWholeStore.zero2 _ _ _))
  iexists _; isplitr
  swap; · iexact H11
  ipureintro; sl_unfold_words
  exact (Cert.LibWholeStore.read_writes_cons _ _ Cert.LibWholeStore.zero2 _ _ _).trans
    (congrArg (fun q => sqS0 _ _ _ _ _ _ q) (Cert.LibWholeStore.readCov_cons _ Cert.LibWholeStore.zero2 _ _ _))

set_option maxHeartbeats 2000000 in
/-- The body at a later point: the two scratch rows at what the point before left; each gains the block's sums. -/
theorem sound_kernel0_later (c : Dev nD) (E : Set ℕ) (i : grid0.Coords) (hc : ¬ cond0 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (x a : Vec F S5000x128 .f32) (dg : Vec F S5000x1 .f32) (ws wn : Vec F S128x128 .f32) (b s q : Vec F S1x128 .f32) (K : PUnit → sProp 𝕄) :
    iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
            ∗ owns (c : Thread nD τ) arg7 fullShare (lin0 x a dg ws wn b) ∗ owns (c : Thread nD τ) arg8 fullShare (sumS0 x a dg ws wn b (View.ld s rV0)) ∗ owns (c : Thread nD τ) arg9 fullShare (sqS0 x a dg ws wn b (View.ld q rV0)) ∗ owns (c : Thread nD τ) arg10 fullShare (sumS0 x a dg ws wn b (View.ld s rV0)) ∗ owns (c : Thread nD τ) arg11 fullShare (sqS0 x a dg ws wn b (View.ld q rV0))) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10 arg11 harg11) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  subst hf1 hf2 hf3 hf4 hf5 hf6 hf10 hf11
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact Cert.LibWholeStore.read_writes_cons _ _ Cert.LibWholeStore.zero2 _ _ _
  isplitl [H8]
  · iexists _; isplitr
    swap; · iexact H8
    ipureintro; sl_unfold_words
    exact (Cert.LibWholeStore.read_writes_cons _ _ Cert.LibWholeStore.zero2 _ _ _).trans (Cert.LibWholeStore.readCov_cons _ Cert.LibWholeStore.zero2 _ _ _)
  isplitl [H9]
  · iexists _; isplitr
    swap; · iexact H9
    ipureintro; sl_unfold_words
    exact (Cert.LibWholeStore.read_writes_cons _ _ Cert.LibWholeStore.zero2 _ _ _).trans (Cert.LibWholeStore.readCov_cons _ Cert.LibWholeStore.zero2 _ _ _)
  isplitl [H10]
  · iexists _; isplitr
    swap; · iexact H10
    ipureintro; sl_unfold_words
    exact Cert.LibWholeStore.read_writes_cons _ _ Cert.LibWholeStore.zero2 _ _ _
  iexists _; isplitr
  swap; · iexact H11
  ipureintro; sl_unfold_words
  exact Cert.LibWholeStore.read_writes_cons _ _ Cert.LibWholeStore.zero2 _ _ _

/-! ## What the two running rows hold after each point -/

/-- The two running rows after point `n`: zero plus the first block's sums, then each later block's added. -/
def acc0 (c : Dev nD) : (n : ℕ) → n < cfg0.N → Vec F S1x128 .f32 × Vec F S1x128 .f32
  | 0, hn => (sumS0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (k0_pay2 (F := F)),
      sqS0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (k0_pay3 (F := F)))
  | n + 1, hn => (sumS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (View.ld (acc0 c n (Nat.lt_of_succ_lt hn)).1 rV0),
      sqS0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (View.ld (acc0 c n (Nat.lt_of_succ_lt hn)).2 rV0))

theorem acc0_zero (c : Dev nD) (t : Fin cfg0.N) (hz : t.val = 0) :
    acc0 V c t.val t.isLt = (sumS0 (iblk0 V c 0 t) (iblk0 V c 1 t) (iblk0 V c 2 t) (iblk0 V c 3 t) (iblk0 V c 4 t) (iblk0 V c 5 t) (k0_pay2 (F := F)), sqS0 (iblk0 V c 0 t) (iblk0 V c 1 t) (iblk0 V c 2 t) (iblk0 V c 3 t) (iblk0 V c 4 t) (iblk0 V c 5 t) (k0_pay3 (F := F))) := by
  obtain ⟨n, hn⟩ := t
  cases n with
  | zero => rfl
  | succ n => exact absurd hz (Nat.succ_ne_zero n)

theorem acc0_pos (c : Dev nD) (t : Fin cfg0.N) (hz : t.val ≠ 0) :
    acc0 V c t.val t.isLt
      = (sumS0 (iblk0 V c 0 t) (iblk0 V c 1 t) (iblk0 V c 2 t) (iblk0 V c 3 t) (iblk0 V c 4 t) (iblk0 V c 5 t) (View.ld (acc0 V c (t.val - 1) (Nat.lt_of_le_of_lt (Nat.sub_le _ _) t.isLt)).1 rV0),
         sqS0 (iblk0 V c 0 t) (iblk0 V c 1 t) (iblk0 V c 2 t) (iblk0 V c 3 t) (iblk0 V c 4 t) (iblk0 V c 5 t) (View.ld (acc0 V c (t.val - 1) (Nat.lt_of_le_of_lt (Nat.sub_le _ _) t.isLt)).2 rV0)) := by
  obtain ⟨n, hn⟩ := t
  cases n with
  | zero => exact absurd rfl hz
  | succ n => rfl

/-- The two scratch rows, as whole buffers. -/
abbrev scA0 : Memref sig .tc .vmem S1x128 .f32 := Memref.whole cc0_scratch0
abbrev scB0 : Memref sig .tc .vmem S1x128 .f32 := Memref.whole cc0_scratch1

/-- The region's invariant before point `n`: before the first point every scratch buffer at anything; afterwards the
    two running rows at what the point before left, the other scoped buffers and the generator register at anything. -/
def PhiS0 (c : Dev nD) : (n : ℕ) → n ≤ cfg0.N → sProp 𝕄
  | 0, _ => Pipeline.ΦA spec0 c
  | n + 1, hn => iprop(iprop(iprop(owns (c : Thread nD τ) scA0 fullShare (acc0 V c n hn).1 ∗ owns (c : Thread nD τ) scB0 fullShare (acc0 V c n hn).2)
      ∗ Pipeline.scopedRestBut (Ix := Unit) (Name := ℕ) (U := UR sig nD τ) (Lvl := ℕ) (Val := Elt F) spec0 c [cc0_scratch0, cc0_scratch1])
      ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scA0 fullShare (acc0 V c n hn).1 ∗ owns (c : Thread nD τ) scB0 fullShare (acc0 V c n hn).2)
      ∗ Pipeline.scopedRestBut (Ix := Unit) (Name := ℕ) (U := UR sig nD τ) (Lvl := ℕ) (Val := Elt F) spec0 c [cc0_scratch0, cc0_scratch1])
      ∗ (∃ r, prngReg c r)) := rfl
theorem PhiS0_pos (c : Dev nD) (n : ℕ) (h : n ≤ cfg0.N) (hz : n ≠ 0) :
    PhiS0 V c n h = iprop(iprop(iprop(owns (c : Thread nD τ) scA0 fullShare (acc0 V c (n - 1) (by omega)).1 ∗ owns (c : Thread nD τ) scB0 fullShare (acc0 V c (n - 1) (by omega)).2)
      ∗ Pipeline.scopedRestBut (Ix := Unit) (Name := ℕ) (U := UR sig nD τ) (Lvl := ℕ) (Val := Elt F) spec0 c [cc0_scratch0, cc0_scratch1])
      ∗ (∃ r, prngReg c r)) := by
  cases n with
  | zero => exact absurd rfl hz
  | succ n => rfl

/-- The class invariant with the two scratch rows taken out as owned buffers at some contents. -/
theorem PhiA0_eq (c : Dev nD) :
    (Pipeline.ΦA spec0 c : sProp 𝕄)
      = iprop(iprop(iprop((∃ d, owns (c : Thread nD τ) scA0 fullShare d) ∗ (∃ d, owns (c : Thread nD τ) scB0 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scA0, scB0, owns_whole]; try rfl

/-! ## The proof data and the per-point obligation -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => lin0 (iblk0 V c 0 t) (iblk0 V c 1 t) (iblk0 V c 2 t) (iblk0 V c 3 t) (iblk0 V c 4 t) (iblk0 V c 5 t)
    | ⟨7, _⟩ => (acc0 V c t.val t.isLt).1
    | ⟨8, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = lin0 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = (acc0 V c t.val t.isLt).1 := by dsimp only [dat0]
theorem after0_8 (c : Dev nD) (t : Fin cfg0.N) : (dat0 V c).after 8 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7, after0_8]
  have hN : t.val < 20 := lt_of_lt_of_eq t.isLt (show cfg0.N = 20 from N_0)
  by_cases hz : t.val = 0
  · rw [PhiS0_castSucc V c t, PhiS0_zero V c _ _ hz, PhiA0_eq, acc0_zero V c t hz]
    iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_first c Set.univ (grid0.coords t) ((hcond0 t).mpr (by omega)) _ _ _ _ _ _ _ _ _ _ _ _ _ _ _ _ _ _ _ _ _ _
      (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrb Hg]
    · isplitl [HS0 HS1 Hrb]
      · isplitl [HS0 HS1]
        · isplitl [HS0]; · iexact HS0
          iexact HS1
        iexact Hrb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS0_castSucc V c t, PhiS0_pos V c _ _ hz, acc0_pos V c t hz]
    iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_later c Set.univ (grid0.coords t) (fun h => hz (by have := (hcond0 t).mp h; omega)) _ _ _ _ _ _ _ _ _ _ _ _ _ _ _ _ _ _ _ _ _ _
      (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrb Hg]
    · isplitl [HS0 HS1 Hrb]
      · isplitl [HS0 HS1]
        · isplitl [HS0]; · iexact HS0
          iexact HS1
        iexact Hrb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation0 (c : Dev nD) : BodyObligation (dat0 (F := F) V c) (defs₀ (F := F)) Variants.none () Set.univ := fun t => by
  rw [bigSep_W0, bigSep_W0]
  exact sound_body0 V c t

/-- After any point the invariant gives the class invariant back: what the running rows hold is forgotten. -/
theorem Phi_out0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 20 := N_0; omega), PhiA0_eq]
  iintro ⟨⟨⟨HS0, HS1⟩, Hrb⟩, Hg⟩
  isplitl [HS0 HS1 Hrb]
  · isplitl [HS0 HS1]
    · isplitl [HS0]; · iexists _; iexact HS0
      iexists _; iexact HS1
    iexact Hrb
  iexact Hg

end Region0

end Cert.KernelIdeal.Hand

end
-- ==== Proof.KI.R1.lean ====
/-
  The first normalisation kernel (batch normalisation followed by a rectifier, width 128) as one region of the
  program: what each window's staging buffer holds before and after the body at every grid point, the body's run on
  whole staging buffers, and the per-point obligation the launch asks for. Stated for any float interpretation and
  for any contents `V` of the buffers when the region is entered.
-/
import proofs.«172402_j2388001816783_1_alg».proof.Proof.Gen.KernelIdeal.Launch
import proofs.«172402_j2388001816783_1_alg».proof.Proof.Gen.KernelIdeal.Skeleton
import proofs.«172402_j2388001816783_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The normalisation kernel of width 128 (pipeline 1): at each of the 20 grid points it reads a block of 5000 rows
of the pre-activation and the four row vectors (mean, variance, scale, shift), and stores the normalised block. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangle of the 5000-row block, and of a row vector. -/
abbrev rB1 : Rect S5000x128 := Rect.unit (s := S5000x128) ![0, 0] S5000x128.size inb_S5000x128_S5000x128_0_0
abbrev rV1 : Rect S1x128 := Rect.unit (s := S1x128) ![0, 0] S1x128.size inb_S1x128_S1x128_0_0

theorem zero2_1 : (![0, 0] : Fin 2 → Nat) = fun _ => 0 := by
  funext a; fin_cases a <;> rfl

/-- What the body leaves in the output block: its one whole-block store. -/
def out1 (mu var : Vec F S1x128 .f32) (x : Vec F S5000x128 .f32) (ga be : Vec F S1x128 .f32) : Vec F S5000x128 .f32 :=
  View.canon [⟨rB1, k1_pay1 (View.ld mu rV1) (View.ld var rV1) (View.ld x rB1) (View.ld ga rV1) (View.ld be rV1)⟩]

theorem cover1 (p0 : Vec F S5000x128 .f32) (y : S5000x128.Idx) :
    ∃ pc ∈ ([⟨rB1, p0⟩] : List (View.Piece (Elt F) S5000x128 .f32)), y ∈ pc.1.set :=
  ⟨_, List.mem_singleton_self _, View.mem_set_unit_zero zero2_1 inb_S5000x128_S5000x128_0_0 y⟩

set_option maxHeartbeats 1000000 in
/-- The body on whole staging memrefs: the five inputs at read contents, the output at anything; it runs to the
    continuation with the inputs as they were and the output at `out1` of them. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x : Vec F S5000x128 .f32) (mu var ga be : Vec F S1x128 .f32) (K : PUnit → sProp 𝕄) :
    iprop(owns (c : Thread nD τ) arg1 fullShare x ∗ owns (c : Thread nD τ) arg2 fullShare mu ∗ owns (c : Thread nD τ) arg3 fullShare var
        ∗ owns (c : Thread nD τ) arg4 fullShare ga ∗ owns (c : Thread nD τ) arg5 fullShare be ∗ (∃ d, owns (c : Thread nD τ) arg6 fullShare d)
        ∗ (iprop(owns (c : Thread nD τ) arg1 fullShare x ∗ owns (c : Thread nD τ) arg2 fullShare mu ∗ owns (c : Thread nD τ) arg3 fullShare var
            ∗ owns (c : Thread nD τ) arg4 fullShare ga ∗ owns (c : Thread nD τ) arg5 fullShare be
            ∗ owns (c : Thread nD τ) arg6 fullShare (out1 mu var x ga be)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-- The proof data of pipeline 1 on core `c`: the arrays as the region finds them; after the body each input's buffer
    at its block and the output's at `out1` of the input blocks; the scoped rest and the generator register untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 1 t) (iblk1 V c 2 t) (iblk1 V c 0 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1 (iblk1 V c 1 t) (iblk1 V c 2 t) (iblk1 V c 0 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.R2.lean ====
/-
  The second linear layer with its running column statistics (output width 64) as one region of the program: the same
  account as for the first one, at the narrower output.
-/
import proofs.«172402_j2388001816783_1_alg».proof.Proof.Gen.KernelIdeal.Launch
import proofs.«172402_j2388001816783_1_alg».proof.Proof.Gen.KernelIdeal.Skeleton
import proofs.«172402_j2388001816783_1_alg».proof.Proof.Gen.KernelIdeal.Points
import proofs.«172402_j2388001816783_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear layer with running column statistics, output width 64 (pipeline 2).
At each of the 20 grid points the body reads a block of 5000 rows of the layer's input, of the aggregated
neighbours and of the degrees, and the two weight matrices and the bias; it stores the block of pre-activations, and adds
the block's column sums and column sums of squares to two rows it keeps in scratch memory from one point to the next
(both rows are zeroed at the first point); after every point it copies the two rows to two one-row outputs. -/

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles of the body's loads and stores. -/
abbrev rX2 : Rect S5000x128 := Rect.unit (s := S5000x128) ![0, 0] S5000x128.size inb_S5000x128_S5000x128_0_0
abbrev rD2 : Rect S5000x1 := Rect.unit (s := S5000x1) ![0, 0] S5000x1.size inb_S5000x1_S5000x1_0_0
abbrev rW2 : Rect S128x64 := Rect.unit (s := S128x64) ![0, 0] S128x64.size inb_S128x64_S128x64_0_0
abbrev rV2 : Rect S1x64 := Rect.unit (s := S1x64) ![0, 0] S1x64.size inb_S1x64_S1x64_0_0

/-- The block of pre-activations the body stores, from the six input blocks. -/
def lin2 (x a : Vec F S5000x128 .f32) (dg : Vec F S5000x1 .f32) (ws wn : Vec F S128x64 .f32) (b : Vec F S1x64 .f32) : Vec F S5000x64 .f32 :=
  k2_pay5 (View.ld x rX2) (View.ld a rX2) (View.ld dg rD2) (View.ld ws rW2) (View.ld wn rW2) (View.ld b rV2)
/-- The running row of column sums after a point, from the row `s` the point found. -/
def sumS2 (x a : Vec F S5000x128 .f32) (dg : Vec F S5000x1 .f32) (ws wn : Vec F S128x64 .f32) (b : Vec F S1x64 .f32) (s : Vec F S1x64 .f32) : Vec F S1x64 .f32 :=
  k2_pay1 (k2_pay6 (View.ld x rX2) (View.ld a rX2) (View.ld dg rD2) (View.ld ws rW2) (View.ld wn rW2) (View.ld b rV2) s)
/-- The running row of column sums of squares after a point, from the row `q` the point found. -/
def sqS2 (x a : Vec F S5000x128 .f32) (dg : Vec F S5000x1 .f32) (ws wn : Vec F S128x64 .f32) (b : Vec F S1x64 .f32) (q : Vec F S1x64 .f32) : Vec F S1x64 .f32 :=
  k2_pay2 (lin2 x a dg ws wn b) q

/-- The body's branch: taken at the first grid point only. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val % 20 = 0 :=
  (by decide +kernel : ∀ t : Fin grid2.N, cond2 (grid2.coords t) ↔ t.val % 20 = 0)

set_option maxHeartbeats 2000000 in
/-- The body at the first point: the two scratch rows at anything; both are zeroed, then hold the first block's sums. -/
theorem sound_kernel2_first (c : Dev nD) (E : Set ℕ) (i : grid2.Coords) (hc : cond2 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x64 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S5000x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (arg11 : Memref sig .tc .vmem S1x64 .f32) (harg11 : arg11.IsWhole)
    (x a : Vec F S5000x128 .f32) (dg : Vec F S5000x1 .f32) (ws wn : Vec F S128x64 .f32) (b : Vec F S1x64 .f32) (K : PUnit → sProp 𝕄) :
    iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
            ∗ owns (c : Thread nD τ) arg7 fullShare (lin2 x a dg ws wn b) ∗ owns (c : Thread nD τ) arg8 fullShare (sumS2 x a dg ws wn b (k2_pay3 (F := F))) ∗ owns (c : Thread nD τ) arg9 fullShare (sqS2 x a dg ws wn b (k2_pay4 (F := F))) ∗ owns (c : Thread nD τ) arg10 fullShare (sumS2 x a dg ws wn b (k2_pay3 (F := F))) ∗ owns (c : Thread nD τ) arg11 fullShare (sqS2 x a dg ws wn b (k2_pay4 (F := F)))) -∗ K ⟨⟩))
      ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10 arg11 harg11) K := by
  simp only [cc2__linear_stats_kernel_eq_skeleton]; unfold cc2__linear_stats_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf1 hf2 hf3 hf4 hf5 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact Cert.LibWholeStore.read_writes_cons _ _ Cert.LibWholeStore.zero2 _ _ _
  isplitl [H8]
  · iexists _; isplitr
    swap; · iexact H8
    ipureintro; sl_unfold_words
    exact (Cert.LibWholeStore.read_writes_cons _ _ Cert.LibWholeStore.zero2 _ _ _).trans ((Cert.LibWholeStore.readCov_cons _ Cert.LibWholeStore.zero2 _ _ _).trans
      (congrArg (fun s => sumS2 _ _ _ _ _ _ s) (Cert.LibWholeStore.readCov_cons _ Cert.LibWholeStore.zero2 _ _ _)))
  isplitl [H9]
  · iexists _; isplitr
    swap; · iexact H9
    ipureintro; sl_unfold_words
    exact (Cert.LibWholeStore.read_writes_cons _ _ Cert.LibWholeStore.zero2 _ _ _).trans ((Cert.LibWholeStore.readCov_cons _ Cert.LibWholeStore.zero2 _ _ _).trans
      (congrArg (fun q => sqS2 _ _ _ _ _ _ q) (Cert.LibWholeStore.readCov_cons _ Cert.LibWholeStore.zero2 _ _ _)))
  isplitl [H10]
  · iexists _; isplitr
    swap; · iexact H10
    ipureintro; sl_unfold_words
    exact (Cert.LibWholeStore.read_writes_cons _ _ Cert.LibWholeStore.zero2 _ _ _).trans
      (congrArg (fun s => sumS2 _ _ _ _ _ _ s) (Cert.LibWholeStore.readCov_cons _ Cert.LibWholeStore.zero2 _ _ _))
  iexists _; isplitr
  swap; · iexact H11
  ipureintro; sl_unfold_words
  exact (Cert.LibWholeStore.read_writes_cons _ _ Cert.LibWholeStore.zero2 _ _ _).trans
    (congrArg (fun q => sqS2 _ _ _ _ _ _ q) (Cert.LibWholeStore.readCov_cons _ Cert.LibWholeStore.zero2 _ _ _))

set_option maxHeartbeats 2000000 in
/-- The body at a later point: the two scratch rows at what the point before left; each gains the block's sums. -/
theorem sound_kernel2_later (c : Dev nD) (E : Set ℕ) (i : grid2.Coords) (hc : ¬ cond2 i)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x64 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S5000x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (arg11 : Memref sig .tc .vmem S1x64 .f32) (harg11 : arg11.IsWhole)
    (x a : Vec F S5000x128 .f32) (dg : Vec F S5000x1 .f32) (ws wn : Vec F S128x64 .f32) (b s q : Vec F S1x64 .f32) (K : PUnit → sProp 𝕄) :
    iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x ∗ owns (c : Thread nD τ) arg2 fullShare a ∗ owns (c : Thread nD τ) arg3 fullShare dg ∗ owns (c : Thread nD τ) arg4 fullShare ws ∗ owns (c : Thread nD τ) arg5 fullShare wn ∗ owns (c : Thread nD τ) arg6 fullShare b
            ∗ owns (c : Thread nD τ) arg7 fullShare (lin2 x a dg ws wn b) ∗ owns (c : Thread nD τ) arg8 fullShare (sumS2 x a dg ws wn b (View.ld s rV2)) ∗ owns (c : Thread nD τ) arg9 fullShare (sqS2 x a dg ws wn b (View.ld q rV2)) ∗ owns (c : Thread nD τ) arg10 fullShare (sumS2 x a dg ws wn b (View.ld s rV2)) ∗ owns (c : Thread nD τ) arg11 fullShare (sqS2 x a dg ws wn b (View.ld q rV2))) -∗ K ⟨⟩))
      ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10 arg11 harg11) K := by
  simp only [cc2__linear_stats_kernel_eq_skeleton]; unfold cc2__linear_stats_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  subst hf1 hf2 hf3 hf4 hf5 hf6 hf10 hf11
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact Cert.LibWholeStore.read_writes_cons _ _ Cert.LibWholeStore.zero2 _ _ _
  isplitl [H8]
  · iexists _; isplitr
    swap; · iexact H8
    ipureintro; sl_unfold_words
    exact (Cert.LibWholeStore.read_writes_cons _ _ Cert.LibWholeStore.zero2 _ _ _).trans (Cert.LibWholeStore.readCov_cons _ Cert.LibWholeStore.zero2 _ _ _)
  isplitl [H9]
  · iexists _; isplitr
    swap; · iexact H9
    ipureintro; sl_unfold_words
    exact (Cert.LibWholeStore.read_writes_cons _ _ Cert.LibWholeStore.zero2 _ _ _).trans (Cert.LibWholeStore.readCov_cons _ Cert.LibWholeStore.zero2 _ _ _)
  isplitl [H10]
  · iexists _; isplitr
    swap; · iexact H10
    ipureintro; sl_unfold_words
    exact Cert.LibWholeStore.read_writes_cons _ _ Cert.LibWholeStore.zero2 _ _ _
  iexists _; isplitr
  swap; · iexact H11
  ipureintro; sl_unfold_words
  exact Cert.LibWholeStore.read_writes_cons _ _ Cert.LibWholeStore.zero2 _ _ _

/-! ## What the two running rows hold after each point -/

/-- The two running rows after point `n`: zero plus the first block's sums, then each later block's added. -/
def acc2 (c : Dev nD) : (n : ℕ) → n < cfg2.N → Vec F S1x64 .f32 × Vec F S1x64 .f32
  | 0, hn => (sumS2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (k2_pay3 (F := F)),
      sqS2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (k2_pay4 (F := F)))
  | n + 1, hn => (sumS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (View.ld (acc2 c n (Nat.lt_of_succ_lt hn)).1 rV2),
      sqS2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (View.ld (acc2 c n (Nat.lt_of_succ_lt hn)).2 rV2))

theorem acc2_zero (c : Dev nD) (t : Fin cfg2.N) (hz : t.val = 0) :
    acc2 V c t.val t.isLt = (sumS2 (iblk2 V c 0 t) (iblk2 V c 1 t) (iblk2 V c 2 t) (iblk2 V c 3 t) (iblk2 V c 4 t) (iblk2 V c 5 t) (k2_pay3 (F := F)), sqS2 (iblk2 V c 0 t) (iblk2 V c 1 t) (iblk2 V c 2 t) (iblk2 V c 3 t) (iblk2 V c 4 t) (iblk2 V c 5 t) (k2_pay4 (F := F))) := by
  obtain ⟨n, hn⟩ := t
  cases n with
  | zero => rfl
  | succ n => exact absurd hz (Nat.succ_ne_zero n)

theorem acc2_pos (c : Dev nD) (t : Fin cfg2.N) (hz : t.val ≠ 0) :
    acc2 V c t.val t.isLt
      = (sumS2 (iblk2 V c 0 t) (iblk2 V c 1 t) (iblk2 V c 2 t) (iblk2 V c 3 t) (iblk2 V c 4 t) (iblk2 V c 5 t) (View.ld (acc2 V c (t.val - 1) (Nat.lt_of_le_of_lt (Nat.sub_le _ _) t.isLt)).1 rV2),
         sqS2 (iblk2 V c 0 t) (iblk2 V c 1 t) (iblk2 V c 2 t) (iblk2 V c 3 t) (iblk2 V c 4 t) (iblk2 V c 5 t) (View.ld (acc2 V c (t.val - 1) (Nat.lt_of_le_of_lt (Nat.sub_le _ _) t.isLt)).2 rV2)) := by
  obtain ⟨n, hn⟩ := t
  cases n with
  | zero => exact absurd rfl hz
  | succ n => rfl

/-- The two scratch rows, as whole buffers. -/
abbrev scA2 : Memref sig .tc .vmem S1x64 .f32 := Memref.whole cc2_scratch0
abbrev scB2 : Memref sig .tc .vmem S1x64 .f32 := Memref.whole cc2_scratch1

/-- The region's invariant before point `n`: before the first point every scratch buffer at anything; afterwards the
    two running rows at what the point before left, the other scoped buffers and the generator register at anything. -/
def PhiS2 (c : Dev nD) : (n : ℕ) → n ≤ cfg2.N → sProp 𝕄
  | 0, _ => Pipeline.ΦA spec2 c
  | n + 1, hn => iprop(iprop(iprop(owns (c : Thread nD τ) scA2 fullShare (acc2 V c n hn).1 ∗ owns (c : Thread nD τ) scB2 fullShare (acc2 V c n hn).2)
      ∗ Pipeline.scopedRestBut (Ix := Unit) (Name := ℕ) (U := UR sig nD τ) (Lvl := ℕ) (Val := Elt F) spec2 c [cc2_scratch0, cc2_scratch1])
      ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scA2 fullShare (acc2 V c n hn).1 ∗ owns (c : Thread nD τ) scB2 fullShare (acc2 V c n hn).2)
      ∗ Pipeline.scopedRestBut (Ix := Unit) (Name := ℕ) (U := UR sig nD τ) (Lvl := ℕ) (Val := Elt F) spec2 c [cc2_scratch0, cc2_scratch1])
      ∗ (∃ r, prngReg c r)) := rfl
theorem PhiS2_pos (c : Dev nD) (n : ℕ) (h : n ≤ cfg2.N) (hz : n ≠ 0) :
    PhiS2 V c n h = iprop(iprop(iprop(owns (c : Thread nD τ) scA2 fullShare (acc2 V c (n - 1) (by omega)).1 ∗ owns (c : Thread nD τ) scB2 fullShare (acc2 V c (n - 1) (by omega)).2)
      ∗ Pipeline.scopedRestBut (Ix := Unit) (Name := ℕ) (U := UR sig nD τ) (Lvl := ℕ) (Val := Elt F) spec2 c [cc2_scratch0, cc2_scratch1])
      ∗ (∃ r, prngReg c r)) := by
  cases n with
  | zero => exact absurd rfl hz
  | succ n => rfl

/-- The class invariant with the two scratch rows taken out as owned buffers at some contents. -/
theorem PhiA2_eq (c : Dev nD) :
    (Pipeline.ΦA spec2 c : sProp 𝕄)
      = iprop(iprop(iprop((∃ d, owns (c : Thread nD τ) scA2 fullShare d) ∗ (∃ d, owns (c : Thread nD τ) scB2 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scA2, scB2, owns_whole]; try rfl

/-! ## The proof data and the per-point obligation -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => lin2 (iblk2 V c 0 t) (iblk2 V c 1 t) (iblk2 V c 2 t) (iblk2 V c 3 t) (iblk2 V c 4 t) (iblk2 V c 5 t)
    | ⟨7, _⟩ => (acc2 V c t.val t.isLt).1
    | ⟨8, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = lin2 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = (acc2 V c t.val t.isLt).1 := by dsimp only [dat2]
theorem after2_8 (c : Dev nD) (t : Fin cfg2.N) : (dat2 V c).after 8 t = (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7, after2_8]
  have hN : t.val < 20 := lt_of_lt_of_eq t.isLt (show cfg2.N = 20 from N_2)
  by_cases hz : t.val = 0
  · rw [PhiS2_castSucc V c t, PhiS2_zero V c _ _ hz, PhiA2_eq, acc2_zero V c t hz]
    iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_first c Set.univ (grid2.coords t) ((hcond2 t).mpr (by omega)) _ _ _ _ _ _ _ _ _ _ _ _ _ _ _ _ _ _ _ _ _ _
      (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrb Hg]
    · isplitl [HS0 HS1 Hrb]
      · isplitl [HS0 HS1]
        · isplitl [HS0]; · iexact HS0
          iexact HS1
        iexact Hrb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS2_castSucc V c t, PhiS2_pos V c _ _ hz, acc2_pos V c t hz]
    iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_later c Set.univ (grid2.coords t) (fun h => hz (by have := (hcond2 t).mp h; omega)) _ _ _ _ _ _ _ _ _ _ _ _ _ _ _ _ _ _ _ _ _ _
      (iblk2 V c 0 t) (iblk2 V c 1 t) (iblk2 V c 2 t) (iblk2 V c 3 t) (iblk2 V c 4 t) (iblk2 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrb Hg]
    · isplitl [HS0 HS1 Hrb]
      · isplitl [HS0 HS1]
        · isplitl [HS0]; · iexact HS0
          iexact HS1
        iexact Hrb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation2 (c : Dev nD) : BodyObligation (dat2 (F := F) V c) (defs₀ (F := F)) Variants.none () Set.univ := fun t => by
  rw [bigSep_W2, bigSep_W2]
  exact sound_body2 V c t

/-- After any point the invariant gives the class invariant back: what the running rows hold is forgotten. -/
theorem Phi_out2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro ⟨⟨⟨HS0, HS1⟩, Hrb⟩, Hg⟩
  isplitl [HS0 HS1 Hrb]
  · isplitl [HS0 HS1]
    · isplitl [HS0]; · iexists _; iexact HS0
      iexists _; iexact HS1
    iexact Hrb
  iexact Hg

end Region2

end Cert.KernelIdeal.Hand

end
-- ==== Proof.KI.R3.lean ====
/-
  The second normalisation kernel (batch normalisation, width 64, no rectifier) as one region of the program: the
  same account as for the first one, at the narrower row.
-/
import proofs.«172402_j2388001816783_1_alg».proof.Proof.Gen.KernelIdeal.Launch
import proofs.«172402_j2388001816783_1_alg».proof.Proof.Gen.KernelIdeal.Skeleton
import proofs.«172402_j2388001816783_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The normalisation kernel of width 64 (pipeline 3): at each of the 20 grid points it reads a block of 5000 rows
of the pre-activation and the four row vectors (mean, variance, scale, shift), and stores the normalised block. -/

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangle of the 5000-row block, and of a row vector. -/
abbrev rB3 : Rect S5000x64 := Rect.unit (s := S5000x64) ![0, 0] S5000x64.size inb_S5000x64_S5000x64_0_0
abbrev rV3 : Rect S1x64 := Rect.unit (s := S1x64) ![0, 0] S1x64.size inb_S1x64_S1x64_0_0

theorem zero2_3 : (![0, 0] : Fin 2 → Nat) = fun _ => 0 := by
  funext a; fin_cases a <;> rfl

/-- What the body leaves in the output block: its one whole-block store. -/
def out3 (mu var : Vec F S1x64 .f32) (x : Vec F S5000x64 .f32) (ga be : Vec F S1x64 .f32) : Vec F S5000x64 .f32 :=
  View.canon [⟨rB3, k3_pay1 (View.ld mu rV3) (View.ld var rV3) (View.ld x rB3) (View.ld ga rV3) (View.ld be rV3)⟩]

theorem cover3 (p0 : Vec F S5000x64 .f32) (y : S5000x64.Idx) :
    ∃ pc ∈ ([⟨rB3, p0⟩] : List (View.Piece (Elt F) S5000x64 .f32)), y ∈ pc.1.set :=
  ⟨_, List.mem_singleton_self _, View.mem_set_unit_zero zero2_3 inb_S5000x64_S5000x64_0_0 y⟩

set_option maxHeartbeats 1000000 in
/-- The body on whole staging memrefs: the five inputs at read contents, the output at anything; it runs to the
    continuation with the inputs as they were and the output at `out3` of them. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x : Vec F S5000x64 .f32) (mu var ga be : Vec F S1x64 .f32) (K : PUnit → sProp 𝕄) :
    iprop(owns (c : Thread nD τ) arg1 fullShare x ∗ owns (c : Thread nD τ) arg2 fullShare mu ∗ owns (c : Thread nD τ) arg3 fullShare var
        ∗ owns (c : Thread nD τ) arg4 fullShare ga ∗ owns (c : Thread nD τ) arg5 fullShare be ∗ (∃ d, owns (c : Thread nD τ) arg6 fullShare d)
        ∗ (iprop(owns (c : Thread nD τ) arg1 fullShare x ∗ owns (c : Thread nD τ) arg2 fullShare mu ∗ owns (c : Thread nD τ) arg3 fullShare var
            ∗ owns (c : Thread nD τ) arg4 fullShare ga ∗ owns (c : Thread nD τ) arg5 fullShare be
            ∗ owns (c : Thread nD τ) arg6 fullShare (out3 mu var x ga be)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The proof data of pipeline 3 on core `c`: the arrays as the region finds them; after the body each input's buffer
    at its block and the output's at `out3` of the input blocks; the scoped rest and the generator register untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 1 t) (iblk3 V c 2 t) (iblk3 V c 0 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3 (iblk3 V c 1 t) (iblk3 V c 2 t) (iblk3 V c 0 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Run.lean ====
/-
  The whole program as a run: the contents of every unscoped buffer at each boundary between a stretch of host lines and
  a kernel region, folded from the launch memory; the proof data of the four pipelines, each at the contents its region
  is entered with; the four regions as segments of the launch; and the run itself — every weakly fair execution
  terminates, nothing faulting, with every unscoped buffer at the last boundary's contents. For any float
  interpretation.
-/
import proofs.«172402_j2388001816783_1_alg».proof.Proof.Gen.KernelIdeal.Launch
import proofs.«172402_j2388001816783_1_alg».proof.Proof.Gen.KernelIdeal.Skeleton
import proofs.«172402_j2388001816783_1_alg».proof.Proof.Gen.KernelIdeal.Points
import proofs.«172402_j2388001816783_1_alg».proof.Proof.KI.R0
import proofs.«172402_j2388001816783_1_alg».proof.Proof.KI.R1
import proofs.«172402_j2388001816783_1_alg».proof.Proof.KI.R2
import proofs.«172402_j2388001816783_1_alg».proof.Proof.KI.R3
import proofs.«172402_j2388001816783_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two segments: a fold from the launch memory -/

/-- Core `c`'s buffers at launch. -/
abbrev W0 : Dev nD → Valuation τ sig (Elt F) := fun c b => m (c, b)
/-- After the host lines before region 0. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its arrays at what its write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- A buffer that is no output of region 0 leaves it as it entered: an input window's array is never written. -/
theorem W2_keep (c : Dev nD) (b : Ref sig .tc) (hb : b ∉ ([main_v16_0, main_v16_1, main_v16_2] : List (Ref sig .tc))) :
    W2 m c (Proc.devRef .tc b) = W1 m c (Proc.devRef .tc b) := by
  by_cases h : ∃ w, Pipeline.arrRef spec0 w = b
  · obtain ⟨w, rfl⟩ := h
    have hin : (cfg0.win w).isOut = false := by
      revert hb; fin_cases w <;> decide
    exact (W2_arr m c w).trans (((dat0 (U1 m) c).arrAt_in w hin _).trans (A_eq0 (U1 m) c w))
  · exact W2_of_ne m c b fun w e => h ⟨w, e⟩
theorem W1_keep (c : Dev nD) (b : Ref sig .tc) (hb : b ∉ hostOps0_W) :
    W1 m c (Proc.devRef .tc b) = W0 m c (Proc.devRef .tc b) :=
  StableHlo.after_of_writes_sub hostOps0 _ hostOps0_writes hb

/-- After the host lines before region 1. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit: its arrays at what its write-backs leave, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- A buffer that is no output of region 1 leaves it as it entered: an input window's array is never written. -/
theorem W4_keep (c : Dev nD) (b : Ref sig .tc) (hb : b ∉ ([main_v25] : List (Ref sig .tc))) :
    W4 m c (Proc.devRef .tc b) = W3 m c (Proc.devRef .tc b) := by
  by_cases h : ∃ w, Pipeline.arrRef spec1 w = b
  · obtain ⟨w, rfl⟩ := h
    have hin : (cfg1.win w).isOut = false := by
      revert hb; fin_cases w <;> decide
    exact (W4_arr m c w).trans (((dat1 (U3 m) c).arrAt_in w hin _).trans (A_eq1 (U3 m) c w))
  · exact W4_of_ne m c b fun w e => h ⟨w, e⟩
theorem W3_keep (c : Dev nD) (b : Ref sig .tc) (hb : b ∉ hostOps1_W) :
    W3 m c (Proc.devRef .tc b) = W2 m c (Proc.devRef .tc b) :=
  StableHlo.after_of_writes_sub hostOps1 _ hostOps1_writes hb

/-- After the host lines before region 2. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit: its arrays at what its write-backs leave, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- A buffer that is no output of region 2 leaves it as it entered: an input window's array is never written. -/
theorem W6_keep (c : Dev nD) (b : Ref sig .tc) (hb : b ∉ ([main_v37_0, main_v37_1, main_v37_2] : List (Ref sig .tc))) :
    W6 m c (Proc.devRef .tc b) = W5 m c (Proc.devRef .tc b) := by
  by_cases h : ∃ w, Pipeline.arrRef spec2 w = b
  · obtain ⟨w, rfl⟩ := h
    have hin : (cfg2.win w).isOut = false := by
      revert hb; fin_cases w <;> decide
    exact (W6_arr m c w).trans (((dat2 (U5 m) c).arrAt_in w hin _).trans (A_eq2 (U5 m) c w))
  · exact W6_of_ne m c b fun w e => h ⟨w, e⟩
theorem W5_keep (c : Dev nD) (b : Ref sig .tc) (hb : b ∉ hostOps2_W) :
    W5 m c (Proc.devRef .tc b) = W4 m c (Proc.devRef .tc b) :=
  StableHlo.after_of_writes_sub hostOps2 _ hostOps2_writes hb

/-- After the host lines before region 3. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- At region 3's exit: its arrays at what its write-backs leave, every other buffer as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- A buffer that is no output of region 3 leaves it as it entered: an input window's array is never written. -/
theorem W8_keep (c : Dev nD) (b : Ref sig .tc) (hb : b ∉ ([main_v46] : List (Ref sig .tc))) :
    W8 m c (Proc.devRef .tc b) = W7 m c (Proc.devRef .tc b) := by
  by_cases h : ∃ w, Pipeline.arrRef spec3 w = b
  · obtain ⟨w, rfl⟩ := h
    have hin : (cfg3.win w).isOut = false := by
      revert hb; fin_cases w <;> decide
    exact (W8_arr m c w).trans (((dat3 (U7 m) c).arrAt_in w hin _).trans (A_eq3 (U7 m) c w))
  · exact W8_of_ne m c b fun w e => h ⟨w, e⟩
theorem W7_keep (c : Dev nD) (b : Ref sig .tc) (hb : b ∉ hostOps3_W) :
    W7 m c (Proc.devRef .tc b) = W6 m c (Proc.devRef .tc b) :=
  StableHlo.after_of_writes_sub hostOps3 _ hostOps3_writes hb

/-- A buffer no host line writes and no region produces ends as launched. -/
theorem W8_launch (c : Dev nD) (b : Ref sig .tc) (h0 : b ∉ hostOps0_W) (h1 : b ∉ hostOps1_W) (h2 : b ∉ hostOps2_W) (h3 : b ∉ hostOps3_W)
    (ho : b ∉ ([main_v16_0, main_v16_1, main_v16_2, main_v25, main_v37_0, main_v37_1, main_v37_2, main_v46] : List (Ref sig .tc))) :
    W8 m c (Proc.devRef .tc b) = m ((c : Thread nD τ).loc b) := by
  have e8 := W8_keep m c b (fun h => ho (by simp only [List.mem_cons, List.mem_nil_iff, or_false] at h ⊢; tauto))
  have e6 := W6_keep m c b (fun h => ho (by simp only [List.mem_cons, List.mem_nil_iff, or_false] at h ⊢; tauto))
  have e4 := W4_keep m c b (fun h => ho (by simp only [List.mem_cons, List.mem_nil_iff, or_false] at h ⊢; tauto))
  have e2 := W2_keep m c b (fun h => ho (by simp only [List.mem_cons, List.mem_nil_iff, or_false] at h ⊢; tauto))
  exact e8.trans ((W7_keep m c b h3).trans (e6.trans ((W5_keep m c b h2).trans (e4.trans ((W3_keep m c b h1).trans (e2.trans ((W1_keep m c b h0).trans rfl)))))))

/-! ## The proof data family and the state carried between segments -/

abbrev admH : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the carried state: entered from every unscoped buffer at `W1`, left at `W2`. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out0 (U1 m) c).trans ?_
    (try unfold Pipeline.ΦA)
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the carried state: entered from every unscoped buffer at `W3`, left at `W4`. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the carried state: entered from every unscoped buffer at `W5`, left at `W6`. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi_out2 (U5 m) c).trans ?_
    (try unfold Pipeline.ΦA)
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the carried state: entered from every unscoped buffer at `W7`, left at `W8`. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
theorem main_run (c : Dev nD) : main (F := F) c = Pipeline.Seg.run (segsH m) := (main_chain c).trans (by chain_rfl)

set_option backward.isDefEq.respectTransparency.types false in
/-- THE RUN. From any memory with zero counters every weakly fair execution of @main on the TensorCores terminates,
    nothing faulting, and every unscoped buffer ends at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: every argument array ends as launched — no host line writes one and no region produces one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
    (h c _ (mem_uc main_arg0 (by decide))).trans (W8_launch m c main_arg0 (by decide) (by decide) (by decide) (by decide) (by decide)),
    (h c _ (mem_uc main_arg1 (by decide))).trans (W8_launch m c main_arg1 (by decide) (by decide) (by decide) (by decide) (by decide)),
    (h c _ (mem_uc main_arg2 (by decide))).trans (W8_launch m c main_arg2 (by decide) (by decide) (by decide) (by decide) (by decide)),
    (h c _ (mem_uc main_arg3 (by decide))).trans (W8_launch m c main_arg3 (by decide) (by decide) (by decide) (by decide) (by decide)),
    (h c _ (mem_uc main_arg4 (by decide))).trans (W8_launch m c main_arg4 (by decide) (by decide) (by decide) (by decide) (by decide)),
    (h c _ (mem_uc main_arg5 (by decide))).trans (W8_launch m c main_arg5 (by decide) (by decide) (by decide) (by decide) (by decide)),
    (h c _ (mem_uc main_arg6 (by decide))).trans (W8_launch m c main_arg6 (by decide) (by decide) (by decide) (by decide) (by decide)),
    (h c _ (mem_uc main_arg7 (by decide))).trans (W8_launch m c main_arg7 (by decide) (by decide) (by decide) (by decide) (by decide)),
    (h c _ (mem_uc main_arg8 (by decide))).trans (W8_launch m c main_arg8 (by decide) (by decide) (by decide) (by decide) (by decide)),
    (h c _ (mem_uc main_arg9 (by decide))).trans (W8_launch m c main_arg9 (by decide) (by decide) (by decide) (by decide) (by decide)),
    (h c _ (mem_uc main_arg10 (by decide))).trans (W8_launch m c main_arg10 (by decide) (by decide) (by decide) (by decide) (by decide)),
    (h c _ (mem_uc main_arg11 (by decide))).trans (W8_launch m c main_arg11 (by decide) (by decide) (by decide) (by decide) (by decide)),
    (h c _ (mem_uc main_arg12 (by decide))).trans (W8_launch m c main_arg12 (by decide) (by decide) (by decide) (by decide) (by decide))⟩)
    (run_all m ρ)

end Cert.KernelIdeal.Hand

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.Sage.lean ====
/-
  The mathematics of one layer of the network, as functions of arrays of extended reals.

  A layer takes node features `X` (one row per node), the sum `A` of the features of each node's in-neighbours, the
  node's in-degree `dv`, two weight matrices and a bias, and forms the PRE-ACTIVATION

      lin p q = Σ_k X p k · Ws k q  +  Σ_k (A p k / max (dv p) 1) · Wn k q  +  b q ;

  it is then normalised per output feature over all nodes: with the mean `μ q` of column `q` and its variance, the
  result is `(lin p q − μ q) · (var q + ε)^(−1/2) · γ q + β q`. The variance is computed in two ways: as the mean of
  the squared deviations from the mean, or as the mean of the squares minus the square of the mean. Over the extended
  reals the two agree when every pre-activation is a real number (the identity Σ(x − μ)² = Σx² − nμ² moves factors
  across sums, which fails at the infinities), and the count of nodes is exactly the divisor 100000. This file states
  the layer, the two variances and their agreement, and that a layer's values are real when its inputs are.
-/
import Idealize.ShloMosaic.PureOps.Ideal.Laws
import Idealize.ShloMosaic.Lib.ValueIdx
import proofs.«172402_j2388001816783_1_alg».proof.Proof.LibFinite

noncomputable section

namespace Cert.Sage

open Idealize.ShloMosaic Idealize.ShloMosaic.ValueIdx Cert.LibFinite

/-! ## The four float words the programs spell -/

abbrev w0 : EReal := Ideal.ofBits .f32 0x00000000#32
abbrev w1 : EReal := Ideal.ofBits .f32 0x3F800000#32
abbrev wN : EReal := Ideal.ofBits .f32 0x47C35000#32
abbrev wE : EReal := Ideal.ofBits .f32 0x3727C5AC#32

theorem w0_eq : w0 = 0 := by simp [Ideal.ofBits, Ideal.ieee]
theorem w1_eq : w1 = 1 := by simp [Ideal.ofBits, Ideal.ieee, -EReal.coe_mul]; norm_num
/-- The divisor is the number of nodes, exactly. -/
theorem wN_eq : wN = ((100000 : ℝ) : EReal) := by simp [Ideal.ofBits, Ideal.ieee, -EReal.coe_mul]; norm_num
/-- The stabiliser is a positive real. -/
theorem wE_eq : wE = (((10995116 : ℝ) / 1099511627776 : ℝ) : EReal) := by
  simp [Ideal.ofBits, Ideal.ieee, -EReal.coe_mul]; norm_num

variable {N K C : ℕ}

/-! ## The layer -/

/-- The pre-activation at node `p`, output feature `q`. -/
def linAt (X A : (⟨2, ![N, K]⟩ : Shape).Idx → EReal) (dv : (⟨1, ![N]⟩ : Shape).Idx → EReal)
    (Ws Wn : (⟨2, ![K, C]⟩ : Shape).Idx → EReal) (b : (⟨1, ![C]⟩ : Shape).Idx → EReal) (p : Fin N) (q : Fin C) : EReal :=
  (∑ k : Fin K, X (ix2 p k) * Ws (ix2 k q) + ∑ k : Fin K, Ideal.div (A (ix2 p k)) (max (dv (ix1 p)) w1) * Wn (ix2 k q)) + b (ix1 q)

/-- The mean of column `q` over all nodes. -/
def meanAt (L : Fin N → Fin C → EReal) (q : Fin C) : EReal := Ideal.div (w0 + ∑ p : Fin N, L p q) wN
/-- The variance of column `q`: the mean of the squared deviations from the mean. -/
def varAt (L : Fin N → Fin C → EReal) (q : Fin C) : EReal :=
  Ideal.div (w0 + ∑ p : Fin N, (L p q - meanAt L q) * (L p q - meanAt L q)) wN
/-- The normalised value. -/
def bnAt (L : Fin N → Fin C → EReal) (g be : (⟨1, ![C]⟩ : Shape).Idx → EReal) (p : Fin N) (q : Fin C) : EReal :=
  (L p q - meanAt L q) * Ideal.rsqrt (varAt L q + wE) * g (ix1 q) + be (ix1 q)

/-- The same from the two running sums `S = Σ x`, `Q = Σ x²`: the variance as mean of squares minus squared mean. -/
def bnK (x S Q g b : EReal) : EReal :=
  (x - Ideal.div S wN) * Ideal.rsqrt ((Ideal.div Q wN - Ideal.div S wN * Ideal.div S wN) + wE) * g + b

/-! ## Sums of reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two variances agree on real columns of 100000 entries -/

theorem stats_real (hN : (N : ℝ) = 100000) (l : Fin N → ℝ) :
    (∑ p, l p * l p) * (1 / 100000) - (∑ p, l p) * (1 / 100000) * ((∑ p, l p) * (1 / 100000))
      = (∑ p, (l p - (∑ p', l p') * (1 / 100000)) * (l p - (∑ p', l p') * (1 / 100000))) * (1 / 100000) := by
  have e : ∑ p, (l p - (∑ p', l p') * (1 / 100000)) * (l p - (∑ p', l p') * (1 / 100000))
      = ∑ p, l p * l p - 2 * ((∑ p', l p') * (1 / 100000)) * ∑ p, l p
        + (N : ℝ) * (((∑ p', l p') * (1 / 100000)) * ((∑ p', l p') * (1 / 100000))) := by
    have : ∀ p, (l p - (∑ p', l p') * (1 / 100000)) * (l p - (∑ p', l p') * (1 / 100000))
        = l p * l p - 2 * ((∑ p', l p') * (1 / 100000)) * l p + ((∑ p', l p') * (1 / 100000)) * ((∑ p', l p') * (1 / 100000)) := fun p => by ring
    simp only [this, Finset.sum_add_distrib, Finset.sum_sub_distrib, ← Finset.mul_sum, Finset.sum_const, Finset.card_univ,
      Fintype.card_fin, nsmul_eq_mul]
    ring
  rw [e, hN]; ring

/-- On a column of real numbers, of as many entries as the divisor counts, the normalisation from the running sums
    is the normalisation from the mean and the mean squared deviation. -/
theorem bnK_eq (hN : (N : ℝ) = 100000) (L : Fin N → Fin C → EReal) (hL : ∀ p q, IsFin (L p q))
    (g be : (⟨1, ![C]⟩ : Shape).Idx → EReal) (p : Fin N) (q : Fin C) (S Q : EReal)
    (hS : S = ∑ p : Fin N, L p q) (hQ : Q = ∑ p : Fin N, L p q * L p q) :
    bnK (L p q) S Q (g (ix1 q)) (be (ix1 q)) = bnAt L g be p q := by
  choose l hl using hL
  have hc : (100000 : ℝ) ≠ 0 := by norm_num
  have hm : Ideal.div S wN = meanAt L q := by
    unfold meanAt; rw [hS, w0_eq, zero_add]
  have hv : Ideal.div Q wN - Ideal.div S wN * Ideal.div S wN = varAt L q := by
    unfold varAt meanAt
    rw [hS, hQ, w0_eq, zero_add, zero_add, wN_eq]
    simp only [hl, Ideal.div_coe hc, ← EReal.coe_mul, ← coe_sum, ← EReal.coe_sub]
    exact congrArg _ (stats_real hN fun p => l p q)
  unfold bnK bnAt
  rw [hv, hm]

/-! ## A layer's values are real when its inputs are -/

theorem linAt_isFin (X A : (⟨2, ![N, K]⟩ : Shape).Idx → EReal) (dv : (⟨1, ![N]⟩ : Shape).Idx → EReal)
    (Ws Wn : (⟨2, ![K, C]⟩ : Shape).Idx → EReal) (b : (⟨1, ![C]⟩ : Shape).Idx → EReal)
    (hX : ∀ i, IsFin (X i)) (hA : ∀ i, IsFin (A i)) (hd : ∀ i, IsFin (dv i)) (hWs : ∀ i, IsFin (Ws i)) (hWn : ∀ i, IsFin (Wn i))
    (hb : ∀ i, IsFin (b i)) (p : Fin N) (q : Fin C) : IsFin (linAt X A dv Ws Wn b p q) := by
  unfold linAt
  refine IsFin.add (IsFin.add (IsFin.sum _ _ fun k _ => IsFin.mul (hX _) (hWs _)) (IsFin.sum _ _ fun k _ => IsFin.mul ?_ (hWn _))) (hb _)
  have h1 : IsFin w1 := by rw [w1_eq]; exact IsFin.one
  refine IsFin.div (hA _) (IsFin.max (hd _) h1) ?_
  rw [w1_eq]; exact IsFin.max_one_ne_zero _

/-- The mean and the variance of a real column are real, and the variance is not negative. -/
theorem meanAt_isFin (L : Fin N → Fin C → EReal) (hL : ∀ p q, IsFin (L p q)) (q : Fin C) : IsFin (meanAt L q) := by
  unfold meanAt
  have hc : (100000 : ℝ) ≠ 0 := by norm_num
  refine IsFin.div (IsFin.add (by rw [w0_eq]; exact IsFin.zero) (IsFin.sum _ _ fun p _ => hL p q)) (by rw [wN_eq]; exact IsFin.coe _) ?_
  rw [wN_eq]; exact_mod_cast hc

theorem varAt_real (L : Fin N → Fin C → EReal) (hL : ∀ p q, IsFin (L p q)) (q : Fin C) :
    ∃ v : ℝ, 0 ≤ v ∧ varAt L q = (v : EReal) := by
  obtain ⟨mu, hmu⟩ := meanAt_isFin L hL q
  choose l hl using hL
  have hc : (100000 : ℝ) ≠ 0 := by norm_num
  refine ⟨(∑ p, (l p q - mu) * (l p q - mu)) * (1 / 100000), ?_, ?_⟩
  · exact mul_nonneg (Finset.sum_nonneg fun p _ => mul_self_nonneg _) (by norm_num)
  · unfold varAt
    rw [hmu, w0_eq, zero_add, wN_eq]
    simp only [hl, Ideal.div_coe hc, ← EReal.coe_mul, ← coe_sum, ← EReal.coe_sub]

/-- The reciprocal square root of a non-negative real plus the stabiliser is a real number. -/
theorem rsqrt_isFin (v : ℝ) (hv : 0 ≤ v) : IsFin (Ideal.rsqrt ((v : EReal) + wE)) := by
  rw [wE_eq, ← EReal.coe_add]
  have hpos : 0 < v + 10995116 / 1099511627776 := by positivity
  have e : ∀ r : ℝ, Ideal.rsqrt ((r : ℝ) : EReal)
      = if r < 0 then ⊥ else if r = 0 then ⊤ else (((Real.sqrt r)⁻¹ : ℝ) : EReal) := fun _ => rfl
  rw [e, if_neg (not_lt.mpr hpos.le), if_neg hpos.ne']
  exact IsFin.coe _

theorem bnAt_isFin (L : Fin N → Fin C → EReal) (hL : ∀ p q, IsFin (L p q)) (g be : (⟨1, ![C]⟩ : Shape).Idx → EReal)
    (hg : ∀ i, IsFin (g i)) (hbe : ∀ i, IsFin (be i)) (p : Fin N) (q : Fin C) : IsFin (bnAt L g be p q) := by
  unfold bnAt
  obtain ⟨v, hv, e⟩ := varAt_real L hL q
  obtain ⟨mu, hmu⟩ := meanAt_isFin L hL q
  obtain ⟨x, hx⟩ := hL p q
  refine IsFin.add (IsFin.mul (IsFin.mul ?_ (by rw [e]; exact rsqrt_isFin v hv)) (hg _)) (hbe _)
  rw [hx, hmu, ← EReal.coe_sub]; exact IsFin.coe _

/-- The rectifier keeps real numbers real. -/
theorem relu_isFin {x : EReal} (hx : IsFin x) : IsFin (max x w0) := by
  rw [w0_eq]; exact IsFin.max hx IsFin.zero

end Cert.Sage

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.KI.Pay.lean ====
/-
  The values the four kernels store, read at one entry, over the extended reals: an entry of the block of
  pre-activations is the row's product with the self weights plus the degree-normalised neighbour sum's product with the
  neighbour weights plus the bias; the two running rows gain the block's column sum and column sum of squares; and an
  entry of a normalised block is the pre-activation minus the mean, times the reciprocal root of variance plus
  stabiliser, times scale, plus shift (rectified in the first layer).
-/
import proofs.«172402_j2388001816783_1_alg».proof.Proof.KI.R0
import proofs.«172402_j2388001816783_1_alg».proof.Proof.KI.R1
import proofs.«172402_j2388001816783_1_alg».proof.Proof.KI.R2
import proofs.«172402_j2388001816783_1_alg».proof.Proof.KI.R3
import proofs.«172402_j2388001816783_1_alg».proof.Proof.Sage
import proofs.«172402_j2388001816783_1_alg».proof.Proof.LibMatmulPlain
import proofs.«172402_j2388001816783_1_alg».proof.Proof.LibRowReduce
import proofs.«172402_j2388001816783_1_alg».proof.Proof.LibKeepdims
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand Cert.Sage Cert.LibFinite
open Idealize.ShloMosaic Idealize.ShloMosaic.TcCoe Idealize.ShloMosaic.ValueIdx Idealize.SL.Sem

/-! ## The three stored values of the statistics kernel of width 128, read at an entry -/

theorem lin0_eq (x a : Vec Ideal S5000x128 .f32) (dg : Vec Ideal S5000x1 .f32) (ws wn : Vec Ideal S128x128 .f32) (b : Vec Ideal S1x128 .f32) :
    lin0 (F := Ideal) x a dg ws wn b = k0_pay4 x a dg ws wn b := by
  unfold lin0
  simp only [View.ld_unit_zero (S := S5000x128) Cert.LibWholeStore.zero2, View.ld_unit_zero (S := S5000x1) Cert.LibWholeStore.zero2, View.ld_unit_zero (S := S128x128) Cert.LibWholeStore.zero2, View.ld_unit_zero (S := S1x128) Cert.LibWholeStore.zero2]

/-- An entry of the block of pre-activations: the row's two products and the bias. -/
theorem lin0_apply (x a : Vec Ideal S5000x128 .f32) (dg : Vec Ideal S5000x1 .f32) (ws wn : Vec Ideal S128x128 .f32) (b : Vec Ideal S1x128 .f32)
    (r : Fin 5000) (q : Fin 128) :
    lin0 (F := Ideal) x a dg ws wn b (ix2 r q)
      = (∑ k : Fin 128, x (ix2 r k) * ws (ix2 k q) + ∑ k : Fin 128, Ideal.div (a (ix2 r k)) (max (dg (ix2 r (0 : Fin 1))) w1) * wn (ix2 k q))
          + b (ix2 (0 : Fin 1) q) := by
  rw [lin0_eq]
  unfold k0_pay4
  simp only [shapeCast_self]
  show (matmul (F := Ideal) (DotDims.plain 5000 128 128) none _ _ _ (ix2 r q) + matmul (F := Ideal) (DotDims.plain 5000 128 128) none _ _ _ (ix2 r q))
      + broadcastTo _ b _ (ix2 r q) = _
  rw [MatmulPlain.matmul_zero_apply, MatmulPlain.matmul_zero_apply, broadcastTo_1b_ab_apply]
  refine congrArg (· + _) (congrArg₂ (· + ·) rfl (Finset.sum_congr rfl fun k _ => ?_))
  refine congrArg (· * _) ?_
  show Ideal.div (a (ix2 r k)) (broadcastTo _ (maximumf dg (broadcast S5000x1 (Ideal.ofBits .f32 0x3F800000#32))) _ (ix2 r k)) = _
  rw [Keepdims.broadcastTo_a1_ab_apply]
  rfl

/-- The zero rows the first point starts from. -/
theorem zS0_apply (q : Fin 128) : ((k0_pay2 (F := Ideal)) : Vec Ideal S1x128 .f32) (ix2 (0 : Fin 1) q) = w0 := by
  unfold k0_pay2; simp only [shapeCast_self]; rfl
theorem zQ0_apply (q : Fin 128) : ((k0_pay3 (F := Ideal)) : Vec Ideal S1x128 .f32) (ix2 (0 : Fin 1) q) = w0 := by
  unfold k0_pay3; simp only [shapeCast_self]; rfl

/-- The running row of column sums gains the block's column sum. -/
theorem sumS0_apply (x a : Vec Ideal S5000x128 .f32) (dg : Vec Ideal S5000x1 .f32) (ws wn : Vec Ideal S128x128 .f32) (b s : Vec Ideal S1x128 .f32)
    (q : Fin 128) :
    sumS0 (F := Ideal) x a dg ws wn b s (ix2 (0 : Fin 1) q)
      = s (ix2 (0 : Fin 1) q) + ∑ r : Fin 5000, lin0 (F := Ideal) x a dg ws wn b (ix2 r q) := by
  rw [lin0_eq]
  unfold sumS0
  simp only [View.ld_unit_zero (S := S5000x128) Cert.LibWholeStore.zero2, View.ld_unit_zero (S := S5000x1) Cert.LibWholeStore.zero2, View.ld_unit_zero (S := S128x128) Cert.LibWholeStore.zero2, View.ld_unit_zero (S := S1x128) Cert.LibWholeStore.zero2]
  unfold k0_pay5
  simp only [shapeCast_self]
  show s (ix2 (0 : Fin 1) q) + shapeCast S1x128 (multiReduction (F := Ideal) .add [0] S128 (k0_pay4 x a dg ws wn b) 0x00000000#32 _ _ _) _ (ix2 (0 : Fin 1) q) = _
  rw [shapeCast_a_1a_apply]
  exact congrArg (_ + ·) (RowReduce.colSum_apply _ _ _ _ _ q)

/-- The running row of column sums of squares gains the block's. -/
theorem sqS0_apply (x a : Vec Ideal S5000x128 .f32) (dg : Vec Ideal S5000x1 .f32) (ws wn : Vec Ideal S128x128 .f32) (b q0 : Vec Ideal S1x128 .f32)
    (q : Fin 128) :
    sqS0 (F := Ideal) x a dg ws wn b q0 (ix2 (0 : Fin 1) q)
      = q0 (ix2 (0 : Fin 1) q) + ∑ r : Fin 5000, lin0 (F := Ideal) x a dg ws wn b (ix2 r q) * lin0 (F := Ideal) x a dg ws wn b (ix2 r q) := by
  unfold sqS0
  unfold k0_pay1
  simp only [shapeCast_self]
  show q0 (ix2 (0 : Fin 1) q) + shapeCast S1x128 (multiReduction (F := Ideal) .add [0] S128 (mulf (lin0 (F := Ideal) x a dg ws wn b) (lin0 (F := Ideal) x a dg ws wn b)) 0x00000000#32 _ _ _) _ (ix2 (0 : Fin 1) q) = _
  rw [shapeCast_a_1a_apply]
  exact congrArg (_ + ·) (RowReduce.colSum_apply _ _ _ _ _ q)

/-! ## The three stored values of the statistics kernel of width 64, read at an entry -/

theorem lin2_eq (x a : Vec Ideal S5000x128 .f32) (dg : Vec Ideal S5000x1 .f32) (ws wn : Vec Ideal S128x64 .f32) (b : Vec Ideal S1x64 .f32) :
    lin2 (F := Ideal) x a dg ws wn b = k2_pay5 x a dg ws wn b := by
  unfold lin2
  simp only [View.ld_unit_zero (S := S5000x128) Cert.LibWholeStore.zero2, View.ld_unit_zero (S := S5000x1) Cert.LibWholeStore.zero2, View.ld_unit_zero (S := S128x64) Cert.LibWholeStore.zero2, View.ld_unit_zero (S := S1x64) Cert.LibWholeStore.zero2]

/-- An entry of the block of pre-activations: the row's two products and the bias. -/
theorem lin2_apply (x a : Vec Ideal S5000x128 .f32) (dg : Vec Ideal S5000x1 .f32) (ws wn : Vec Ideal S128x64 .f32) (b : Vec Ideal S1x64 .f32)
    (r : Fin 5000) (q : Fin 64) :
    lin2 (F := Ideal) x a dg ws wn b (ix2 r q)
      = (∑ k : Fin 128, x (ix2 r k) * ws (ix2 k q) + ∑ k : Fin 128, Ideal.div (a (ix2 r k)) (max (dg (ix2 r (0 : Fin 1))) w1) * wn (ix2 k q))
          + b (ix2 (0 : Fin 1) q) := by
  rw [lin2_eq]
  unfold k2_pay5
  simp only [shapeCast_self]
  show (matmul (F := Ideal) (DotDims.plain 5000 128 64) none _ _ _ (ix2 r q) + matmul (F := Ideal) (DotDims.plain 5000 128 64) none _ _ _ (ix2 r q))
      + broadcastTo _ b _ (ix2 r q) = _
  rw [MatmulPlain.matmul_zero_apply, MatmulPlain.matmul_zero_apply, broadcastTo_1b_ab_apply]
  refine congrArg (· + _) (congrArg₂ (· + ·) rfl (Finset.sum_congr rfl fun k _ => ?_))
  refine congrArg (· * _) ?_
  show Ideal.div (a (ix2 r k)) (broadcastTo _ (maximumf dg (broadcast S5000x1 (Ideal.ofBits .f32 0x3F800000#32))) _ (ix2 r k)) = _
  rw [Keepdims.broadcastTo_a1_ab_apply]
  rfl

/-- The zero rows the first point starts from. -/
theorem zS2_apply (q : Fin 64) : ((k2_pay3 (F := Ideal)) : Vec Ideal S1x64 .f32) (ix2 (0 : Fin 1) q) = w0 := by
  unfold k2_pay3; simp only [shapeCast_self]; rfl
theorem zQ2_apply (q : Fin 64) : ((k2_pay4 (F := Ideal)) : Vec Ideal S1x64 .f32) (ix2 (0 : Fin 1) q) = w0 := by
  unfold k2_pay4; simp only [shapeCast_self]; rfl

/-- The running row of column sums gains the block's column sum. -/
theorem sumS2_apply (x a : Vec Ideal S5000x128 .f32) (dg : Vec Ideal S5000x1 .f32) (ws wn : Vec Ideal S128x64 .f32) (b s : Vec Ideal S1x64 .f32)
    (q : Fin 64) :
    sumS2 (F := Ideal) x a dg ws wn b s (ix2 (0 : Fin 1) q)
      = s (ix2 (0 : Fin 1) q) + ∑ r : Fin 5000, lin2 (F := Ideal) x a dg ws wn b (ix2 r q) := by
  rw [lin2_eq]
  unfold sumS2
  simp only [View.ld_unit_zero (S := S5000x128) Cert.LibWholeStore.zero2, View.ld_unit_zero (S := S5000x1) Cert.LibWholeStore.zero2, View.ld_unit_zero (S := S128x64) Cert.LibWholeStore.zero2, View.ld_unit_zero (S := S1x64) Cert.LibWholeStore.zero2]
  unfold k2_pay1 k2_pay6
  simp only [shapeCast_self]
  show s (ix2 (0 : Fin 1) q) + shapeCast S1x64 (multiReduction (F := Ideal) .add [0] S64 (k2_pay5 x a dg ws wn b) 0x00000000#32 _ _ _) _ (ix2 (0 : Fin 1) q) = _
  rw [shapeCast_a_1a_apply]
  exact congrArg (_ + ·) (RowReduce.colSum_apply _ _ _ _ _ q)

/-- The running row of column sums of squares gains the block's. -/
theorem sqS2_apply (x a : Vec Ideal S5000x128 .f32) (dg : Vec Ideal S5000x1 .f32) (ws wn : Vec Ideal S128x64 .f32) (b q0 : Vec Ideal S1x64 .f32)
    (q : Fin 64) :
    sqS2 (F := Ideal) x a dg ws wn b q0 (ix2 (0 : Fin 1) q)
      = q0 (ix2 (0 : Fin 1) q) + ∑ r : Fin 5000, lin2 (F := Ideal) x a dg ws wn b (ix2 r q) * lin2 (F := Ideal) x a dg ws wn b (ix2 r q) := by
  unfold sqS2
  unfold k2_pay2
  simp only [shapeCast_self]
  show q0 (ix2 (0 : Fin 1) q) + shapeCast S1x64 (multiReduction (F := Ideal) .add [0] S64 (mulf (lin2 (F := Ideal) x a dg ws wn b) (lin2 (F := Ideal) x a dg ws wn b)) 0x00000000#32 _ _ _) _ (ix2 (0 : Fin 1) q) = _
  rw [shapeCast_a_1a_apply]
  exact congrArg (_ + ·) (RowReduce.colSum_apply _ _ _ _ _ q)

/-! ## The stored value of the normalisation kernel of width 128, read at an entry -/

theorem out1_apply (mu var : Vec Ideal S1x128 .f32) (x : Vec Ideal S5000x128 .f32) (ga be : Vec Ideal S1x128 .f32) (r : Fin 5000) (q : Fin 128) :
    out1 (F := Ideal) mu var x ga be (ix2 r q)
      = max ((x (ix2 r q) - mu (ix2 (0 : Fin 1) q)) * Ideal.rsqrt (var (ix2 (0 : Fin 1) q) + wE) * ga (ix2 (0 : Fin 1) q) + be (ix2 (0 : Fin 1) q)) w0 := by
  unfold out1
  rw [View.canon_unit_zero zero2_1]
  simp only [View.ld_unit_zero (S := S5000x128) zero2_1, View.ld_unit_zero (S := S1x128) zero2_1]
  unfold k1_pay1
  simp only [shapeCast_self]
  show max ((x (ix2 r q) - broadcastTo S5000x128 mu _ (ix2 r q)) * broadcastTo S5000x128 (rsqrt (F := Ideal) (addf var (broadcast S1x128 (Ideal.ofBits .f32 0x3727C5AC#32)))) _ (ix2 r q)
      * broadcastTo S5000x128 ga _ (ix2 r q) + broadcastTo S5000x128 be _ (ix2 r q)) (Ideal.ofBits .f32 0x00000000#32) = _
  simp only [broadcastTo_1b_ab_apply]
  rfl

/-! ## The stored value of the normalisation kernel of width 64, read at an entry -/

theorem out3_apply (mu var : Vec Ideal S1x64 .f32) (x : Vec Ideal S5000x64 .f32) (ga be : Vec Ideal S1x64 .f32) (r : Fin 5000) (q : Fin 64) :
    out3 (F := Ideal) mu var x ga be (ix2 r q)
      = (x (ix2 r q) - mu (ix2 (0 : Fin 1) q)) * Ideal.rsqrt (var (ix2 (0 : Fin 1) q) + wE) * ga (ix2 (0 : Fin 1) q) + be (ix2 (0 : Fin 1) q) := by
  unfold out3
  rw [View.canon_unit_zero zero2_3]
  simp only [View.ld_unit_zero (S := S5000x64) zero2_3, View.ld_unit_zero (S := S1x64) zero2_3]
  unfold k3_pay1
  simp only [shapeCast_self]
  show (x (ix2 r q) - broadcastTo S5000x64 mu _ (ix2 r q)) * broadcastTo S5000x64 (rsqrt (F := Ideal) (addf var (broadcast S1x64 (Ideal.ofBits .f32 0x3727C5AC#32)))) _ (ix2 r q)
      * broadcastTo S5000x64 ga _ (ix2 r q) + broadcastTo S5000x64 be _ (ix2 r q) = _
  simp only [broadcastTo_1b_ab_apply]
  rfl

end Cert.KernelIdeal.Val

end
-- ==== Proof.LibSumRegroup.lean ====
/-
  Finite sums in a commutative monoid, regrouped (a general lemma file: it imports Mathlib only and mentions no program).

  The kernel adds the squared differences tile by tile and lane by lane; the reference adds them all at once.
  Both are the same finite family of summands, and in a commutative monoid (the extended reals under addition are
  one: `+` is commutative and associative there, infinities included) a finite sum does not depend on how the
  family is cut up or in which order it is run through.  No finiteness of the summands is used anywhere.

  * `sum_range_mul`: `m * n` consecutive terms are `m` runs of `n` terms.
  * `regroup`: rows `(p * K + k) * R + r` (half `p`, step `k`, row `r` inside the tile), summed for each lane
    `l` first over the rows of a tile, then over the steps, then over the lanes, then over the halves, exhaust
    the `P * K * R` rows times `L` lanes exactly once.
  * `regroup_fin`: the same over `Fin`-indexed families.
-/
import Mathlib.Algebra.BigOperators.Group.Finset.Basic
import Mathlib.Algebra.BigOperators.Intervals
import Mathlib.Algebra.BigOperators.Fin

namespace SumLaw

open Finset

variable {M : Type*} [AddCommMonoid M]

/-- `m * n` consecutive terms are `m` runs of `n` terms. -/
theorem sum_range_mul (f : ℕ → M) (m n : ℕ) :
    ∑ x ∈ range (m * n), f x = ∑ i ∈ range m, ∑ r ∈ range n, f (i * n + r) := by
  induction m with
  | zero => simp
  | succ m ih => rw [Nat.succ_mul, sum_range_add, ih, sum_range_succ]

/-- Tile by tile and lane by lane is row by row: every (row, lane) pair is met exactly once. -/
theorem regroup (f : ℕ → ℕ → M) (P K R L : ℕ) :
    ∑ p ∈ range P, ∑ l ∈ range L, ∑ k ∈ range K, ∑ r ∈ range R, f ((p * K + k) * R + r) l
      = ∑ row ∈ range (P * K * R), ∑ l ∈ range L, f row l := by
  rw [sum_range_mul (fun row => ∑ l ∈ range L, f row l) (P * K) R,
    sum_range_mul (fun i => ∑ r ∈ range R, ∑ l ∈ range L, f (i * R + r) l) P K]
  refine sum_congr rfl fun p _ => ?_
  refine sum_comm.trans (sum_congr rfl fun k _ => ?_)
  exact sum_comm

/-- `regroup` for families indexed by `Fin`: `idx p k r` is row `(p * K + k) * R + r`. -/
theorem regroup_fin {P K R L N : ℕ} (hN : P * K * R = N) (g : Fin N → Fin L → M)
    (idx : Fin P → Fin K → Fin R → Fin N)
    (hidx : ∀ p k r, (idx p k r).val = (p.val * K + k.val) * R + r.val) :
    ∑ p : Fin P, ∑ l : Fin L, ∑ k : Fin K, ∑ r : Fin R, g (idx p k r) l
      = ∑ row : Fin N, ∑ l : Fin L, g row l := by
  subst hN
  let f : ℕ → ℕ → M := fun a b => if h : a < P * K * R ∧ b < L then g ⟨a, h.1⟩ ⟨b, h.2⟩ else 0
  have e : ∀ (a : Fin (P * K * R)) (l : Fin L), g a l = f a.val l := fun a l => by
    simp only [f, dif_pos (And.intro a.isLt l.isLt)]
  have key := regroup f P K R L
  simp only [Finset.sum_range] at key
  have lhs : ∀ (p : Fin P) (l : Fin L) (k : Fin K) (r : Fin R),
      g (idx p k r) l = f ((p.val * K + k.val) * R + r.val) l.val := fun p l k r => by rw [e, hidx]
  simp only [lhs, e]
  exact key

end SumLaw
-- ==== Proof.KI.Fin.lean ====
/-
  From blocks to arrays, over the extended reals. For each of the four regions: where each window's block sits in its
  array at a grid point (row block `t` of 5000 rows, or the whole array), that what a point writes back is the
  restriction of ONE whole-array function to the point's block, that the blocks of the 20 points cover the array, and
  so what the array holds after the region; for the two statistics regions also the two one-row outputs in closed form —
  the sums, over all 100000 nodes, of a column of pre-activations and of its squares (the sum of 20 runs of 5000 terms
  is the sum of 100000 terms).
-/
import proofs.«172402_j2388001816783_1_alg».proof.Proof.KI.R0
import proofs.«172402_j2388001816783_1_alg».proof.Proof.KI.R1
import proofs.«172402_j2388001816783_1_alg».proof.Proof.KI.R2
import proofs.«172402_j2388001816783_1_alg».proof.Proof.KI.R3
import proofs.«172402_j2388001816783_1_alg».proof.Proof.Sage
import proofs.«172402_j2388001816783_1_alg».proof.Proof.LibMatmulPlain
import proofs.«172402_j2388001816783_1_alg».proof.Proof.LibRowReduce
import proofs.«172402_j2388001816783_1_alg».proof.Proof.LibKeepdims
import proofs.«172402_j2388001816783_1_alg».proof.Proof.KI.Pay
import proofs.«172402_j2388001816783_1_alg».proof.Proof.LibSumRegroup
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand Cert.Sage Cert.LibFinite
open Idealize.ShloMosaic Idealize.ShloMosaic.TcCoe Idealize.ShloMosaic.ValueIdx Idealize.SL.Sem

variable (V : (c : Dev nD) → (b : Ref sig .tc) → Buf (Elt Ideal) ((c : Thread nD τ).loc b))

/-- A column [n,1] read as a vector, and a row [1,c] read as a vector. -/
def dvec {n : ℕ} (D : (⟨2, ![n, 1]⟩ : Shape).Idx → EReal) : (⟨1, ![n]⟩ : Shape).Idx → EReal :=
  fun j => D (ix2 (⟨(j 0).val, (j 0).isLt⟩ : Fin n) (0 : Fin 1))
def rowv {n : ℕ} (B : (⟨2, ![1, n]⟩ : Shape).Idx → EReal) : (⟨1, ![n]⟩ : Shape).Idx → EReal :=
  fun j => B (ix2 (0 : Fin 1) (⟨(j 0).val, (j 0).isLt⟩ : Fin n))

/-- The normalised array from a matrix and four one-row arrays (mean, variance, scale, shift). -/
def bnG {n k : ℕ} (L : (⟨2, ![n, k]⟩ : Shape).Idx → EReal) (M Vr Ga Be : (⟨2, ![1, k]⟩ : Shape).Idx → EReal) :
    (⟨2, ![n, k]⟩ : Shape).Idx → EReal := fun i =>
  (L (ix2 (⟨(i 0).val, (i 0).isLt⟩ : Fin n) (⟨(i 1).val, (i 1).isLt⟩ : Fin k)) - M (ix2 (0 : Fin 1) (⟨(i 1).val, (i 1).isLt⟩ : Fin k)))
      * Ideal.rsqrt (Vr (ix2 (0 : Fin 1) (⟨(i 1).val, (i 1).isLt⟩ : Fin k)) + wE)
      * Ga (ix2 (0 : Fin 1) (⟨(i 1).val, (i 1).isLt⟩ : Fin k)) + Be (ix2 (0 : Fin 1) (⟨(i 1).val, (i 1).isLt⟩ : Fin k))
theorem bnG_apply {n k : ℕ} (L : (⟨2, ![n, k]⟩ : Shape).Idx → EReal) (M Vr Ga Be : (⟨2, ![1, k]⟩ : Shape).Idx → EReal) (p : Fin n) (q : Fin k) :
    bnG L M Vr Ga Be (ix2 p q)
      = (L (ix2 p q) - M (ix2 (0 : Fin 1) q)) * Ideal.rsqrt (Vr (ix2 (0 : Fin 1) q) + wE) * Ga (ix2 (0 : Fin 1) q) + Be (ix2 (0 : Fin 1) q) := rfl
/-- The same, rectified. -/
def bnGr {n k : ℕ} (L : (⟨2, ![n, k]⟩ : Shape).Idx → EReal) (M Vr Ga Be : (⟨2, ![1, k]⟩ : Shape).Idx → EReal) :
    (⟨2, ![n, k]⟩ : Shape).Idx → EReal := fun i => max (bnG L M Vr Ga Be i) w0

/-! ## Region 0: where each window's block sits in its array -/

theorem hN0 (t : Fin cfg0.N) : t.val < 20 := lt_of_lt_of_eq t.isLt (show cfg0.N = 20 from N_0)
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem emb0_0 (t : Fin cfg0.N) (r : Fin 5000) (k : Fin 128) :
    ((cfg0.win 0).blk t).view.emb (ix2 r k) = (ix2 (⟨t.val * 5000 + r.val, by have := hN0 t; omega⟩ : Fin 100000) k : S100000x128.Idx) := by
  obtain ⟨e0, e1⟩ := idx0_0 t
  funext a
  apply Fin.ext
  match a with
  | ⟨0, _⟩ => show win0_0.index t (0 : Fin 2) * 5000 + 1 * r.val = t.val * 5000 + r.val; omega
  | ⟨1, _⟩ => show win0_0.index t (1 : Fin 2) * 128 + 1 * k.val = k.val; omega
theorem blk0_0 (c : Dev nD) (t : Fin cfg0.N) (r : Fin 5000) (k : Fin 128) :
    iblk0 V c 0 t (ix2 r k) = (V c main_arg0 : S100000x128.Idx → EReal) (ix2 (⟨t.val * 5000 + r.val, by have := hN0 t; omega⟩ : Fin 100000) k) := by
  unfold iblk0
  show (V c main_arg0 : S100000x128.Idx → EReal) (((cfg0.win 0).blk t).view.emb (ix2 r k)) = _
  rw [emb0_0]
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem emb0_1 (t : Fin cfg0.N) (r : Fin 5000) (k : Fin 128) :
    ((cfg0.win 1).blk t).view.emb (ix2 r k) = (ix2 (⟨t.val * 5000 + r.val, by have := hN0 t; omega⟩ : Fin 100000) k : S100000x128.Idx) := by
  obtain ⟨e0, e1⟩ := idx0_1 t
  funext a
  apply Fin.ext
  match a with
  | ⟨0, _⟩ => show win0_1.index t (0 : Fin 2) * 5000 + 1 * r.val = t.val * 5000 + r.val; omega
  | ⟨1, _⟩ => show win0_1.index t (1 : Fin 2) * 128 + 1 * k.val = k.val; omega
theorem blk0_1 (c : Dev nD) (t : Fin cfg0.N) (r : Fin 5000) (k : Fin 128) :
    iblk0 V c 1 t (ix2 r k) = (V c main_v14 : S100000x128.Idx → EReal) (ix2 (⟨t.val * 5000 + r.val, by have := hN0 t; omega⟩ : Fin 100000) k) := by
  unfold iblk0
  show (V c main_v14 : S100000x128.Idx → EReal) (((cfg0.win 1).blk t).view.emb (ix2 r k)) = _
  rw [emb0_1]
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem emb0_2 (t : Fin cfg0.N) (r : Fin 5000) (k : Fin 1) :
    ((cfg0.win 2).blk t).view.emb (ix2 r k) = (ix2 (⟨t.val * 5000 + r.val, by have := hN0 t; omega⟩ : Fin 100000) k : S100000x1.Idx) := by
  obtain ⟨e0, e1⟩ := idx0_2 t
  funext a
  apply Fin.ext
  match a with
  | ⟨0, _⟩ => show win0_2.index t (0 : Fin 2) * 5000 + 1 * r.val = t.val * 5000 + r.val; omega
  | ⟨1, _⟩ => show win0_2.index t (1 : Fin 2) * 1 + 1 * k.val = k.val; omega
theorem blk0_2 (c : Dev nD) (t : Fin cfg0.N) (r : Fin 5000) (k : Fin 1) :
    iblk0 V c 2 t (ix2 r k) = (V c main_v4 : S100000x1.Idx → EReal) (ix2 (⟨t.val * 5000 + r.val, by have := hN0 t; omega⟩ : Fin 100000) k) := by
  unfold iblk0
  show (V c main_v4 : S100000x1.Idx → EReal) (((cfg0.win 2).blk t).view.emb (ix2 r k)) = _
  rw [emb0_2]
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem emb0_3 (t : Fin cfg0.N) (r : Fin 128) (k : Fin 128) :
    ((cfg0.win 3).blk t).view.emb (ix2 r k) = (ix2 (⟨r.val, by have := hN0 t; omega⟩ : Fin 128) k : S128x128.Idx) := by
  obtain ⟨e0, e1⟩ := idx0_3 t
  funext a
  apply Fin.ext
  match a with
  | ⟨0, _⟩ => show win0_3.index t (0 : Fin 2) * 128 + 1 * r.val = r.val; omega
  | ⟨1, _⟩ => show win0_3.index t (1 : Fin 2) * 128 + 1 * k.val = k.val; omega
theorem blk0_3 (c : Dev nD) (t : Fin cfg0.N) (r : Fin 128) (k : Fin 128) :
    iblk0 V c 3 t (ix2 r k) = (V c main_arg3 : S128x128.Idx → EReal) (ix2 (⟨r.val, by have := hN0 t; omega⟩ : Fin 128) k) := by
  unfold iblk0
  show (V c main_arg3 : S128x128.Idx → EReal) (((cfg0.win 3).blk t).view.emb (ix2 r k)) = _
  rw [emb0_3]
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem emb0_4 (t : Fin cfg0.N) (r : Fin 128) (k : Fin 128) :
    ((cfg0.win 4).blk t).view.emb (ix2 r k) = (ix2 (⟨r.val, by have := hN0 t; omega⟩ : Fin 128) k : S128x128.Idx) := by
  obtain ⟨e0, e1⟩ := idx0_4 t
  funext a
  apply Fin.ext
  match a with
  | ⟨0, _⟩ => show win0_4.index t (0 : Fin 2) * 128 + 1 * r.val = r.val; omega
  | ⟨1, _⟩ => show win0_4.index t (1 : Fin 2) * 128 + 1 * k.val = k.val; omega
theorem blk0_4 (c : Dev nD) (t : Fin cfg0.N) (r : Fin 128) (k : Fin 128) :
    iblk0 V c 4 t (ix2 r k) = (V c main_arg4 : S128x128.Idx → EReal) (ix2 (⟨r.val, by have := hN0 t; omega⟩ : Fin 128) k) := by
  unfold iblk0
  show (V c main_arg4 : S128x128.Idx → EReal) (((cfg0.win 4).blk t).view.emb (ix2 r k)) = _
  rw [emb0_4]
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem emb0_5 (t : Fin cfg0.N) (r : Fin 1) (k : Fin 128) :
    ((cfg0.win 5).blk t).view.emb (ix2 r k) = (ix2 (⟨r.val, by have := hN0 t; omega⟩ : Fin 1) k : S1x128.Idx) := by
  obtain ⟨e0, e1⟩ := idx0_5 t
  funext a
  apply Fin.ext
  match a with
  | ⟨0, _⟩ => show win0_5.index t (0 : Fin 2) * 1 + 1 * r.val = r.val; omega
  | ⟨1, _⟩ => show win0_5.index t (1 : Fin 2) * 128 + 1 * k.val = k.val; omega
theorem blk0_5 (c : Dev nD) (t : Fin cfg0.N) (r : Fin 1) (k : Fin 128) :
    iblk0 V c 5 t (ix2 r k) = (V c main_v15 : S1x128.Idx → EReal) (ix2 (⟨r.val, by have := hN0 t; omega⟩ : Fin 1) k) := by
  unfold iblk0
  show (V c main_v15 : S1x128.Idx → EReal) (((cfg0.win 5).blk t).view.emb (ix2 r k)) = _
  rw [emb0_5]
theorem idx0_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem emb0_6 (t : Fin cfg0.N) (r : Fin 5000) (k : Fin 128) :
    ((cfg0.win 6).blk t).view.emb (ix2 r k) = (ix2 (⟨t.val * 5000 + r.val, by have := hN0 t; omega⟩ : Fin 100000) k : S100000x128.Idx) := by
  obtain ⟨e0, e1⟩ := idx0_6 t
  funext a
  apply Fin.ext
  match a with
  | ⟨0, _⟩ => show win0_6.index t (0 : Fin 2) * 5000 + 1 * r.val = t.val * 5000 + r.val; omega
  | ⟨1, _⟩ => show win0_6.index t (1 : Fin 2) * 128 + 1 * k.val = k.val; omega
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem emb0_7 (t : Fin cfg0.N) (r : Fin 1) (k : Fin 128) :
    ((cfg0.win 7).blk t).view.emb (ix2 r k) = (ix2 (⟨r.val, by have := hN0 t; omega⟩ : Fin 1) k : S1x128.Idx) := by
  obtain ⟨e0, e1⟩ := idx0_7 t
  funext a
  apply Fin.ext
  match a with
  | ⟨0, _⟩ => show win0_7.index t (0 : Fin 2) * 1 + 1 * r.val = r.val; omega
  | ⟨1, _⟩ => show win0_7.index t (1 : Fin 2) * 128 + 1 * k.val = k.val; omega
theorem idx0_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem emb0_8 (t : Fin cfg0.N) (r : Fin 1) (k : Fin 128) :
    ((cfg0.win 8).blk t).view.emb (ix2 r k) = (ix2 (⟨r.val, by have := hN0 t; omega⟩ : Fin 1) k : S1x128.Idx) := by
  obtain ⟨e0, e1⟩ := idx0_8 t
  funext a
  apply Fin.ext
  match a with
  | ⟨0, _⟩ => show win0_8.index t (0 : Fin 2) * 1 + 1 * r.val = r.val; omega
  | ⟨1, _⟩ => show win0_8.index t (1 : Fin 2) * 128 + 1 * k.val = k.val; omega

/-! ## Region 0: the arrays it leaves -/

/-- The pre-activation the region computes, from the arrays it is entered with. -/
def L0 (c : Dev nD) : Fin 100000 → Fin 128 → EReal := fun p q =>
  linAt (V c main_arg0 : S100000x128.Idx → EReal) (V c main_v14 : S100000x128.Idx → EReal) (dvec (V c main_v4 : S100000x1.Idx → EReal))
    (V c main_arg3 : S128x128.Idx → EReal) (V c main_arg4 : S128x128.Idx → EReal) (rowv (V c main_v15 : S1x128.Idx → EReal)) p q
def G0_6 (c : Dev nD) : S100000x128.Idx → EReal := fun i => L0 V c ⟨(i 0).val, (i 0).isLt⟩ ⟨(i 1).val, (i 1).isLt⟩

theorem G0_6_apply (c : Dev nD) (p : Fin 100000) (q : Fin 128) : G0_6 V c (ix2 p q) = L0 V c p q := rfl
/-- An entry of a point's block of pre-activations is the whole-array pre-activation at the block's row. -/
theorem lin_blk0 (c : Dev nD) (t : Fin cfg0.N) (r : Fin 5000) (q : Fin 128) :
    lin0 (F := Ideal) (iblk0 V c 0 t) (iblk0 V c 1 t) (iblk0 V c 2 t) (iblk0 V c 3 t) (iblk0 V c 4 t) (iblk0 V c 5 t) (ix2 r q) = L0 V c ⟨t.val * 5000 + r.val, by have := hN0 t; omega⟩ q := by
  refine (lin0_apply (iblk0 V c 0 t) (iblk0 V c 1 t) (iblk0 V c 2 t) (iblk0 V c 3 t) (iblk0 V c 4 t) (iblk0 V c 5 t) r q).trans ?_
  simp only [blk0_0 V c t, blk0_1 V c t, blk0_2 V c t, blk0_3 V c t, blk0_4 V c t, blk0_5 V c t]
  rfl

theorem flushed0_6 (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6]
  funext j
  obtain ⟨r, q, rfl⟩ : ∃ (r : Fin 5000) (q : Fin 128), j = ix2 r q := ⟨j 0, j 1, eq_ix2 j⟩
  show lin0 (F := Ideal) (iblk0 V c 0 t) (iblk0 V c 1 t) (iblk0 V c 2 t) (iblk0 V c 3 t) (iblk0 V c 4 t) (iblk0 V c 5 t) (ix2 r q) = G0_6 V c (((cfg0.win 6).blk t).view.emb (ix2 r q))
  rw [emb0_6, lin_blk0]
  rfl

theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16_0).slice (win0_6.rect t)).set ↔ _
  rw [View.set_slice_whole, Rect.mem_set_unit]
  exact Iff.rfl

theorem cover0_6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < cfg0.N := by rw [show cfg0.N = 20 from N_0]; omega
  refine ⟨⟨(i 0).val / 5000, ht⟩, flush0_6 _, ?_⟩
  rw [mem_blk0_6]
  obtain ⟨e0, e1⟩ := idx0_6 ⟨(i 0).val / 5000, ht⟩
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]; omega

/-- The array of pre-activations after the region. -/
theorem final0_6 (c : Dev nD) : (dat0 V c).arrAt 6 cfg0.N = G0_6 V c :=
  (dat0 V c).arrAt_eq_of_cover 6 (G0_6 V c) (fun t _ => flushed0_6 V c t) cover0_6

/-! ### The two running rows in closed form -/

def colF0 (c : Dev nD) (q : Fin 128) : ℕ → EReal := fun p => if h : p < 100000 then L0 V c ⟨p, h⟩ q else 0
def colQ0 (c : Dev nD) (q : Fin 128) : ℕ → EReal := fun p => if h : p < 100000 then L0 V c ⟨p, h⟩ q * L0 V c ⟨p, h⟩ q else 0

theorem blocksum0 (c : Dev nD) (t : Fin cfg0.N) (q : Fin 128) :
    ∑ r : Fin 5000, lin0 (F := Ideal) (iblk0 V c 0 t) (iblk0 V c 1 t) (iblk0 V c 2 t) (iblk0 V c 3 t) (iblk0 V c 4 t) (iblk0 V c 5 t) (ix2 r q) = ∑ r ∈ Finset.range 5000, colF0 V c q (t.val * 5000 + r) := by
  rw [Finset.sum_range]
  refine Finset.sum_congr rfl fun r _ => ?_
  rw [lin_blk0]; unfold colF0; rw [dif_pos (by have := hN0 t; omega)]
theorem blocksq0 (c : Dev nD) (t : Fin cfg0.N) (q : Fin 128) :
    ∑ r : Fin 5000, lin0 (F := Ideal) (iblk0 V c 0 t) (iblk0 V c 1 t) (iblk0 V c 2 t) (iblk0 V c 3 t) (iblk0 V c 4 t) (iblk0 V c 5 t) (ix2 r q) * lin0 (F := Ideal) (iblk0 V c 0 t) (iblk0 V c 1 t) (iblk0 V c 2 t) (iblk0 V c 3 t) (iblk0 V c 4 t) (iblk0 V c 5 t) (ix2 r q)
      = ∑ r ∈ Finset.range 5000, colQ0 V c q (t.val * 5000 + r) := by
  rw [Finset.sum_range]
  refine Finset.sum_congr rfl fun r _ => ?_
  rw [lin_blk0]; unfold colQ0; rw [dif_pos (by have := hN0 t; omega)]

/-- After point `n` the running rows hold the sums over the first `n + 1` blocks. -/
theorem acc0_closed (c : Dev nD) (q : Fin 128) : ∀ (n : ℕ) (hn : n < cfg0.N),
    (acc0 V c n hn).1 (ix2 (0 : Fin 1) q) = w0 + ∑ t ∈ Finset.range (n + 1), ∑ r ∈ Finset.range 5000, colF0 V c q (t * 5000 + r)
    ∧ (acc0 V c n hn).2 (ix2 (0 : Fin 1) q) = w0 + ∑ t ∈ Finset.range (n + 1), ∑ r ∈ Finset.range 5000, colQ0 V c q (t * 5000 + r)
  | 0, hn => by
    constructor
    · refine (sumS0_apply (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) _ q).trans ?_
      rw [zS0_apply, blocksum0 V c ⟨0, hn⟩ q, Finset.sum_range_one]
    · refine (sqS0_apply (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) _ q).trans ?_
      rw [zQ0_apply, blocksq0 V c ⟨0, hn⟩ q, Finset.sum_range_one]
  | n + 1, hn => by
    obtain ⟨ih1, ih2⟩ := acc0_closed c q n (Nat.lt_of_succ_lt hn)
    constructor
    · refine (sumS0_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) _ q).trans ?_
      rw [blocksum0 V c ⟨n + 1, hn⟩ q, View.ld_unit_zero Cert.LibWholeStore.zero2, ih1, Finset.sum_range_succ _ (n + 1), add_assoc]
    · refine (sqS0_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) _ q).trans ?_
      rw [blocksq0 V c ⟨n + 1, hn⟩ q, View.ld_unit_zero Cert.LibWholeStore.zero2, ih2, Finset.sum_range_succ _ (n + 1), add_assoc]

/-- The two one-row outputs after the region: the sums over all 100000 nodes. -/
def S0 (c : Dev nD) : S1x128.Idx → EReal := (acc0 V c 19 (by rw [show cfg0.N = 20 from N_0]; decide)).1
def Q0 (c : Dev nD) : S1x128.Idx → EReal := (acc0 V c 19 (by rw [show cfg0.N = 20 from N_0]; decide)).2

theorem S0_apply (c : Dev nD) (q : Fin 128) : S0 V c (ix2 (0 : Fin 1) q) = w0 + ∑ p : Fin 100000, L0 V c p q := by
  unfold S0
  rw [(acc0_closed V c q 19 _).1, ← SumLaw.sum_range_mul (colF0 V c q) 20 5000, Finset.sum_range]
  refine congrArg (w0 + ·) (Finset.sum_congr rfl fun p _ => ?_)
  unfold colF0; rw [dif_pos p.isLt]
theorem Q0_apply (c : Dev nD) (q : Fin 128) : Q0 V c (ix2 (0 : Fin 1) q) = w0 + ∑ p : Fin 100000, L0 V c p q * L0 V c p q := by
  unfold Q0
  rw [(acc0_closed V c q 19 _).2, ← SumLaw.sum_range_mul (colQ0 V c q) 20 5000, Finset.sum_range]
  refine congrArg (w0 + ·) (Finset.sum_congr rfl fun p _ => ?_)
  unfold colQ0; rw [dif_pos p.isLt]

theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v16_1).slice (win0_7.rect t)).set ↔ _
  rw [View.set_slice_whole, Rect.mem_set_unit]
  exact Iff.rfl

theorem final0_7 (c : Dev nD) : (dat0 V c).arrAt 7 cfg0.N = S0 V c := by
  refine (dat0 V c).arrAt_eq_of_cover 7 (S0 V c) (fun t hf => ?_) (fun i => ?_)
  · have h19 : t.val = 19 := by have := (flush0_7 t).mp hf; have := hN0 t; omega
    show (cfg0.win 7).cut (grid0.coords t) ((dat0 V c).after 7 t) = _
    rw [after0_7]
    funext j
    obtain ⟨u, q, rfl⟩ : ∃ (u : Fin 1) (q : Fin 128), j = ix2 u q := ⟨j 0, j 1, eq_ix2 j⟩
    show (acc0 V c t.val t.isLt).1 (ix2 u q) = S0 V c (((cfg0.win 7).blk t).view.emb (ix2 u q))
    rw [emb0_7]
    obtain ⟨n, hn⟩ := t
    subst h19
    rfl
  · have hi0 : (i 0).val < 1 := (i 0).isLt
    have hi1 : (i 1).val < 128 := (i 1).isLt
    have ht : 19 < cfg0.N := by rw [show cfg0.N = 20 from N_0]; decide
    refine ⟨⟨19, ht⟩, (flush0_7 _).mpr rfl, ?_⟩
    rw [mem_blk0_7]
    obtain ⟨e0, e1⟩ := idx0_7 ⟨19, ht⟩
    intro a
    match a with
    | ⟨0, _⟩ =>
      show win0_7.index ⟨19, ht⟩ (0 : Fin 2) * 1 ≤ (i 0).val ∧ (i 0).val < win0_7.index ⟨19, ht⟩ (0 : Fin 2) * 1 + 1
      rw [e0]; omega
    | ⟨1, _⟩ =>
      show win0_7.index ⟨19, ht⟩ (1 : Fin 2) * 128 ≤ (i 1).val ∧ (i 1).val < win0_7.index ⟨19, ht⟩ (1 : Fin 2) * 128 + 128
      rw [e1]; omega

theorem mem_blk0_8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v16_2).slice (win0_8.rect t)).set ↔ _
  rw [View.set_slice_whole, Rect.mem_set_unit]
  exact Iff.rfl

theorem final0_8 (c : Dev nD) : (dat0 V c).arrAt 8 cfg0.N = Q0 V c := by
  refine (dat0 V c).arrAt_eq_of_cover 8 (Q0 V c) (fun t hf => ?_) (fun i => ?_)
  · have h19 : t.val = 19 := by have := (flush0_8 t).mp hf; have := hN0 t; omega
    show (cfg0.win 8).cut (grid0.coords t) ((dat0 V c).after 8 t) = _
    rw [after0_8]
    funext j
    obtain ⟨u, q, rfl⟩ : ∃ (u : Fin 1) (q : Fin 128), j = ix2 u q := ⟨j 0, j 1, eq_ix2 j⟩
    show (acc0 V c t.val t.isLt).2 (ix2 u q) = Q0 V c (((cfg0.win 8).blk t).view.emb (ix2 u q))
    rw [emb0_8]
    obtain ⟨n, hn⟩ := t
    subst h19
    rfl
  · have hi0 : (i 0).val < 1 := (i 0).isLt
    have hi1 : (i 1).val < 128 := (i 1).isLt
    have ht : 19 < cfg0.N := by rw [show cfg0.N = 20 from N_0]; decide
    refine ⟨⟨19, ht⟩, (flush0_8 _).mpr rfl, ?_⟩
    rw [mem_blk0_8]
    obtain ⟨e0, e1⟩ := idx0_8 ⟨19, ht⟩
    intro a
    match a with
    | ⟨0, _⟩ =>
      show win0_8.index ⟨19, ht⟩ (0 : Fin 2) * 1 ≤ (i 0).val ∧ (i 0).val < win0_8.index ⟨19, ht⟩ (0 : Fin 2) * 1 + 1
      rw [e0]; omega
    | ⟨1, _⟩ =>
      show win0_8.index ⟨19, ht⟩ (1 : Fin 2) * 128 ≤ (i 1).val ∧ (i 1).val < win0_8.index ⟨19, ht⟩ (1 : Fin 2) * 128 + 128
      rw [e1]; omega

/-! ## Region 1: where each window's block sits in its array -/

theorem hN1 (t : Fin cfg1.N) : t.val < 20 := lt_of_lt_of_eq t.isLt (show cfg1.N = 20 from N_1)
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem emb1_0 (t : Fin cfg1.N) (r : Fin 5000) (k : Fin 128) :
    ((cfg1.win 0).blk t).view.emb (ix2 r k) = (ix2 (⟨t.val * 5000 + r.val, by have := hN1 t; omega⟩ : Fin 100000) k : S100000x128.Idx) := by
  obtain ⟨e0, e1⟩ := idx1_0 t
  funext a
  apply Fin.ext
  match a with
  | ⟨0, _⟩ => show win1_0.index t (0 : Fin 2) * 5000 + 1 * r.val = t.val * 5000 + r.val; omega
  | ⟨1, _⟩ => show win1_0.index t (1 : Fin 2) * 128 + 1 * k.val = k.val; omega
theorem blk1_0 (c : Dev nD) (t : Fin cfg1.N) (r : Fin 5000) (k : Fin 128) :
    iblk1 V c 0 t (ix2 r k) = (V c main_v16_0 : S100000x128.Idx → EReal) (ix2 (⟨t.val * 5000 + r.val, by have := hN1 t; omega⟩ : Fin 100000) k) := by
  unfold iblk1
  show (V c main_v16_0 : S100000x128.Idx → EReal) (((cfg1.win 0).blk t).view.emb (ix2 r k)) = _
  rw [emb1_0]
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem emb1_1 (t : Fin cfg1.N) (r : Fin 1) (k : Fin 128) :
    ((cfg1.win 1).blk t).view.emb (ix2 r k) = (ix2 (⟨r.val, by have := hN1 t; omega⟩ : Fin 1) k : S1x128.Idx) := by
  obtain ⟨e0, e1⟩ := idx1_1 t
  funext a
  apply Fin.ext
  match a with
  | ⟨0, _⟩ => show win1_1.index t (0 : Fin 2) * 1 + 1 * r.val = r.val; omega
  | ⟨1, _⟩ => show win1_1.index t (1 : Fin 2) * 128 + 1 * k.val = k.val; omega
theorem blk1_1 (c : Dev nD) (t : Fin cfg1.N) (r : Fin 1) (k : Fin 128) :
    iblk1 V c 1 t (ix2 r k) = (V c main_v18 : S1x128.Idx → EReal) (ix2 (⟨r.val, by have := hN1 t; omega⟩ : Fin 1) k) := by
  unfold iblk1
  show (V c main_v18 : S1x128.Idx → EReal) (((cfg1.win 1).blk t).view.emb (ix2 r k)) = _
  rw [emb1_1]
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem emb1_2 (t : Fin cfg1.N) (r : Fin 1) (k : Fin 128) :
    ((cfg1.win 2).blk t).view.emb (ix2 r k) = (ix2 (⟨r.val, by have := hN1 t; omega⟩ : Fin 1) k : S1x128.Idx) := by
  obtain ⟨e0, e1⟩ := idx1_2 t
  funext a
  apply Fin.ext
  match a with
  | ⟨0, _⟩ => show win1_2.index t (0 : Fin 2) * 1 + 1 * r.val = r.val; omega
  | ⟨1, _⟩ => show win1_2.index t (1 : Fin 2) * 128 + 1 * k.val = k.val; omega
theorem blk1_2 (c : Dev nD) (t : Fin cfg1.N) (r : Fin 1) (k : Fin 128) :
    iblk1 V c 2 t (ix2 r k) = (V c main_v22 : S1x128.Idx → EReal) (ix2 (⟨r.val, by have := hN1 t; omega⟩ : Fin 1) k) := by
  unfold iblk1
  show (V c main_v22 : S1x128.Idx → EReal) (((cfg1.win 2).blk t).view.emb (ix2 r k)) = _
  rw [emb1_2]
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem emb1_3 (t : Fin cfg1.N) (r : Fin 1) (k : Fin 128) :
    ((cfg1.win 3).blk t).view.emb (ix2 r k) = (ix2 (⟨r.val, by have := hN1 t; omega⟩ : Fin 1) k : S1x128.Idx) := by
  obtain ⟨e0, e1⟩ := idx1_3 t
  funext a
  apply Fin.ext
  match a with
  | ⟨0, _⟩ => show win1_3.index t (0 : Fin 2) * 1 + 1 * r.val = r.val; omega
  | ⟨1, _⟩ => show win1_3.index t (1 : Fin 2) * 128 + 1 * k.val = k.val; omega
theorem blk1_3 (c : Dev nD) (t : Fin cfg1.N) (r : Fin 1) (k : Fin 128) :
    iblk1 V c 3 t (ix2 r k) = (V c main_v23 : S1x128.Idx → EReal) (ix2 (⟨r.val, by have := hN1 t; omega⟩ : Fin 1) k) := by
  unfold iblk1
  show (V c main_v23 : S1x128.Idx → EReal) (((cfg1.win 3).blk t).view.emb (ix2 r k)) = _
  rw [emb1_3]
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem emb1_4 (t : Fin cfg1.N) (r : Fin 1) (k : Fin 128) :
    ((cfg1.win 4).blk t).view.emb (ix2 r k) = (ix2 (⟨r.val, by have := hN1 t; omega⟩ : Fin 1) k : S1x128.Idx) := by
  obtain ⟨e0, e1⟩ := idx1_4 t
  funext a
  apply Fin.ext
  match a with
  | ⟨0, _⟩ => show win1_4.index t (0 : Fin 2) * 1 + 1 * r.val = r.val; omega
  | ⟨1, _⟩ => show win1_4.index t (1 : Fin 2) * 128 + 1 * k.val = k.val; omega
theorem blk1_4 (c : Dev nD) (t : Fin cfg1.N) (r : Fin 1) (k : Fin 128) :
    iblk1 V c 4 t (ix2 r k) = (V c main_v24 : S1x128.Idx → EReal) (ix2 (⟨r.val, by have := hN1 t; omega⟩ : Fin 1) k) := by
  unfold iblk1
  show (V c main_v24 : S1x128.Idx → EReal) (((cfg1.win 4).blk t).view.emb (ix2 r k)) = _
  rw [emb1_4]
theorem idx1_5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)
theorem emb1_5 (t : Fin cfg1.N) (r : Fin 5000) (k : Fin 128) :
    ((cfg1.win 5).blk t).view.emb (ix2 r k) = (ix2 (⟨t.val * 5000 + r.val, by have := hN1 t; omega⟩ : Fin 100000) k : S100000x128.Idx) := by
  obtain ⟨e0, e1⟩ := idx1_5 t
  funext a
  apply Fin.ext
  match a with
  | ⟨0, _⟩ => show win1_5.index t (0 : Fin 2) * 5000 + 1 * r.val = t.val * 5000 + r.val; omega
  | ⟨1, _⟩ => show win1_5.index t (1 : Fin 2) * 128 + 1 * k.val = k.val; omega

/-! ## Region 1: the array it leaves -/

/-- The normalised array, from the arrays the region is entered with. -/
def G1_5 (c : Dev nD) : S100000x128.Idx → EReal :=
  bnGr (V c main_v16_0) (V c main_v18) (V c main_v22) (V c main_v23) (V c main_v24)

theorem flushed1_5 (c : Dev nD) (t : Fin cfg1.N) :
    (dat1 V c).flushed 5 t = ((cfg1.win 5).blk t).view.read (Elt Ideal) (G1_5 V c) := by
  show (cfg1.win 5).cut (grid1.coords t) ((dat1 V c).after 5 t) = _
  rw [after1_5]
  funext j
  obtain ⟨r, q, rfl⟩ : ∃ (r : Fin 5000) (q : Fin 128), j = ix2 r q := ⟨j 0, j 1, eq_ix2 j⟩
  show out1 (F := Ideal) (iblk1 V c 1 t) (iblk1 V c 2 t) (iblk1 V c 0 t) (iblk1 V c 3 t) (iblk1 V c 4 t) (ix2 r q) = G1_5 V c (((cfg1.win 5).blk t).view.emb (ix2 r q))
  rw [emb1_5]
  refine (out1_apply (iblk1 V c 1 t) (iblk1 V c 2 t) (iblk1 V c 0 t) (iblk1 V c 3 t) (iblk1 V c 4 t) r q).trans ?_
  simp only [blk1_0 V c t, blk1_1 V c t, blk1_2 V c t, blk1_3 V c t, blk1_4 V c t]
  rfl

theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

theorem cover1_5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < cfg1.N := by rw [show cfg1.N = 20 from N_1]; omega
  refine ⟨⟨(i 0).val / 5000, ht⟩, flush1_5 _, ?_⟩
  rw [mem_blk1_5]
  obtain ⟨e0, e1⟩ := idx1_5 ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

theorem final1_5 (c : Dev nD) : (dat1 V c).arrAt 5 cfg1.N = G1_5 V c :=
  (dat1 V c).arrAt_eq_of_cover 5 (G1_5 V c) (fun t _ => flushed1_5 V c t) cover1_5

/-! ## Region 2: where each window's block sits in its array -/

theorem hN2 (t : Fin cfg2.N) : t.val < 20 := lt_of_lt_of_eq t.isLt (show cfg2.N = 20 from N_2)
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem emb2_0 (t : Fin cfg2.N) (r : Fin 5000) (k : Fin 128) :
    ((cfg2.win 0).blk t).view.emb (ix2 r k) = (ix2 (⟨t.val * 5000 + r.val, by have := hN2 t; omega⟩ : Fin 100000) k : S100000x128.Idx) := by
  obtain ⟨e0, e1⟩ := idx2_0 t
  funext a
  apply Fin.ext
  match a with
  | ⟨0, _⟩ => show win2_0.index t (0 : Fin 2) * 5000 + 1 * r.val = t.val * 5000 + r.val; omega
  | ⟨1, _⟩ => show win2_0.index t (1 : Fin 2) * 128 + 1 * k.val = k.val; omega
theorem blk2_0 (c : Dev nD) (t : Fin cfg2.N) (r : Fin 5000) (k : Fin 128) :
    iblk2 V c 0 t (ix2 r k) = (V c main_v25 : S100000x128.Idx → EReal) (ix2 (⟨t.val * 5000 + r.val, by have := hN2 t; omega⟩ : Fin 100000) k) := by
  unfold iblk2
  show (V c main_v25 : S100000x128.Idx → EReal) (((cfg2.win 0).blk t).view.emb (ix2 r k)) = _
  rw [emb2_0]
theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem emb2_1 (t : Fin cfg2.N) (r : Fin 5000) (k : Fin 128) :
    ((cfg2.win 1).blk t).view.emb (ix2 r k) = (ix2 (⟨t.val * 5000 + r.val, by have := hN2 t; omega⟩ : Fin 100000) k : S100000x128.Idx) := by
  obtain ⟨e0, e1⟩ := idx2_1 t
  funext a
  apply Fin.ext
  match a with
  | ⟨0, _⟩ => show win2_1.index t (0 : Fin 2) * 5000 + 1 * r.val = t.val * 5000 + r.val; omega
  | ⟨1, _⟩ => show win2_1.index t (1 : Fin 2) * 128 + 1 * k.val = k.val; omega
theorem blk2_1 (c : Dev nD) (t : Fin cfg2.N) (r : Fin 5000) (k : Fin 128) :
    iblk2 V c 1 t (ix2 r k) = (V c main_v35 : S100000x128.Idx → EReal) (ix2 (⟨t.val * 5000 + r.val, by have := hN2 t; omega⟩ : Fin 100000) k) := by
  unfold iblk2
  show (V c main_v35 : S100000x128.Idx → EReal) (((cfg2.win 1).blk t).view.emb (ix2 r k)) = _
  rw [emb2_1]
theorem idx2_2 : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)
theorem emb2_2 (t : Fin cfg2.N) (r : Fin 5000) (k : Fin 1) :
    ((cfg2.win 2).blk t).view.emb (ix2 r k) = (ix2 (⟨t.val * 5000 + r.val, by have := hN2 t; omega⟩ : Fin 100000) k : S100000x1.Idx) := by
  obtain ⟨e0, e1⟩ := idx2_2 t
  funext a
  apply Fin.ext
  match a with
  | ⟨0, _⟩ => show win2_2.index t (0 : Fin 2) * 5000 + 1 * r.val = t.val * 5000 + r.val; omega
  | ⟨1, _⟩ => show win2_2.index t (1 : Fin 2) * 1 + 1 * k.val = k.val; omega
theorem blk2_2 (c : Dev nD) (t : Fin cfg2.N) (r : Fin 5000) (k : Fin 1) :
    iblk2 V c 2 t (ix2 r k) = (V c main_v4 : S100000x1.Idx → EReal) (ix2 (⟨t.val * 5000 + r.val, by have := hN2 t; omega⟩ : Fin 100000) k) := by
  unfold iblk2
  show (V c main_v4 : S100000x1.Idx → EReal) (((cfg2.win 2).blk t).view.emb (ix2 r k)) = _
  rw [emb2_2]
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem emb2_3 (t : Fin cfg2.N) (r : Fin 128) (k : Fin 64) :
    ((cfg2.win 3).blk t).view.emb (ix2 r k) = (ix2 (⟨r.val, by have := hN2 t; omega⟩ : Fin 128) k : S128x64.Idx) := by
  obtain ⟨e0, e1⟩ := idx2_3 t
  funext a
  apply Fin.ext
  match a with
  | ⟨0, _⟩ => show win2_3.index t (0 : Fin 2) * 128 + 1 * r.val = r.val; omega
  | ⟨1, _⟩ => show win2_3.index t (1 : Fin 2) * 64 + 1 * k.val = k.val; omega
theorem blk2_3 (c : Dev nD) (t : Fin cfg2.N) (r : Fin 128) (k : Fin 64) :
    iblk2 V c 3 t (ix2 r k) = (V c main_arg8 : S128x64.Idx → EReal) (ix2 (⟨r.val, by have := hN2 t; omega⟩ : Fin 128) k) := by
  unfold iblk2
  show (V c main_arg8 : S128x64.Idx → EReal) (((cfg2.win 3).blk t).view.emb (ix2 r k)) = _
  rw [emb2_3]
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem emb2_4 (t : Fin cfg2.N) (r : Fin 128) (k : Fin 64) :
    ((cfg2.win 4).blk t).view.emb (ix2 r k) = (ix2 (⟨r.val, by have := hN2 t; omega⟩ : Fin 128) k : S128x64.Idx) := by
  obtain ⟨e0, e1⟩ := idx2_4 t
  funext a
  apply Fin.ext
  match a with
  | ⟨0, _⟩ => show win2_4.index t (0 : Fin 2) * 128 + 1 * r.val = r.val; omega
  | ⟨1, _⟩ => show win2_4.index t (1 : Fin 2) * 64 + 1 * k.val = k.val; omega
theorem blk2_4 (c : Dev nD) (t : Fin cfg2.N) (r : Fin 128) (k : Fin 64) :
    iblk2 V c 4 t (ix2 r k) = (V c main_arg9 : S128x64.Idx → EReal) (ix2 (⟨r.val, by have := hN2 t; omega⟩ : Fin 128) k) := by
  unfold iblk2
  show (V c main_arg9 : S128x64.Idx → EReal) (((cfg2.win 4).blk t).view.emb (ix2 r k)) = _
  rw [emb2_4]
theorem idx2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem emb2_5 (t : Fin cfg2.N) (r : Fin 1) (k : Fin 64) :
    ((cfg2.win 5).blk t).view.emb (ix2 r k) = (ix2 (⟨r.val, by have := hN2 t; omega⟩ : Fin 1) k : S1x64.Idx) := by
  obtain ⟨e0, e1⟩ := idx2_5 t
  funext a
  apply Fin.ext
  match a with
  | ⟨0, _⟩ => show win2_5.index t (0 : Fin 2) * 1 + 1 * r.val = r.val; omega
  | ⟨1, _⟩ => show win2_5.index t (1 : Fin 2) * 64 + 1 * k.val = k.val; omega
theorem blk2_5 (c : Dev nD) (t : Fin cfg2.N) (r : Fin 1) (k : Fin 64) :
    iblk2 V c 5 t (ix2 r k) = (V c main_v36 : S1x64.Idx → EReal) (ix2 (⟨r.val, by have := hN2 t; omega⟩ : Fin 1) k) := by
  unfold iblk2
  show (V c main_v36 : S1x64.Idx → EReal) (((cfg2.win 5).blk t).view.emb (ix2 r k)) = _
  rw [emb2_5]
theorem idx2_6 : ∀ t : Fin cfg2.N, win2_6.index t (0 : Fin 2) = t.val ∧ win2_6.index t (1 : Fin 2) = 0 :=
  (by decide +kernel : ∀ t : Fin grid2.N, win2_6.index t (0 : Fin 2) = t.val ∧ win2_6.index t (1 : Fin 2) = 0)
theorem emb2_6 (t : Fin cfg2.N) (r : Fin 5000) (k : Fin 64) :
    ((cfg2.win 6).blk t).view.emb (ix2 r k) = (ix2 (⟨t.val * 5000 + r.val, by have := hN2 t; omega⟩ : Fin 100000) k : S100000x64.Idx) := by
  obtain ⟨e0, e1⟩ := idx2_6 t
  funext a
  apply Fin.ext
  match a with
  | ⟨0, _⟩ => show win2_6.index t (0 : Fin 2) * 5000 + 1 * r.val = t.val * 5000 + r.val; omega
  | ⟨1, _⟩ => show win2_6.index t (1 : Fin 2) * 64 + 1 * k.val = k.val; omega
theorem idx2_7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
theorem emb2_7 (t : Fin cfg2.N) (r : Fin 1) (k : Fin 64) :
    ((cfg2.win 7).blk t).view.emb (ix2 r k) = (ix2 (⟨r.val, by have := hN2 t; omega⟩ : Fin 1) k : S1x64.Idx) := by
  obtain ⟨e0, e1⟩ := idx2_7 t
  funext a
  apply Fin.ext
  match a with
  | ⟨0, _⟩ => show win2_7.index t (0 : Fin 2) * 1 + 1 * r.val = r.val; omega
  | ⟨1, _⟩ => show win2_7.index t (1 : Fin 2) * 64 + 1 * k.val = k.val; omega
theorem idx2_8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem emb2_8 (t : Fin cfg2.N) (r : Fin 1) (k : Fin 64) :
    ((cfg2.win 8).blk t).view.emb (ix2 r k) = (ix2 (⟨r.val, by have := hN2 t; omega⟩ : Fin 1) k : S1x64.Idx) := by
  obtain ⟨e0, e1⟩ := idx2_8 t
  funext a
  apply Fin.ext
  match a with
  | ⟨0, _⟩ => show win2_8.index t (0 : Fin 2) * 1 + 1 * r.val = r.val; omega
  | ⟨1, _⟩ => show win2_8.index t (1 : Fin 2) * 64 + 1 * k.val = k.val; omega

/-! ## Region 2: the arrays it leaves -/

/-- The pre-activation the region computes, from the arrays it is entered with. -/
def L2 (c : Dev nD) : Fin 100000 → Fin 64 → EReal := fun p q =>
  linAt (V c main_v25 : S100000x128.Idx → EReal) (V c main_v35 : S100000x128.Idx → EReal) (dvec (V c main_v4 : S100000x1.Idx → EReal))
    (V c main_arg8 : S128x64.Idx → EReal) (V c main_arg9 : S128x64.Idx → EReal) (rowv (V c main_v36 : S1x64.Idx → EReal)) p q
def G2_6 (c : Dev nD) : S100000x64.Idx → EReal := fun i => L2 V c ⟨(i 0).val, (i 0).isLt⟩ ⟨(i 1).val, (i 1).isLt⟩

theorem G2_6_apply (c : Dev nD) (p : Fin 100000) (q : Fin 64) : G2_6 V c (ix2 p q) = L2 V c p q := rfl
/-- An entry of a point's block of pre-activations is the whole-array pre-activation at the block's row. -/
theorem lin_blk2 (c : Dev nD) (t : Fin cfg2.N) (r : Fin 5000) (q : Fin 64) :
    lin2 (F := Ideal) (iblk2 V c 0 t) (iblk2 V c 1 t) (iblk2 V c 2 t) (iblk2 V c 3 t) (iblk2 V c 4 t) (iblk2 V c 5 t) (ix2 r q) = L2 V c ⟨t.val * 5000 + r.val, by have := hN2 t; omega⟩ q := by
  refine (lin2_apply (iblk2 V c 0 t) (iblk2 V c 1 t) (iblk2 V c 2 t) (iblk2 V c 3 t) (iblk2 V c 4 t) (iblk2 V c 5 t) r q).trans ?_
  simp only [blk2_0 V c t, blk2_1 V c t, blk2_2 V c t, blk2_3 V c t, blk2_4 V c t, blk2_5 V c t]
  rfl

theorem flushed2_6 (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6]
  funext j
  obtain ⟨r, q, rfl⟩ : ∃ (r : Fin 5000) (q : Fin 64), j = ix2 r q := ⟨j 0, j 1, eq_ix2 j⟩
  show lin2 (F := Ideal) (iblk2 V c 0 t) (iblk2 V c 1 t) (iblk2 V c 2 t) (iblk2 V c 3 t) (iblk2 V c 4 t) (iblk2 V c 5 t) (ix2 r q) = G2_6 V c (((cfg2.win 6).blk t).view.emb (ix2 r q))
  rw [emb2_6, lin_blk2]
  rfl

theorem mem_blk2_6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v37_0).slice (win2_6.rect t)).set ↔ _
  rw [View.set_slice_whole, Rect.mem_set_unit]
  exact Iff.rfl

theorem cover2_6 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have ht : (i 0).val / 5000 < cfg2.N := by rw [show cfg2.N = 20 from N_2]; omega
  refine ⟨⟨(i 0).val / 5000, ht⟩, flush2_6 _, ?_⟩
  rw [mem_blk2_6]
  obtain ⟨e0, e1⟩ := idx2_6 ⟨(i 0).val / 5000, ht⟩
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, ht⟩ (1 : Fin 2) * 64 ≤ (i 1).val ∧ (i 1).val < win2_6.index ⟨(i 0).val / 5000, ht⟩ (1 : Fin 2) * 64 + 64
    rw [e1]; omega

/-- The array of pre-activations after the region. -/
theorem final2_6 (c : Dev nD) : (dat2 V c).arrAt 6 cfg2.N = G2_6 V c :=
  (dat2 V c).arrAt_eq_of_cover 6 (G2_6 V c) (fun t _ => flushed2_6 V c t) cover2_6

/-! ### The two running rows in closed form -/

def colF2 (c : Dev nD) (q : Fin 64) : ℕ → EReal := fun p => if h : p < 100000 then L2 V c ⟨p, h⟩ q else 0
def colQ2 (c : Dev nD) (q : Fin 64) : ℕ → EReal := fun p => if h : p < 100000 then L2 V c ⟨p, h⟩ q * L2 V c ⟨p, h⟩ q else 0

theorem blocksum2 (c : Dev nD) (t : Fin cfg2.N) (q : Fin 64) :
    ∑ r : Fin 5000, lin2 (F := Ideal) (iblk2 V c 0 t) (iblk2 V c 1 t) (iblk2 V c 2 t) (iblk2 V c 3 t) (iblk2 V c 4 t) (iblk2 V c 5 t) (ix2 r q) = ∑ r ∈ Finset.range 5000, colF2 V c q (t.val * 5000 + r) := by
  rw [Finset.sum_range]
  refine Finset.sum_congr rfl fun r _ => ?_
  rw [lin_blk2]; unfold colF2; rw [dif_pos (by have := hN2 t; omega)]
theorem blocksq2 (c : Dev nD) (t : Fin cfg2.N) (q : Fin 64) :
    ∑ r : Fin 5000, lin2 (F := Ideal) (iblk2 V c 0 t) (iblk2 V c 1 t) (iblk2 V c 2 t) (iblk2 V c 3 t) (iblk2 V c 4 t) (iblk2 V c 5 t) (ix2 r q) * lin2 (F := Ideal) (iblk2 V c 0 t) (iblk2 V c 1 t) (iblk2 V c 2 t) (iblk2 V c 3 t) (iblk2 V c 4 t) (iblk2 V c 5 t) (ix2 r q)
      = ∑ r ∈ Finset.range 5000, colQ2 V c q (t.val * 5000 + r) := by
  rw [Finset.sum_range]
  refine Finset.sum_congr rfl fun r _ => ?_
  rw [lin_blk2]; unfold colQ2; rw [dif_pos (by have := hN2 t; omega)]

/-- After point `n` the running rows hold the sums over the first `n + 1` blocks. -/
theorem acc2_closed (c : Dev nD) (q : Fin 64) : ∀ (n : ℕ) (hn : n < cfg2.N),
    (acc2 V c n hn).1 (ix2 (0 : Fin 1) q) = w0 + ∑ t ∈ Finset.range (n + 1), ∑ r ∈ Finset.range 5000, colF2 V c q (t * 5000 + r)
    ∧ (acc2 V c n hn).2 (ix2 (0 : Fin 1) q) = w0 + ∑ t ∈ Finset.range (n + 1), ∑ r ∈ Finset.range 5000, colQ2 V c q (t * 5000 + r)
  | 0, hn => by
    constructor
    · refine (sumS2_apply (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) _ q).trans ?_
      rw [zS2_apply, blocksum2 V c ⟨0, hn⟩ q, Finset.sum_range_one]
    · refine (sqS2_apply (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) _ q).trans ?_
      rw [zQ2_apply, blocksq2 V c ⟨0, hn⟩ q, Finset.sum_range_one]
  | n + 1, hn => by
    obtain ⟨ih1, ih2⟩ := acc2_closed c q n (Nat.lt_of_succ_lt hn)
    constructor
    · refine (sumS2_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ q).trans ?_
      rw [blocksum2 V c ⟨n + 1, hn⟩ q, View.ld_unit_zero Cert.LibWholeStore.zero2, ih1, Finset.sum_range_succ _ (n + 1), add_assoc]
    · refine (sqS2_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ q).trans ?_
      rw [blocksq2 V c ⟨n + 1, hn⟩ q, View.ld_unit_zero Cert.LibWholeStore.zero2, ih2, Finset.sum_range_succ _ (n + 1), add_assoc]

/-- The two one-row outputs after the region: the sums over all 100000 nodes. -/
def S2 (c : Dev nD) : S1x64.Idx → EReal := (acc2 V c 19 (by rw [show cfg2.N = 20 from N_2]; decide)).1
def Q2 (c : Dev nD) : S1x64.Idx → EReal := (acc2 V c 19 (by rw [show cfg2.N = 20 from N_2]; decide)).2

theorem S2_apply (c : Dev nD) (q : Fin 64) : S2 V c (ix2 (0 : Fin 1) q) = w0 + ∑ p : Fin 100000, L2 V c p q := by
  unfold S2
  rw [(acc2_closed V c q 19 _).1, ← SumLaw.sum_range_mul (colF2 V c q) 20 5000, Finset.sum_range]
  refine congrArg (w0 + ·) (Finset.sum_congr rfl fun p _ => ?_)
  unfold colF2; rw [dif_pos p.isLt]
theorem Q2_apply (c : Dev nD) (q : Fin 64) : Q2 V c (ix2 (0 : Fin 1) q) = w0 + ∑ p : Fin 100000, L2 V c p q * L2 V c p q := by
  unfold Q2
  rw [(acc2_closed V c q 19 _).2, ← SumLaw.sum_range_mul (colQ2 V c q) 20 5000, Finset.sum_range]
  refine congrArg (w0 + ·) (Finset.sum_congr rfl fun p _ => ?_)
  unfold colQ2; rw [dif_pos p.isLt]

theorem mem_blk2_7 (t : Fin cfg2.N) (i : S1x64.Idx) :
    i ∈ ((cfg2.win 7).blk t).view.set ↔ ∀ a : Fin 2, win2_7.index t a * S1x64.size a ≤ (i a).val ∧ (i a).val < win2_7.index t a * S1x64.size a + S1x64.size a := by
  show i ∈ ((View.whole main_v37_1).slice (win2_7.rect t)).set ↔ _
  rw [View.set_slice_whole, Rect.mem_set_unit]
  exact Iff.rfl

theorem final2_7 (c : Dev nD) : (dat2 V c).arrAt 7 cfg2.N = S2 V c := by
  refine (dat2 V c).arrAt_eq_of_cover 7 (S2 V c) (fun t hf => ?_) (fun i => ?_)
  · have h19 : t.val = 19 := by have := (flush2_7 t).mp hf; have := hN2 t; omega
    show (cfg2.win 7).cut (grid2.coords t) ((dat2 V c).after 7 t) = _
    rw [after2_7]
    funext j
    obtain ⟨u, q, rfl⟩ : ∃ (u : Fin 1) (q : Fin 64), j = ix2 u q := ⟨j 0, j 1, eq_ix2 j⟩
    show (acc2 V c t.val t.isLt).1 (ix2 u q) = S2 V c (((cfg2.win 7).blk t).view.emb (ix2 u q))
    rw [emb2_7]
    obtain ⟨n, hn⟩ := t
    subst h19
    rfl
  · have hi0 : (i 0).val < 1 := (i 0).isLt
    have hi1 : (i 1).val < 64 := (i 1).isLt
    have ht : 19 < cfg2.N := by rw [show cfg2.N = 20 from N_2]; decide
    refine ⟨⟨19, ht⟩, (flush2_7 _).mpr rfl, ?_⟩
    rw [mem_blk2_7]
    obtain ⟨e0, e1⟩ := idx2_7 ⟨19, ht⟩
    intro a
    match a with
    | ⟨0, _⟩ =>
      show win2_7.index ⟨19, ht⟩ (0 : Fin 2) * 1 ≤ (i 0).val ∧ (i 0).val < win2_7.index ⟨19, ht⟩ (0 : Fin 2) * 1 + 1
      rw [e0]; omega
    | ⟨1, _⟩ =>
      show win2_7.index ⟨19, ht⟩ (1 : Fin 2) * 64 ≤ (i 1).val ∧ (i 1).val < win2_7.index ⟨19, ht⟩ (1 : Fin 2) * 64 + 64
      rw [e1]; omega

theorem mem_blk2_8 (t : Fin cfg2.N) (i : S1x64.Idx) :
    i ∈ ((cfg2.win 8).blk t).view.set ↔ ∀ a : Fin 2, win2_8.index t a * S1x64.size a ≤ (i a).val ∧ (i a).val < win2_8.index t a * S1x64.size a + S1x64.size a := by
  show i ∈ ((View.whole main_v37_2).slice (win2_8.rect t)).set ↔ _
  rw [View.set_slice_whole, Rect.mem_set_unit]
  exact Iff.rfl

theorem final2_8 (c : Dev nD) : (dat2 V c).arrAt 8 cfg2.N = Q2 V c := by
  refine (dat2 V c).arrAt_eq_of_cover 8 (Q2 V c) (fun t hf => ?_) (fun i => ?_)
  · have h19 : t.val = 19 := by have := (flush2_8 t).mp hf; have := hN2 t; omega
    show (cfg2.win 8).cut (grid2.coords t) ((dat2 V c).after 8 t) = _
    rw [after2_8]
    funext j
    obtain ⟨u, q, rfl⟩ : ∃ (u : Fin 1) (q : Fin 64), j = ix2 u q := ⟨j 0, j 1, eq_ix2 j⟩
    show (acc2 V c t.val t.isLt).2 (ix2 u q) = Q2 V c (((cfg2.win 8).blk t).view.emb (ix2 u q))
    rw [emb2_8]
    obtain ⟨n, hn⟩ := t
    subst h19
    rfl
  · have hi0 : (i 0).val < 1 := (i 0).isLt
    have hi1 : (i 1).val < 64 := (i 1).isLt
    have ht : 19 < cfg2.N := by rw [show cfg2.N = 20 from N_2]; decide
    refine ⟨⟨19, ht⟩, (flush2_8 _).mpr rfl, ?_⟩
    rw [mem_blk2_8]
    obtain ⟨e0, e1⟩ := idx2_8 ⟨19, ht⟩
    intro a
    match a with
    | ⟨0, _⟩ =>
      show win2_8.index ⟨19, ht⟩ (0 : Fin 2) * 1 ≤ (i 0).val ∧ (i 0).val < win2_8.index ⟨19, ht⟩ (0 : Fin 2) * 1 + 1
      rw [e0]; omega
    | ⟨1, _⟩ =>
      show win2_8.index ⟨19, ht⟩ (1 : Fin 2) * 64 ≤ (i 1).val ∧ (i 1).val < win2_8.index ⟨19, ht⟩ (1 : Fin 2) * 64 + 64
      rw [e1]; omega

/-! ## Region 3: where each window's block sits in its array -/

theorem hN3 (t : Fin cfg3.N) : t.val < 20 := lt_of_lt_of_eq t.isLt (show cfg3.N = 20 from N_3)
theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem emb3_0 (t : Fin cfg3.N) (r : Fin 5000) (k : Fin 64) :
    ((cfg3.win 0).blk t).view.emb (ix2 r k) = (ix2 (⟨t.val * 5000 + r.val, by have := hN3 t; omega⟩ : Fin 100000) k : S100000x64.Idx) := by
  obtain ⟨e0, e1⟩ := idx3_0 t
  funext a
  apply Fin.ext
  match a with
  | ⟨0, _⟩ => show win3_0.index t (0 : Fin 2) * 5000 + 1 * r.val = t.val * 5000 + r.val; omega
  | ⟨1, _⟩ => show win3_0.index t (1 : Fin 2) * 64 + 1 * k.val = k.val; omega
theorem blk3_0 (c : Dev nD) (t : Fin cfg3.N) (r : Fin 5000) (k : Fin 64) :
    iblk3 V c 0 t (ix2 r k) = (V c main_v37_0 : S100000x64.Idx → EReal) (ix2 (⟨t.val * 5000 + r.val, by have := hN3 t; omega⟩ : Fin 100000) k) := by
  unfold iblk3
  show (V c main_v37_0 : S100000x64.Idx → EReal) (((cfg3.win 0).blk t).view.emb (ix2 r k)) = _
  rw [emb3_0]
theorem idx3_1 : ∀ t : Fin cfg3.N, win3_1.index t (0 : Fin 2) = 0 ∧ win3_1.index t (1 : Fin 2) = 0 :=
  (by decide +kernel : ∀ t : Fin grid3.N, win3_1.index t (0 : Fin 2) = 0 ∧ win3_1.index t (1 : Fin 2) = 0)
theorem emb3_1 (t : Fin cfg3.N) (r : Fin 1) (k : Fin 64) :
    ((cfg3.win 1).blk t).view.emb (ix2 r k) = (ix2 (⟨r.val, by have := hN3 t; omega⟩ : Fin 1) k : S1x64.Idx) := by
  obtain ⟨e0, e1⟩ := idx3_1 t
  funext a
  apply Fin.ext
  match a with
  | ⟨0, _⟩ => show win3_1.index t (0 : Fin 2) * 1 + 1 * r.val = r.val; omega
  | ⟨1, _⟩ => show win3_1.index t (1 : Fin 2) * 64 + 1 * k.val = k.val; omega
theorem blk3_1 (c : Dev nD) (t : Fin cfg3.N) (r : Fin 1) (k : Fin 64) :
    iblk3 V c 1 t (ix2 r k) = (V c main_v39 : S1x64.Idx → EReal) (ix2 (⟨r.val, by have := hN3 t; omega⟩ : Fin 1) k) := by
  unfold iblk3
  show (V c main_v39 : S1x64.Idx → EReal) (((cfg3.win 1).blk t).view.emb (ix2 r k)) = _
  rw [emb3_1]
theorem idx3_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
theorem emb3_2 (t : Fin cfg3.N) (r : Fin 1) (k : Fin 64) :
    ((cfg3.win 2).blk t).view.emb (ix2 r k) = (ix2 (⟨r.val, by have := hN3 t; omega⟩ : Fin 1) k : S1x64.Idx) := by
  obtain ⟨e0, e1⟩ := idx3_2 t
  funext a
  apply Fin.ext
  match a with
  | ⟨0, _⟩ => show win3_2.index t (0 : Fin 2) * 1 + 1 * r.val = r.val; omega
  | ⟨1, _⟩ => show win3_2.index t (1 : Fin 2) * 64 + 1 * k.val = k.val; omega
theorem blk3_2 (c : Dev nD) (t : Fin cfg3.N) (r : Fin 1) (k : Fin 64) :
    iblk3 V c 2 t (ix2 r k) = (V c main_v43 : S1x64.Idx → EReal) (ix2 (⟨r.val, by have := hN3 t; omega⟩ : Fin 1) k) := by
  unfold iblk3
  show (V c main_v43 : S1x64.Idx → EReal) (((cfg3.win 2).blk t).view.emb (ix2 r k)) = _
  rw [emb3_2]
theorem idx3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem emb3_3 (t : Fin cfg3.N) (r : Fin 1) (k : Fin 64) :
    ((cfg3.win 3).blk t).view.emb (ix2 r k) = (ix2 (⟨r.val, by have := hN3 t; omega⟩ : Fin 1) k : S1x64.Idx) := by
  obtain ⟨e0, e1⟩ := idx3_3 t
  funext a
  apply Fin.ext
  match a with
  | ⟨0, _⟩ => show win3_3.index t (0 : Fin 2) * 1 + 1 * r.val = r.val; omega
  | ⟨1, _⟩ => show win3_3.index t (1 : Fin 2) * 64 + 1 * k.val = k.val; omega
theorem blk3_3 (c : Dev nD) (t : Fin cfg3.N) (r : Fin 1) (k : Fin 64) :
    iblk3 V c 3 t (ix2 r k) = (V c main_v44 : S1x64.Idx → EReal) (ix2 (⟨r.val, by have := hN3 t; omega⟩ : Fin 1) k) := by
  unfold iblk3
  show (V c main_v44 : S1x64.Idx → EReal) (((cfg3.win 3).blk t).view.emb (ix2 r k)) = _
  rw [emb3_3]
theorem idx3_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)
theorem emb3_4 (t : Fin cfg3.N) (r : Fin 1) (k : Fin 64) :
    ((cfg3.win 4).blk t).view.emb (ix2 r k) = (ix2 (⟨r.val, by have := hN3 t; omega⟩ : Fin 1) k : S1x64.Idx) := by
  obtain ⟨e0, e1⟩ := idx3_4 t
  funext a
  apply Fin.ext
  match a with
  | ⟨0, _⟩ => show win3_4.index t (0 : Fin 2) * 1 + 1 * r.val = r.val; omega
  | ⟨1, _⟩ => show win3_4.index t (1 : Fin 2) * 64 + 1 * k.val = k.val; omega
theorem blk3_4 (c : Dev nD) (t : Fin cfg3.N) (r : Fin 1) (k : Fin 64) :
    iblk3 V c 4 t (ix2 r k) = (V c main_v45 : S1x64.Idx → EReal) (ix2 (⟨r.val, by have := hN3 t; omega⟩ : Fin 1) k) := by
  unfold iblk3
  show (V c main_v45 : S1x64.Idx → EReal) (((cfg3.win 4).blk t).view.emb (ix2 r k)) = _
  rw [emb3_4]
theorem idx3_5 : ∀ t : Fin cfg3.N, win3_5.index t (0 : Fin 2) = t.val ∧ win3_5.index t (1 : Fin 2) = 0 :=
  (by decide +kernel : ∀ t : Fin grid3.N, win3_5.index t (0 : Fin 2) = t.val ∧ win3_5.index t (1 : Fin 2) = 0)
theorem emb3_5 (t : Fin cfg3.N) (r : Fin 5000) (k : Fin 64) :
    ((cfg3.win 5).blk t).view.emb (ix2 r k) = (ix2 (⟨t.val * 5000 + r.val, by have := hN3 t; omega⟩ : Fin 100000) k : S100000x64.Idx) := by
  obtain ⟨e0, e1⟩ := idx3_5 t
  funext a
  apply Fin.ext
  match a with
  | ⟨0, _⟩ => show win3_5.index t (0 : Fin 2) * 5000 + 1 * r.val = t.val * 5000 + r.val; omega
  | ⟨1, _⟩ => show win3_5.index t (1 : Fin 2) * 64 + 1 * k.val = k.val; omega

/-! ## Region 3: the array it leaves -/

/-- The normalised array, from the arrays the region is entered with. -/
def G3_5 (c : Dev nD) : S100000x64.Idx → EReal :=
  bnG (V c main_v37_0) (V c main_v39) (V c main_v43) (V c main_v44) (V c main_v45)

theorem flushed3_5 (c : Dev nD) (t : Fin cfg3.N) :
    (dat3 V c).flushed 5 t = ((cfg3.win 5).blk t).view.read (Elt Ideal) (G3_5 V c) := by
  show (cfg3.win 5).cut (grid3.coords t) ((dat3 V c).after 5 t) = _
  rw [after3_5]
  funext j
  obtain ⟨r, q, rfl⟩ : ∃ (r : Fin 5000) (q : Fin 64), j = ix2 r q := ⟨j 0, j 1, eq_ix2 j⟩
  show out3 (F := Ideal) (iblk3 V c 1 t) (iblk3 V c 2 t) (iblk3 V c 0 t) (iblk3 V c 3 t) (iblk3 V c 4 t) (ix2 r q) = G3_5 V c (((cfg3.win 5).blk t).view.emb (ix2 r q))
  rw [emb3_5]
  refine (out3_apply (iblk3 V c 1 t) (iblk3 V c 2 t) (iblk3 V c 0 t) (iblk3 V c 3 t) (iblk3 V c 4 t) r q).trans ?_
  simp only [blk3_0 V c t, blk3_1 V c t, blk3_2 V c t, blk3_3 V c t, blk3_4 V c t]
  rfl

theorem mem_blk3_5 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v46).slice (win3_5.rect t)).set ↔ _
  rw [View.set_slice_whole, Rect.mem_set_unit]
  exact Iff.rfl

theorem cover3_5 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have ht : (i 0).val / 5000 < cfg3.N := by rw [show cfg3.N = 20 from N_3]; omega
  refine ⟨⟨(i 0).val / 5000, ht⟩, flush3_5 _, ?_⟩
  rw [mem_blk3_5]
  obtain ⟨e0, e1⟩ := idx3_5 ⟨(i 0).val / 5000, ht⟩
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, ht⟩ (1 : Fin 2) * 64 ≤ (i 1).val ∧ (i 1).val < win3_5.index ⟨(i 0).val / 5000, ht⟩ (1 : Fin 2) * 64 + 64
    rw [e1]; omega

theorem final3_5 (c : Dev nD) : (dat3 V c).arrAt 5 cfg3.N = G3_5 V c :=
  (dat3 V c).arrAt_eq_of_cover 5 (G3_5 V c) (fun t _ => flushed3_5 V c t) cover3_5

end Cert.KernelIdeal.Val

end
-- ==== Proof.KI.Host.lean ====
/-
  The host lines of the kernel program, read as values.

  Between its four kernel regions the program runs short stretches of host operations. Before the first region they
  form the first aggregation (gather the feature rows by source node, add them up by destination node), the in-degree
  as a column, and the first bias as a row. Before the second region they turn the first region's two running column
  sums `S q = Σ_p x p q` and `Q q = Σ_p (x p q)²` into the column mean `S q / n` and the column variance
  `Q q / n − (S q / n)²`, with `n` the node count, and lay the scale and shift out as rows. Before the third and fourth
  regions they do the same for the second layer: the aggregation of the second region's output, the second bias, and
  the second layer's mean, variance, scale and shift, at 64 output features.

  Each result is stated at the boundary where the next region reads it: an aggregation as a whole array equal to the
  reference's term (the two programs spell it with the same operations on the same operands), every row or column at an
  index as an entry of an argument array or as the quotient it is. A reshape between a vector and a one-row or
  one-column matrix keeps the row-major position; a broadcast constant reads as its word everywhere; an argument array
  that no host line writes and no region produces is still as launched.
-/
import proofs.«172402_j2388001816783_1_alg».proof.Proof.KI.Run
import proofs.«172402_j2388001816783_1_alg».proof.Proof.Gen.ReferenceIdeal.Read
import proofs.«172402_j2388001816783_1_alg».proof.Proof.Sage
import proofs.«172402_j2388001816783_1_alg».proof.Proof.LibKeepdims
import Idealize.ShloMosaic.Lib.StableHlo.Run
import Idealize.ShloMosaic.Lib.ValueLayout
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Cert.Sage Idealize.ShloMosaic Idealize.ShloMosaic.ValueIdx
  Idealize.SL.Sem Idealize.ShloMosaic.TcCoe

variable (m : (ℓ : Loc nD τ sig) → Buf (Elt Ideal) ℓ) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a5" => m ((c.tc : Thread nD τ).loc main_arg5)
local notation "a6" => m ((c.tc : Thread nD τ).loc main_arg6)
local notation "a7" => m ((c.tc : Thread nD τ).loc main_arg7)
local notation "a10" => m ((c.tc : Thread nD τ).loc main_arg10)
local notation "a11" => m ((c.tc : Thread nD τ).loc main_arg11)
local notation "a12" => m ((c.tc : Thread nD τ).loc main_arg12)
set_option quotPrecheck true

/-! ## The host lines before the first region -/

/-- The first aggregation: the kernel's host lines gather the feature rows at the normalised source indices and add
    them up by destination, operation for operation as the reference does. -/
theorem h1_v14 :
    (W1 m c main_v14 : S100000x128.Idx → EReal) = Cert.ReferenceIdeal.Read.val_main_v9 (F := Ideal) a0 a1 a2 := by
  dsimp only [W1, hostOps0]; after_results_simp; rfl

/-- The in-degree, as a column: entry `(p, 0)` is the reference's in-degree of node `p`. -/
theorem h1_v4 (p : Fin 100000) :
    (W1 m c main_v4 : S100000x1.Idx → EReal) (ix2 p (0 : Fin 1))
      = Cert.ReferenceIdeal.Read.val_main_v13 (F := Ideal) a2 (ix1 p) := by
  have e : (W1 m c main_v4 : S100000x1.Idx → EReal)
      = shapeCast S100000x1 (Cert.ReferenceIdeal.Read.val_main_v13 (F := Ideal) a2 : S100000.Idx → EReal)
          shapeCasts_S100000_S100000x1 := by
    dsimp only [W1, hostOps0]; after_results; rfl
  rw [e]
  exact Keepdims.shapeCast_a_a1_apply _ _ _ _

/-- The first bias, as a row. -/
theorem h1_v15 (q : Fin 128) :
    (W1 m c main_v15 : S1x128.Idx → EReal) (ix2 (0 : Fin 1) q) = (a5 : S128.Idx → EReal) (ix1 q) := by
  have e : (W1 m c main_v15 : S1x128.Idx → EReal) = shapeCast S1x128 (a5 : S128.Idx → EReal) shapeCasts_S128_S1x128 := by
    dsimp only [W1, hostOps0]; after_results; rfl
  rw [e]
  exact shapeCast_a_1a_apply _ _ _ _

/-! ## The host lines before the second region -/

/-- The node count broadcast to a row reads as its word at every index. -/
theorem wN_row128 (i : S1x128.Idx) :
    broadcastInDim S1x128 ![] bcast_S_S1x128 (constant (F := Ideal) S_ .f32 0x47C35000#32) i = wN :=
  broadcastInDim_apply _ bcast_S_S1x128 _ i (fun a => a.elim0) (fun a => a.elim0)

/-- The first layer's column means: the column sums over the node count. -/
theorem h3_v18 (q : Fin 128) :
    (W3 m c main_v18 : S1x128.Idx → EReal) (ix2 (0 : Fin 1) q)
      = Ideal.div ((W2 m c main_v16_1 : S1x128.Idx → EReal) (ix2 (0 : Fin 1) q)) wN := by
  have e : (W3 m c main_v18 : S1x128.Idx → EReal)
      = Host.divf (W2 m c main_v16_1 : S1x128.Idx → EReal)
          (broadcastInDim S1x128 ![] bcast_S_S1x128 (constant (F := Ideal) S_ .f32 0x47C35000#32)) := by
    dsimp only [W3, hostOps1]; after_results <;> rfl
  rw [e]
  show Ideal.div _ (broadcastInDim S1x128 ![] bcast_S_S1x128 (constant (F := Ideal) S_ .f32 0x47C35000#32) _) = _
  rw [wN_row128]

/-- The first layer's column variances from the two running sums: the mean of the squares less the squared mean. -/
theorem h3_v22 (q : Fin 128) :
    (W3 m c main_v22 : S1x128.Idx → EReal) (ix2 (0 : Fin 1) q)
      = Ideal.div ((W2 m c main_v16_2 : S1x128.Idx → EReal) (ix2 (0 : Fin 1) q)) wN
        - Ideal.div ((W2 m c main_v16_1 : S1x128.Idx → EReal) (ix2 (0 : Fin 1) q)) wN
          * Ideal.div ((W2 m c main_v16_1 : S1x128.Idx → EReal) (ix2 (0 : Fin 1) q)) wN := by
  have e : (W3 m c main_v22 : S1x128.Idx → EReal)
      = subf (Host.divf (W2 m c main_v16_2 : S1x128.Idx → EReal)
            (broadcastInDim S1x128 ![] bcast_S_S1x128 (constant (F := Ideal) S_ .f32 0x47C35000#32)))
          (mulf (Host.divf (W2 m c main_v16_1 : S1x128.Idx → EReal)
              (broadcastInDim S1x128 ![] bcast_S_S1x128 (constant (F := Ideal) S_ .f32 0x47C35000#32)))
            (Host.divf (W2 m c main_v16_1 : S1x128.Idx → EReal)
              (broadcastInDim S1x128 ![] bcast_S_S1x128 (constant (F := Ideal) S_ .f32 0x47C35000#32)))) := by
    dsimp only [W3, hostOps1]; after_results <;> rfl
  rw [e]
  show Ideal.div _ (broadcastInDim S1x128 ![] bcast_S_S1x128 (constant (F := Ideal) S_ .f32 0x47C35000#32) _)
      - Ideal.div _ (broadcastInDim S1x128 ![] bcast_S_S1x128 (constant (F := Ideal) S_ .f32 0x47C35000#32) _)
        * Ideal.div _ (broadcastInDim S1x128 ![] bcast_S_S1x128 (constant (F := Ideal) S_ .f32 0x47C35000#32) _) = _
  rw [wN_row128]

/-- The first layer's scale, as a row. -/
theorem h3_v23 (q : Fin 128) :
    (W3 m c main_v23 : S1x128.Idx → EReal) (ix2 (0 : Fin 1) q) = (a6 : S128.Idx → EReal) (ix1 q) := by
  have e : (W3 m c main_v23 : S1x128.Idx → EReal)
      = shapeCast S1x128 (W2 m c main_arg6 : S128.Idx → EReal) shapeCasts_S128_S1x128 := by
    dsimp only [W3, hostOps1]; after_results <;> rfl
  have k : (W2 m c main_arg6 : S128.Idx → EReal) = a6 :=
    (W2_keep m c main_arg6 (by decide)).trans ((W1_keep m c main_arg6 (by decide)).trans rfl)
  rw [e, k]
  exact shapeCast_a_1a_apply _ _ _ _

/-- The first layer's shift, as a row. -/
theorem h3_v24 (q : Fin 128) :
    (W3 m c main_v24 : S1x128.Idx → EReal) (ix2 (0 : Fin 1) q) = (a7 : S128.Idx → EReal) (ix1 q) := by
  have e : (W3 m c main_v24 : S1x128.Idx → EReal)
      = shapeCast S1x128 (W2 m c main_arg7 : S128.Idx → EReal) shapeCasts_S128_S1x128 := by
    dsimp only [W3, hostOps1]; after_results <;> rfl
  have k : (W2 m c main_arg7 : S128.Idx → EReal) = a7 :=
    (W2_keep m c main_arg7 (by decide)).trans ((W1_keep m c main_arg7 (by decide)).trans rfl)
  rw [e, k]
  exact shapeCast_a_1a_apply _ _ _ _

/-! ## Arrays no host line writes and no region produces -/

/-- Such an array is, on entering the third stretch of host lines, as launched. -/
theorem W4_launch (b : Ref sig .tc) (h0 : b ∉ hostOps0_W) (h1 : b ∉ hostOps1_W)
    (ho : b ∉ ([main_v16_0, main_v16_1, main_v16_2, main_v25] : List (Ref sig .tc))) :
    W4 m c (Proc.devRef .tc b) = m ((c : Thread nD τ).loc b) := by
  have e4 := W4_keep m c b (fun h => ho (by simp only [List.mem_cons, List.mem_nil_iff, or_false] at h ⊢; tauto))
  have e2 := W2_keep m c b (fun h => ho (by simp only [List.mem_cons, List.mem_nil_iff, or_false] at h ⊢; tauto))
  exact e4.trans ((W3_keep m c b h1).trans (e2.trans ((W1_keep m c b h0).trans rfl)))

/-- Such an array is, on entering the fourth stretch of host lines, as launched. -/
theorem W6_launch (b : Ref sig .tc) (h0 : b ∉ hostOps0_W) (h1 : b ∉ hostOps1_W) (h2 : b ∉ hostOps2_W)
    (ho : b ∉ ([main_v16_0, main_v16_1, main_v16_2, main_v25, main_v37_0, main_v37_1, main_v37_2] : List (Ref sig .tc))) :
    W6 m c (Proc.devRef .tc b) = m ((c : Thread nD τ).loc b) := by
  have e6 := W6_keep m c b (fun h => ho (by simp only [List.mem_cons, List.mem_nil_iff, or_false] at h ⊢; tauto))
  have e4 := W4_launch m c b h0 h1 (fun h => ho (by simp only [List.mem_cons, List.mem_nil_iff, or_false] at h ⊢; tauto))
  exact e6.trans ((W5_keep m c b h2).trans e4)

/-! ## The host lines before the third region -/

/-- The second aggregation of an array `H` of node rows, spelled as the reference spells it: gather the rows of `H` at
    the normalised source indices, add them up by destination into zeros. -/
def agg2 (H : S100000x128.Idx → EReal) (x1 x2 : (⟨Cert.ReferenceIdeal.S1600000, .i32⟩ : BufTy).Contents (Elt Ideal)) :
    S100000x128.Idx → EReal :=
  Host.scatterAdd (F := Ideal) (φ := .f32) Cert.ReferenceIdeal.scatter_S100000x128_S1600000x1_S1600000x128_1_0_0_1
    (Cert.ReferenceIdeal.Read.val_main_v58 (F := Ideal)) (Cert.ReferenceIdeal.Read.val_main_v59 (F := Ideal) x2)
    (Host.gather Cert.ReferenceIdeal.gather_S100000x128_S1600000x1_S1600000x128_1_0_n_n_0_1_1128 H
      (Cert.ReferenceIdeal.Read.val_main_v56 (F := Ideal) x1))

/-- The reference's second aggregation is that of its first layer's output. -/
theorem ref_agg2 (x0 : (⟨Cert.ReferenceIdeal.S100000x128, .f32⟩ : BufTy).Contents (Elt Ideal))
    (x1 x2 : (⟨Cert.ReferenceIdeal.S1600000, .i32⟩ : BufTy).Contents (Elt Ideal))
    (x3 x4 : (⟨Cert.ReferenceIdeal.S128x128, .f32⟩ : BufTy).Contents (Elt Ideal)) (x5 x6 x7 : (⟨Cert.ReferenceIdeal.S128, .f32⟩ : BufTy).Contents (Elt Ideal)) :
    Cert.ReferenceIdeal.Read.val_main_v60 (F := Ideal) x0 x1 x2 x3 x4 x5 x6 x7
      = agg2 (Cert.ReferenceIdeal.Read.val_main_v50 (F := Ideal) x0 x1 x2 x3 x4 x5 x6 x7) x1 x2 := rfl

/-- The kernel's second aggregation is that of the second region's output. -/
theorem h5_v35 :
    (W5 m c main_v35 : S100000x128.Idx → EReal) = agg2 (W4 m c main_v25 : S100000x128.Idx → EReal) a1 a2 := by
  have k1 : W4 m c main_arg1 = a1 := W4_launch m c main_arg1 (by decide) (by decide) (by decide)
  have k2 : W4 m c main_arg2 = a2 := W4_launch m c main_arg2 (by decide) (by decide) (by decide)
  dsimp only [W5, hostOps2]; after_results_simp
  rw [k1, k2]
  rfl

/-- The second bias, as a row. -/
theorem h5_v36 (q : Fin 64) :
    (W5 m c main_v36 : S1x64.Idx → EReal) (ix2 (0 : Fin 1) q) = (a10 : S64.Idx → EReal) (ix1 q) := by
  have e : (W5 m c main_v36 : S1x64.Idx → EReal)
      = shapeCast S1x64 (W4 m c main_arg10 : S64.Idx → EReal) shapeCasts_S64_S1x64 := by
    dsimp only [W5, hostOps2]; after_results <;> rfl
  have k : (W4 m c main_arg10 : S64.Idx → EReal) = a10 := W4_launch m c main_arg10 (by decide) (by decide) (by decide)
  rw [e, k]
  exact shapeCast_a_1a_apply _ _ _ _

/-! ## The host lines before the fourth region -/

/-- The node count broadcast to a row of 64 reads as its word at every index. -/
theorem wN_row64 (i : S1x64.Idx) :
    broadcastInDim S1x64 ![] bcast_S_S1x64 (constant (F := Ideal) S_ .f32 0x47C35000#32) i = wN :=
  broadcastInDim_apply _ bcast_S_S1x64 _ i (fun a => a.elim0) (fun a => a.elim0)

/-- The second layer's column means: the column sums over the node count. -/
theorem h7_v39 (q : Fin 64) :
    (W7 m c main_v39 : S1x64.Idx → EReal) (ix2 (0 : Fin 1) q)
      = Ideal.div ((W6 m c main_v37_1 : S1x64.Idx → EReal) (ix2 (0 : Fin 1) q)) wN := by
  have e : (W7 m c main_v39 : S1x64.Idx → EReal)
      = Host.divf (W6 m c main_v37_1 : S1x64.Idx → EReal)
          (broadcastInDim S1x64 ![] bcast_S_S1x64 (constant (F := Ideal) S_ .f32 0x47C35000#32)) := by
    dsimp only [W7, hostOps3]; after_results <;> rfl
  rw [e]
  show Ideal.div _ (broadcastInDim S1x64 ![] bcast_S_S1x64 (constant (F := Ideal) S_ .f32 0x47C35000#32) _) = _
  rw [wN_row64]

/-- The second layer's column variances from the two running sums: the mean of the squares less the squared mean. -/
theorem h7_v43 (q : Fin 64) :
    (W7 m c main_v43 : S1x64.Idx → EReal) (ix2 (0 : Fin 1) q)
      = Ideal.div ((W6 m c main_v37_2 : S1x64.Idx → EReal) (ix2 (0 : Fin 1) q)) wN
        - Ideal.div ((W6 m c main_v37_1 : S1x64.Idx → EReal) (ix2 (0 : Fin 1) q)) wN
          * Ideal.div ((W6 m c main_v37_1 : S1x64.Idx → EReal) (ix2 (0 : Fin 1) q)) wN := by
  have e : (W7 m c main_v43 : S1x64.Idx → EReal)
      = subf (Host.divf (W6 m c main_v37_2 : S1x64.Idx → EReal)
            (broadcastInDim S1x64 ![] bcast_S_S1x64 (constant (F := Ideal) S_ .f32 0x47C35000#32)))
          (mulf (Host.divf (W6 m c main_v37_1 : S1x64.Idx → EReal)
              (broadcastInDim S1x64 ![] bcast_S_S1x64 (constant (F := Ideal) S_ .f32 0x47C35000#32)))
            (Host.divf (W6 m c main_v37_1 : S1x64.Idx → EReal)
              (broadcastInDim S1x64 ![] bcast_S_S1x64 (constant (F := Ideal) S_ .f32 0x47C35000#32)))) := by
    dsimp only [W7, hostOps3]; after_results <;> rfl
  rw [e]
  show Ideal.div _ (broadcastInDim S1x64 ![] bcast_S_S1x64 (constant (F := Ideal) S_ .f32 0x47C35000#32) _)
      - Ideal.div _ (broadcastInDim S1x64 ![] bcast_S_S1x64 (constant (F := Ideal) S_ .f32 0x47C35000#32) _)
        * Ideal.div _ (broadcastInDim S1x64 ![] bcast_S_S1x64 (constant (F := Ideal) S_ .f32 0x47C35000#32) _) = _
  rw [wN_row64]

/-- The second layer's scale, as a row. -/
theorem h7_v44 (q : Fin 64) :
    (W7 m c main_v44 : S1x64.Idx → EReal) (ix2 (0 : Fin 1) q) = (a11 : S64.Idx → EReal) (ix1 q) := by
  have e : (W7 m c main_v44 : S1x64.Idx → EReal)
      = shapeCast S1x64 (W6 m c main_arg11 : S64.Idx → EReal) shapeCasts_S64_S1x64 := by
    dsimp only [W7, hostOps3]; after_results <;> rfl
  have k : (W6 m c main_arg11 : S64.Idx → EReal) = a11 :=
    W6_launch m c main_arg11 (by decide) (by decide) (by decide) (by decide)
  rw [e, k]
  exact shapeCast_a_1a_apply _ _ _ _

/-- The second layer's shift, as a row. -/
theorem h7_v45 (q : Fin 64) :
    (W7 m c main_v45 : S1x64.Idx → EReal) (ix2 (0 : Fin 1) q) = (a12 : S64.Idx → EReal) (ix1 q) := by
  have e : (W7 m c main_v45 : S1x64.Idx → EReal)
      = shapeCast S1x64 (W6 m c main_arg12 : S64.Idx → EReal) shapeCasts_S64_S1x64 := by
    dsimp only [W7, hostOps3]; after_results <;> rfl
  have k : (W6 m c main_arg12 : S64.Idx → EReal) = a12 :=
    W6_launch m c main_arg12 (by decide) (by decide) (by decide) (by decide)
  rw [e, k]
  exact shapeCast_a_1a_apply _ _ _ _

end Cert.KernelIdeal.Val

end
-- ==== Proof.RefSide.lean ====
/-
  The reference network, read as the mathematics of `Sage`.

  The reference program is two layers. Each gathers the rows of its input by source node, adds them up by destination
  node (the array `A`), counts the in-degree of each node by adding ones at the same destinations (the vector `dv`),
  and forms the pre-activation

      lin p q = Σ_k X p k · Ws k q  +  Σ_k (A p k / max (dv p) 1) · Wn k q  +  b q ;

  it then normalises each output feature over all nodes: with the column mean `μ q = (0 + Σ_p lin p q) / 100000` and the
  column variance `v q = (0 + Σ_p (lin p q − μ q)²) / 100000`, the result is `((lin p q − μ q) · (v q + ε)^(−1/2)) · γ q + β q`.
  The first layer ends with the rectifier `max · 0`; the second does not.

  This file proves, entry by entry over the extended reals, that the generated reading of the program computes exactly
  these expressions: `lin1`, `bn1` for the first layer (input: the node features), `lin2`, `bn2` for the second (input:
  the first layer's output), and `deg_eq`: both layers use the same in-degree vector. Each proof unfolds the program one
  operation at a time. A broadcast reads its operand at an index that forgets or repeats a coordinate; the index
  equations below say which entry that is. A contraction is a sum over the shared axis, a column sum is the initial word
  plus a sum over the node axis, and the float words are kept as the words the specification names.
-/
import proofs.«172402_j2388001816783_1_alg».proof.Proof.Gen.ReferenceIdeal.Read
import proofs.«172402_j2388001816783_1_alg».proof.Proof.Sage
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx
  Idealize.ShloMosaic.StableHlo Cert.Sage

/-! ## Layer 1: the pre-activation -/

/-- The divisor of the neighbour mean at node `p`: the larger of the in-degree and one. -/
theorem div1 (x2 : (⟨S1600000, .i32⟩ : BufTy).Contents (Elt Ideal)) (p : Fin 100000) (k : Fin 128) :
    val_main_v17 (F := Ideal) x2 (ix2 p k) = max (val_main_v13 (F := Ideal) x2 (ix1 p)) w1 := by
  rw [val_main_v17_apply, val_main_v16_apply, val_main_v15_apply, val_main_v14_apply, val_main_cst_3_apply]
  have e : idx_main_v16 (idx_main_v17 (ix2 p k)) = ix1 p := funext fun a => Fin.ext (by match a with | ⟨0, _⟩ => rfl)
  rw [e]
  rfl

theorem lin1 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (p : Fin 100000) (q : Fin 128) :
    val_main_v24 (F := Ideal) x0 x1 x2 x3 x4 x5 (ix2 p q)
      = linAt x0 (val_main_v9 (F := Ideal) x0 x1 x2) (val_main_v13 (F := Ideal) x2) x3 x4 x5 p q := by
  unfold linAt
  rw [val_main_v24_apply, val_main_v21_apply, val_main_v19_apply, val_main_v20_apply, val_main_v23_apply, val_main_v22_apply]
  simp only [Ideal.addf_def]
  have eb : idx_main_v22 (idx_main_v23 (ix2 p q)) = ix1 q := funext fun a => Fin.ext (by match a with | ⟨0, _⟩ => rfl)
  have el : ∀ k : Fin 128, lidx_main_v19 (ix2 p q) k = ix2 p k := fun k =>
    funext fun a => Fin.ext (by match a with | ⟨0, _⟩ => rfl | ⟨1, _⟩ => rfl)
  have er : ∀ k : Fin 128, ridx_main_v19 (ix2 p q) k = ix2 k q := fun k =>
    funext fun a => Fin.ext (by match a with | ⟨0, _⟩ => rfl | ⟨1, _⟩ => rfl)
  have el' : ∀ k : Fin 128, lidx_main_v20 (ix2 p q) k = ix2 p k := fun k =>
    funext fun a => Fin.ext (by match a with | ⟨0, _⟩ => rfl | ⟨1, _⟩ => rfl)
  have er' : ∀ k : Fin 128, ridx_main_v20 (ix2 p q) k = ix2 k q := fun k =>
    funext fun a => Fin.ext (by match a with | ⟨0, _⟩ => rfl | ⟨1, _⟩ => rfl)
  have h1 : ∑ k : Fin 128, x0 (lidx_main_v19 (ix2 p q) k) * x3 (ridx_main_v19 (ix2 p q) k)
      = ∑ k : Fin 128, x0 (ix2 p k) * x3 (ix2 k q) :=
    Finset.sum_congr rfl fun k _ => by rw [el, er]
  have h2 : ∑ k : Fin 128, val_main_v18 (F := Ideal) x0 x1 x2 (lidx_main_v20 (ix2 p q) k) * x4 (ridx_main_v20 (ix2 p q) k)
      = ∑ k : Fin 128, Ideal.div (val_main_v9 (F := Ideal) x0 x1 x2 (ix2 p k)) (max (val_main_v13 (F := Ideal) x2 (ix1 p)) w1)
          * x4 (ix2 k q) :=
    Finset.sum_congr rfl fun k _ => by rw [el', er', val_main_v18_apply, div1, Ideal.hostDivf_def]
  rw [eb, h1, h2]

/-! ## Layer 1: the normalisation -/

/-- The column mean the program forms is the mean of the pre-activations of that column. -/
theorem mean1 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (q : Fin 128) :
    val_main_v27 (F := Ideal) x0 x1 x2 x3 x4 x5 (ix1 q)
      = meanAt (fun p q => val_main_v24 (F := Ideal) x0 x1 x2 x3 x4 x5 (ix2 p q)) q := by
  unfold meanAt
  rw [val_main_v27_apply, val_main_v25_apply, val_main_v26_apply, val_main_cst_4_apply, val_main_cst_5_apply, Ideal.hostDivf_def]
  have e : ∀ k : Fin 100000, idx_main_v25 (ix1 q) k = ix2 k q := fun k =>
    funext fun a => Fin.ext (by match a with | ⟨0, _⟩ => rfl | ⟨1, _⟩ => rfl)
  simp only [e]
  rfl

/-- The column variance the program forms is the mean squared deviation of that column. -/
theorem var1 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (q : Fin 128) :
    val_main_v34 (F := Ideal) x0 x1 x2 x3 x4 x5 (ix1 q)
      = varAt (fun p q => val_main_v24 (F := Ideal) x0 x1 x2 x3 x4 x5 (ix2 p q)) q := by
  unfold varAt
  rw [val_main_v34_apply, val_main_v32_apply, val_main_v33_apply, val_main_cst_6_apply, val_main_cst_7_apply, Ideal.hostDivf_def]
  have e : ∀ k : Fin 100000, idx_main_v32 (ix1 q) k = ix2 k q := fun k =>
    funext fun a => Fin.ext (by match a with | ⟨0, _⟩ => rfl | ⟨1, _⟩ => rfl)
  have em : ∀ k : Fin 100000, idx_main_v28 (idx_main_v29 (ix2 k q)) = ix1 q := fun k =>
    funext fun a => Fin.ext (by match a with | ⟨0, _⟩ => rfl)
  have hs : ∀ k : Fin 100000, val_main_v31 (F := Ideal) x0 x1 x2 x3 x4 x5 (idx_main_v32 (ix1 q) k)
      = (val_main_v24 (F := Ideal) x0 x1 x2 x3 x4 x5 (ix2 k q)
            - meanAt (fun p q => val_main_v24 (F := Ideal) x0 x1 x2 x3 x4 x5 (ix2 p q)) q)
          * (val_main_v24 (F := Ideal) x0 x1 x2 x3 x4 x5 (ix2 k q)
            - meanAt (fun p q => val_main_v24 (F := Ideal) x0 x1 x2 x3 x4 x5 (ix2 p q)) q) := fun k => by
    rw [e, val_main_v31_apply, val_main_v30_apply, val_main_v29_apply, val_main_v28_apply, em, mean1, Ideal.mulf_def, Ideal.subf_def]
  simp only [hs]
  rfl

theorem bn1 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128, .f32⟩ : BufTy).Contents (Elt Ideal)) (p : Fin 100000) (q : Fin 128) :
    val_main_v50 (F := Ideal) x0 x1 x2 x3 x4 x5 x6 x7 (ix2 p q)
      = max (bnAt (fun p q => val_main_v24 (F := Ideal) x0 x1 x2 x3 x4 x5 (ix2 p q)) x6 x7 p q) w0 := by
  unfold bnAt
  rw [val_main_v50_apply, val_main_call0_v0_apply, val_main_call0_cst_apply, val_main_v49_apply, val_main_v46_apply,
    val_main_v43_apply, val_main_v37_apply, val_main_v36_apply, val_main_v35_apply, val_main_v42_apply, val_main_v41_apply,
    val_main_v40_apply, val_main_v39_apply, val_main_v38_apply, val_main_cst_8_apply, val_main_v45_apply, val_main_v44_apply,
    val_main_v48_apply, val_main_v47_apply]
  have e1 : idx_main_v35 (idx_main_v36 (ix2 p q)) = ix1 q := funext fun a => Fin.ext (by match a with | ⟨0, _⟩ => rfl)
  have e2 : idx_main_v41 (idx_main_v42 (ix2 p q)) = ix1 q := funext fun a => Fin.ext (by match a with | ⟨0, _⟩ => rfl)
  have e3 : idx_main_v44 (idx_main_v45 (ix2 p q)) = ix1 q := funext fun a => Fin.ext (by match a with | ⟨0, _⟩ => rfl)
  have e4 : idx_main_v47 (idx_main_v48 (ix2 p q)) = ix1 q := funext fun a => Fin.ext (by match a with | ⟨0, _⟩ => rfl)
  rw [e1, e2, e3, e4, mean1, var1]
  rfl

/-! ## Layer 2: the pre-activation -/

/-- Both layers count the same in-degrees: each scatters ones into zeros at the same destinations. -/
theorem deg_eq (x2 : (⟨S1600000, .i32⟩ : BufTy).Contents (Elt Ideal)) :
    val_main_v64 (F := Ideal) x2 = val_main_v13 (F := Ideal) x2 := rfl

/-- The divisor of the second layer's neighbour mean at node `p`: the larger of the in-degree and one. -/
theorem div2 (x2 : (⟨S1600000, .i32⟩ : BufTy).Contents (Elt Ideal)) (p : Fin 100000) (k : Fin 128) :
    val_main_v68 (F := Ideal) x2 (ix2 p k) = max (val_main_v64 (F := Ideal) x2 (ix1 p)) w1 := by
  rw [val_main_v68_apply, val_main_v67_apply, val_main_v66_apply, val_main_v65_apply, val_main_cst_14_apply]
  have e : idx_main_v67 (idx_main_v68 (ix2 p k)) = ix1 p := funext fun a => Fin.ext (by match a with | ⟨0, _⟩ => rfl)
  rw [e]
  rfl

theorem lin2 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 x6 x7 : (⟨S128, .f32⟩ : BufTy).Contents (Elt Ideal))
    (x8 x9 : (⟨S128x64, .f32⟩ : BufTy).Contents (Elt Ideal)) (x10 : (⟨S64, .f32⟩ : BufTy).Contents (Elt Ideal))
    (p : Fin 100000) (q : Fin 64) :
    val_main_v75 (F := Ideal) x0 x1 x2 x3 x4 x5 x6 x7 x8 x9 x10 (ix2 p q)
      = linAt (val_main_v50 (F := Ideal) x0 x1 x2 x3 x4 x5 x6 x7) (val_main_v60 (F := Ideal) x0 x1 x2 x3 x4 x5 x6 x7)
          (val_main_v64 (F := Ideal) x2) x8 x9 x10 p q := by
  unfold linAt
  rw [val_main_v75_apply, val_main_v72_apply, val_main_v70_apply, val_main_v71_apply, val_main_v74_apply, val_main_v73_apply]
  simp only [Ideal.addf_def]
  have eb : idx_main_v73 (idx_main_v74 (ix2 p q)) = ix1 q := funext fun a => Fin.ext (by match a with | ⟨0, _⟩ => rfl)
  have el : ∀ k : Fin 128, lidx_main_v70 (ix2 p q) k = ix2 p k := fun k =>
    funext fun a => Fin.ext (by match a with | ⟨0, _⟩ => rfl | ⟨1, _⟩ => rfl)
  have er : ∀ k : Fin 128, ridx_main_v70 (ix2 p q) k = ix2 k q := fun k =>
    funext fun a => Fin.ext (by match a with | ⟨0, _⟩ => rfl | ⟨1, _⟩ => rfl)
  have el' : ∀ k : Fin 128, lidx_main_v71 (ix2 p q) k = ix2 p k := fun k =>
    funext fun a => Fin.ext (by match a with | ⟨0, _⟩ => rfl | ⟨1, _⟩ => rfl)
  have er' : ∀ k : Fin 128, ridx_main_v71 (ix2 p q) k = ix2 k q := fun k =>
    funext fun a => Fin.ext (by match a with | ⟨0, _⟩ => rfl | ⟨1, _⟩ => rfl)
  have h1 : ∑ k : Fin 128, val_main_v50 (F := Ideal) x0 x1 x2 x3 x4 x5 x6 x7 (lidx_main_v70 (ix2 p q) k) * x8 (ridx_main_v70 (ix2 p q) k)
      = ∑ k : Fin 128, val_main_v50 (F := Ideal) x0 x1 x2 x3 x4 x5 x6 x7 (ix2 p k) * x8 (ix2 k q) :=
    Finset.sum_congr rfl fun k _ => by rw [el, er]
  have h2 : ∑ k : Fin 128, val_main_v69 (F := Ideal) x0 x1 x2 x3 x4 x5 x6 x7 (lidx_main_v71 (ix2 p q) k) * x9 (ridx_main_v71 (ix2 p q) k)
      = ∑ k : Fin 128, Ideal.div (val_main_v60 (F := Ideal) x0 x1 x2 x3 x4 x5 x6 x7 (ix2 p k)) (max (val_main_v64 (F := Ideal) x2 (ix1 p)) w1)
          * x9 (ix2 k q) :=
    Finset.sum_congr rfl fun k _ => by rw [el', er', val_main_v69_apply, div2, Ideal.hostDivf_def]
  rw [eb, h1, h2]

/-! ## Layer 2: the normalisation -/

/-- The second layer's column mean is the mean of its pre-activations of that column. -/
theorem mean2 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 x6 x7 : (⟨S128, .f32⟩ : BufTy).Contents (Elt Ideal))
    (x8 x9 : (⟨S128x64, .f32⟩ : BufTy).Contents (Elt Ideal)) (x10 : (⟨S64, .f32⟩ : BufTy).Contents (Elt Ideal))
    (q : Fin 64) :
    val_main_v78 (F := Ideal) x0 x1 x2 x3 x4 x5 x6 x7 x8 x9 x10 (ix1 q)
      = meanAt (fun p q => val_main_v75 (F := Ideal) x0 x1 x2 x3 x4 x5 x6 x7 x8 x9 x10 (ix2 p q)) q := by
  unfold meanAt
  rw [val_main_v78_apply, val_main_v76_apply, val_main_v77_apply, val_main_cst_15_apply, val_main_cst_16_apply, Ideal.hostDivf_def]
  have e : ∀ k : Fin 100000, idx_main_v76 (ix1 q) k = ix2 k q := fun k =>
    funext fun a => Fin.ext (by match a with | ⟨0, _⟩ => rfl | ⟨1, _⟩ => rfl)
  simp only [e]
  rfl

/-- The second layer's column variance is the mean squared deviation of that column. -/
theorem var2 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 x6 x7 : (⟨S128, .f32⟩ : BufTy).Contents (Elt Ideal))
    (x8 x9 : (⟨S128x64, .f32⟩ : BufTy).Contents (Elt Ideal)) (x10 : (⟨S64, .f32⟩ : BufTy).Contents (Elt Ideal))
    (q : Fin 64) :
    val_main_v85 (F := Ideal) x0 x1 x2 x3 x4 x5 x6 x7 x8 x9 x10 (ix1 q)
      = varAt (fun p q => val_main_v75 (F := Ideal) x0 x1 x2 x3 x4 x5 x6 x7 x8 x9 x10 (ix2 p q)) q := by
  unfold varAt
  rw [val_main_v85_apply, val_main_v83_apply, val_main_v84_apply, val_main_cst_17_apply, val_main_cst_18_apply, Ideal.hostDivf_def]
  have e : ∀ k : Fin 100000, idx_main_v83 (ix1 q) k = ix2 k q := fun k =>
    funext fun a => Fin.ext (by match a with | ⟨0, _⟩ => rfl | ⟨1, _⟩ => rfl)
  have em : ∀ k : Fin 100000, idx_main_v79 (idx_main_v80 (ix2 k q)) = ix1 q := fun k =>
    funext fun a => Fin.ext (by match a with | ⟨0, _⟩ => rfl)
  have hs : ∀ k : Fin 100000, val_main_v82 (F := Ideal) x0 x1 x2 x3 x4 x5 x6 x7 x8 x9 x10 (idx_main_v83 (ix1 q) k)
      = (val_main_v75 (F := Ideal) x0 x1 x2 x3 x4 x5 x6 x7 x8 x9 x10 (ix2 k q)
            - meanAt (fun p q => val_main_v75 (F := Ideal) x0 x1 x2 x3 x4 x5 x6 x7 x8 x9 x10 (ix2 p q)) q)
          * (val_main_v75 (F := Ideal) x0 x1 x2 x3 x4 x5 x6 x7 x8 x9 x10 (ix2 k q)
            - meanAt (fun p q => val_main_v75 (F := Ideal) x0 x1 x2 x3 x4 x5 x6 x7 x8 x9 x10 (ix2 p q)) q) := fun k => by
    rw [e, val_main_v82_apply, val_main_v81_apply, val_main_v80_apply, val_main_v79_apply, em, mean2, Ideal.mulf_def, Ideal.subf_def]
  simp only [hs]
  rfl

theorem bn2 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 x6 x7 : (⟨S128, .f32⟩ : BufTy).Contents (Elt Ideal))
    (x8 x9 : (⟨S128x64, .f32⟩ : BufTy).Contents (Elt Ideal)) (x10 : (⟨S64, .f32⟩ : BufTy).Contents (Elt Ideal))
    (x11 x12 : (⟨S64, .f32⟩ : BufTy).Contents (Elt Ideal)) (p : Fin 100000) (q : Fin 64) :
    val_main_v100 (F := Ideal) x0 x1 x2 x3 x4 x5 x6 x7 x8 x9 x10 x11 x12 (ix2 p q)
      = bnAt (fun p q => val_main_v75 (F := Ideal) x0 x1 x2 x3 x4 x5 x6 x7 x8 x9 x10 (ix2 p q)) x11 x12 p q := by
  unfold bnAt
  rw [val_main_v100_apply, val_main_v97_apply,
    val_main_v94_apply, val_main_v88_apply, val_main_v87_apply, val_main_v86_apply, val_main_v93_apply, val_main_v92_apply,
    val_main_v91_apply, val_main_v90_apply, val_main_v89_apply, val_main_cst_19_apply, val_main_v96_apply, val_main_v95_apply,
    val_main_v99_apply, val_main_v98_apply]
  have e1 : idx_main_v86 (idx_main_v87 (ix2 p q)) = ix1 q := funext fun a => Fin.ext (by match a with | ⟨0, _⟩ => rfl)
  have e2 : idx_main_v92 (idx_main_v93 (ix2 p q)) = ix1 q := funext fun a => Fin.ext (by match a with | ⟨0, _⟩ => rfl)
  have e3 : idx_main_v95 (idx_main_v96 (ix2 p q)) = ix1 q := funext fun a => Fin.ext (by match a with | ⟨0, _⟩ => rfl)
  have e4 : idx_main_v98 (idx_main_v99 (ix2 p q)) = ix1 q := funext fun a => Fin.ext (by match a with | ⟨0, _⟩ => rfl)
  rw [e1, e2, e3, e4, mean2, var2]
  rfl

end Cert.RefSide

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.LibScatterRows.lean ====
/-
  A row scatter with an add body, read at an entry, over the extended reals.

  What segment_sum (x.at[idx].add(u) on rows) of an [N, C] operand with R update rows lowers to: a scatter with update
  window axis 1, inserted window axis 0, scatter axis 0 mapped to operand axis 0, the index vector on axis 1 of the
  scatter indices [R, 1], and updates [R, C]. Update entry (e, c) lands on the operand entry (idx (e, 0) read as a signed
  integer, c) when that row exists, and is dropped otherwise. So the result's entry (i, c) is the operand's entry plus
  the sum of the update entries (e, c) over the update rows e whose index is i: the set of those rows depends on the
  indices and on i alone, not on the column nor on the number of columns. The extents N, R, C are arbitrary.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- An update lands on the operand index `p` exactly when, on every axis, its start plus its window coordinate is `p`'s
    coordinate (any dimension numbers). -/
theorem resultIdx?_eq_some_iff {s si u : Shape} (d : ScatterDims s si u) {w : Nat} (j : u.Idx) (idx : IVec si w) (p : s.Idx) :
    d.resultIdx? j idx = some p ↔ ∀ a, d.start j idx a + (d.window j a : ℤ) = ((p a).val : ℤ) := by
  unfold ScatterDims.resultIdx?
  split
  · rename_i h
    rw [Option.some.injEq]
    constructor
    · rintro rfl a
      have h1 := (h a).1
      show _ = (((d.start j idx a + (d.window j a : ℤ)).toNat : ℕ) : ℤ)
      omega
    · intro hp
      funext a
      apply Fin.ext
      have h1 := hp a
      show (d.start j idx a + (d.window j a : ℤ)).toNat = (p a).val
      omega
  · rename_i h
    constructor
    · intro h'
      exact absurd h' (by simp)
    · intro hp
      exfalso
      apply h
      intro a
      have h1 := hp a
      have h2 := (p a).isLt
      omega

/-- The dimension numbers of a row scatter, for an operand [N, C], scatter indices [R, 1] and updates [R, C]; their
    conditions are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat}

/-- On the row axis the window starts at the update row's index, read signed. -/
theorem start_row (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 0 = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 1 = 0 := by
  unfold ScatterDims.start
  rw [dif_neg (show (1 : Fin 2) ∉ (rowDims N R C wf).scatterDimsToOperandDims from
    (show (1 : Fin 2) ∉ ([0] : List (Fin 2)) by decide))]

/-- The row axis is inserted: its window coordinate is 0. -/
theorem window_row (wf : ScatterDims.WF ⟨2, ![N, C]⟩ ⟨2, ![R, 1]⟩ ⟨2, ![R, C]⟩ [1] [0] [0] 1)
    (j : (⟨2, ![R, C]⟩ : Shape).Idx) : (rowDims N R C wf).window j 0 = 0 := by
  unfold ScatterDims.window
  rw [dif_neg]
  intro h
  have h2 := (List.mem_filter.mp h).2
  simp at h2

/-- The column axis carries the update's column. -/
theorem window_col (wf : ScatterDims.WF ⟨2, ![N, C]⟩ ⟨2, ![R, 1]⟩ ⟨2, ![R, C]⟩ [1] [0] [0] 1)
    (j : (⟨2, ![R, C]⟩ : Shape).Idx) : (rowDims N R C wf).window j 1 = (j 1).val := by
  unfold ScatterDims.window
  rw [dif_pos (show (1 : Fin 2) ∈ (rowDims N R C wf).sKept from
    List.mem_filter.mpr ⟨List.mem_finRange _, by simp⟩)]
  rfl

/-- The update rows that land on operand row `i`: those whose index, read signed, is `i`. -/
def hits (idx : IVec ⟨2, ![R, 1]⟩ w) (i : Fin N) : Finset (Fin R) :=
  Finset.univ.filter fun e => (idx (ix2 e (0 : Fin 1))).toInt = (i.val : ℤ)

/-- An update entry lands on (i, c) exactly when its row's index is i and its column is c. -/
theorem lands_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : Fin N) (c : Fin C) :
    (rowDims N R C wf).resultIdx? j idx = some (ix2 i c)
      ↔ (idx (ix2 (j 0) (0 : Fin 1))).toInt = (i.val : ℤ) ∧ (j 1).val = c.val := by
  rw [resultIdx?_eq_some_iff]
  constructor
  · intro h
    have h0 : (rowDims N R C wf).start j idx 0 + (((rowDims N R C wf).window j 0 : ℕ) : ℤ) = (i.val : ℤ) := h 0
    have h1 : (rowDims N R C wf).start j idx 1 + (((rowDims N R C wf).window j 1 : ℕ) : ℤ) = (c.val : ℤ) := h 1
    rw [start_row, window_row] at h0
    rw [start_col, window_col] at h1
    exact ⟨by omega, by omega⟩
  · rintro ⟨h0, h1⟩ a
    match a with
    | ⟨0, _⟩ =>
      show (rowDims N R C wf).start j idx 0 + (((rowDims N R C wf).window j 0 : ℕ) : ℤ) = (i.val : ℤ)
      rw [start_row, window_row, h0]
      omega
    | ⟨1, _⟩ =>
      show (rowDims N R C wf).start j idx 1 + (((rowDims N R C wf).window j 1 : ℕ) : ℤ) = (c.val : ℤ)
      rw [start_col, window_col, h1]
      omega

/-- The accumulating row scatter at (i, c): the operand's entry plus the sum of column c over the update rows whose
    index is i. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (i : Fin N) (c : Fin C) :
    Ideal.hostScatterAdd (rowDims N R C wf) x idx upd (ix2 i c) = x (ix2 i c) + ∑ e ∈ hits (N := N) idx i, upd (ix2 e c) := by
  unfold Ideal.hostScatterAdd
  congr 1
  have key : ∀ j : (⟨2, ![R, C]⟩ : Shape).Idx, (rowDims N R C wf).resultIdx? j idx = some (ix2 i c) → ix2 (j 0) c = j := by
    intro j hj
    have h1 := ((lands_iff wf j idx i c).mp hj).2
    have h2 : j 1 = c := Fin.ext h1
    rw [← h2]
    exact (eq_ix2 j).symm
  refine Finset.sum_nbij' (fun j => (j 0 : Fin R)) (fun e => ix2 e c) ?_ ?_ ?_ ?_ ?_
  · intro j hj
    rw [Finset.mem_filter] at hj
    exact Finset.mem_filter.mpr ⟨Finset.mem_univ _, ((lands_iff wf j idx i c).mp hj.2).1⟩
  · intro e he
    have he2 := (Finset.mem_filter.mp he).2
    rw [Finset.mem_filter]
    exact ⟨Finset.mem_univ _, (lands_iff wf (ix2 e c) idx i c).mpr ⟨he2, rfl⟩⟩
  · intro j hj
    rw [Finset.mem_filter] at hj
    exact key j hj.2
  · intro e _
    rfl
  · intro j hj
    rw [Finset.mem_filter] at hj
    exact congrArg upd (key j hj.2).symm

end Idealize.ShloMosaic.ScatterRows

end
-- ==== Proof.LibScatterVec.lean ====
/-
  A scatter with an add body into a vector, read at an entry, over the extended reals.

  What segment_sum (x.at[idx].add(u)) of a vector x of N entries with R updates lowers to: a scatter with no update
  window axis, inserted window axis 0, scatter axis 0 mapped to operand axis 0, the index vector on axis 1 of the
  scatter indices [R, 1], and updates [R]. Update entry e lands on the operand entry idx (e, 0), read as a signed
  integer, when that entry exists, and is dropped otherwise. So the result's entry i is the operand's entry plus the
  sum of the update entries e whose index is i: the same set of update rows as for a row scatter of an [N, C] operand
  with the same scatter indices. The extents N, R are arbitrary.
-/
import proofs.«172402_j2388001816783_1_alg».proof.Proof.LibScatterRows

noncomputable section

open scoped BigOperators

namespace Idealize.ShloMosaic.ScatterVec

open Idealize.ShloMosaic Idealize.ShloMosaic.ValueIdx

/-- The dimension numbers of a scatter into a vector, for an operand [N], scatter indices [R, 1] and updates [R]; their
    conditions are decided on a program's literal shapes. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat}

/-- On the only operand axis the window starts at the update's index, read signed. -/
theorem start_vec (wf : ScatterDims.WF ⟨1, ![N]⟩ ⟨2, ![R, 1]⟩ ⟨1, ![R]⟩ [] [0] [0] 1)
    (j : (⟨1, ![R]⟩ : Shape).Idx) (idx : IVec ⟨2, ![R, 1]⟩ w) :
    (vecDims N R wf).start j idx 0 = (idx (ix2 (j 0) (0 : Fin 1))).toInt := by
  unfold ScatterDims.start
  rw [dif_pos (show (0 : Fin 1) ∈ (vecDims N R wf).scatterDimsToOperandDims from List.mem_singleton.mpr rfl)]
  have hsi : (vecDims N R wf).siIdx j ⟨List.idxOf (0 : Fin 1) (vecDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The only operand axis is inserted: its window coordinate is 0. -/
theorem window_vec (wf : ScatterDims.WF ⟨1, ![N]⟩ ⟨2, ![R, 1]⟩ ⟨1, ![R]⟩ [] [0] [0] 1)
    (j : (⟨1, ![R]⟩ : Shape).Idx) : (vecDims N R wf).window j 0 = 0 := by
  unfold ScatterDims.window
  rw [dif_neg]
  intro h
  have h2 := (List.mem_filter.mp h).2
  simp at h2

/-- An update entry lands on entry i exactly when its index is i. -/
theorem lands_iff (wf : ScatterDims.WF ⟨1, ![N]⟩ ⟨2, ![R, 1]⟩ ⟨1, ![R]⟩ [] [0] [0] 1)
    (j : (⟨1, ![R]⟩ : Shape).Idx) (idx : IVec ⟨2, ![R, 1]⟩ w) (i : Fin N) :
    (vecDims N R wf).resultIdx? j idx = some (ix1 i) ↔ (idx (ix2 (j 0) (0 : Fin 1))).toInt = (i.val : ℤ) := by
  rw [ScatterRows.resultIdx?_eq_some_iff]
  constructor
  · intro h
    have h0 : (vecDims N R wf).start j idx 0 + (((vecDims N R wf).window j 0 : ℕ) : ℤ) = (i.val : ℤ) := h 0
    rw [start_vec, window_vec] at h0
    omega
  · intro h0 a
    match a with
    | ⟨0, _⟩ =>
      show (vecDims N R wf).start j idx 0 + (((vecDims N R wf).window j 0 : ℕ) : ℤ) = (i.val : ℤ)
      rw [start_vec, window_vec, h0]
      omega

/-- The accumulating scatter into a vector at entry i: the operand's entry plus the sum of the update entries whose
    index is i (the update rows that a row scatter with the same indices lands on row i). -/
theorem scatterAdd_vec_apply (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (i : Fin N) :
    Ideal.hostScatterAdd (vecDims N R wf) x idx upd (ix1 i)
      = x (ix1 i) + ∑ e ∈ ScatterRows.hits (N := N) idx i, upd (ix1 e) := by
  unfold Ideal.hostScatterAdd
  congr 1
  refine Finset.sum_nbij' (fun j => (j 0 : Fin R)) (fun e => ix1 e) ?_ ?_ ?_ ?_ ?_
  · intro j hj
    rw [Finset.mem_filter] at hj
    exact Finset.mem_filter.mpr ⟨Finset.mem_univ _, (lands_iff wf j idx i).mp hj.2⟩
  · intro e he
    have he2 := (Finset.mem_filter.mp he).2
    rw [Finset.mem_filter]
    exact ⟨Finset.mem_univ _, (lands_iff wf (ix1 e) idx i).mpr he2⟩
  · intro j _
    exact (eq_ix1 j).symm
  · intro e _
    rfl
  · intro j _
    exact congrArg upd (eq_ix1 j)

end Idealize.ShloMosaic.ScatterVec

end
-- ==== Proof.LibHostSums.lean ====
/-
  The host's float sum along the leading axis, read at an index, at the ideal values.

  For an [a, b] matrix x the host's sum over axis 0 from an initial value is, at column j, the initial value plus
  the sum over the rows i of x (i, j); for a length-a vector the host's sum over its one axis, a scalar, is the
  initial value plus the sum of its entries. Arbitrary extents. Also: the host's float scatter-add is the exact
  accumulation (stated once over arbitrary shapes, to be used by rewriting). (The library states the first over the reduced
  shape's own index and the second over the operand's index set; here both are sums over Fin a.)
-/
import Idealize.ShloMosaic.PureOps.Ideal.Laws
import Idealize.ShloMosaic.Lib.ValueIdx

noncomputable section

open scoped BigOperators

namespace Idealize.ShloMosaic.HostSums

open Idealize.ShloMosaic Idealize.ShloMosaic.ValueIdx

variable {a b : ℕ}

/-- The column sums on the host: at column j, the initial value plus the sum of the column's entries. -/
theorem hostColSum_apply (x : (⟨2, ![a, b]⟩ : Shape).Idx → EReal) (init : EReal)
    (h' : (⟨2, ![a, b]⟩ : Shape).ReducesTo [0] ⟨1, ![b]⟩) (j : Fin b) :
    Ideal.hostReduceAdd h' x init (ix1 j) = init + ∑ i : Fin a, x (ix2 i j) := by
  have h : (⟨2, ![a, b]⟩ : Shape).Reduces [0] ⟨1, ![b]⟩ := ⟨h'.1, Nat.one_pos, h'.2⟩
  rw [Ideal.hostReduceAdd_single h' h]
  refine congrArg (init + ·) (Finset.sum_congr rfl fun i _ => ?_)
  exact congrArg x (funext fun c => Fin.ext (by match c with | ⟨0, _⟩ => rfl | ⟨1, _⟩ => rfl))

/-- A vector's indices are its positions. -/
def idxEquiv1 {n : ℕ} : (⟨1, ![n]⟩ : Shape).Idx ≃ Fin n where
  toFun j := j 0
  invFun := ix1
  left_inv j := (eq_ix1 j).symm
  right_inv _ := rfl

/-- A sum over a vector's index set is the sum over its positions. -/
theorem sum_idx1 {M : Type*} [AddCommMonoid M] {n : ℕ} (f : (⟨1, ![n]⟩ : Shape).Idx → M) :
    ∑ j, f j = ∑ i : Fin n, f (ix1 i) :=
  Fintype.sum_equiv idxEquiv1 f (fun i => f (ix1 i)) fun j => congrArg f (eq_ix1 j)

/-- The host's sum of a vector: the initial value plus the sum of the entries. -/
theorem hostVecSum_apply (x : (⟨1, ![a]⟩ : Shape).Idx → EReal) (init : EReal)
    (h' : (⟨1, ![a]⟩ : Shape).ReducesTo [0] ⟨0, ![]⟩) (j : (⟨0, ![]⟩ : Shape).Idx) :
    Ideal.hostReduceAdd h' x init j = init + ∑ i : Fin a, x (ix1 i) := by
  rw [Ideal.hostReduceAdd_total h' (fun b => b.elim0) x init j, sum_idx1]

/-- The host's float scatter-add at the ideal values is the exact accumulation, whatever the shapes. -/
theorem hostScatterAdd_eq {s si u : Shape} {w : Nat} {φ : FTy} (d : ScatterDims s si u) (x : FVec Ideal s φ)
    (idx : IVec si w) (upd : FVec Ideal u φ) : Host.scatterAdd d x idx upd = Ideal.hostScatterAdd d x idx upd := rfl

end Idealize.ShloMosaic.HostSums

end
-- ==== Proof.AggFin.lean ====
/-
  Aggregated rows of a real array are real.

  The reference program aggregates over a graph's edges: it gathers, for every edge, the row of a node array at the
  edge's source, and adds the gathered rows into an array of zeros at the edge's target. Entry (i, c) of the result is
  therefore zero plus a finite sum of entries of the node array, and a finite sum of real numbers is a real number. The
  in-degree count is the same accumulation with every gathered row replaced by the number one. Both facts are stated
  for the first aggregation (over the input array) and the second (over the first layer's output).
-/
import proofs.«172402_j2388001816783_1_alg».proof.Proof.Gen.ReferenceIdeal.Read
import proofs.«172402_j2388001816783_1_alg».proof.Proof.LibFinite
import proofs.«172402_j2388001816783_1_alg».proof.Proof.LibGatherRows
import proofs.«172402_j2388001816783_1_alg».proof.Proof.LibScatterRows
import proofs.«172402_j2388001816783_1_alg».proof.Proof.LibScatterVec
import proofs.«172402_j2388001816783_1_alg».proof.Proof.LibHostSums
import Idealize.ShloMosaic.Lib.IdealHost

noncomputable section

namespace Cert.AggFin

open Cert.ReferenceIdeal Cert.ReferenceIdeal.Gen Cert.ReferenceIdeal.Read Idealize.ShloMosaic Idealize.ShloMosaic.ValueIdx
  Cert.LibFinite

/-- The printed row-scatter record is the row scatter at the program's extents. -/
theorem scatter_rows_eq : scatter_S100000x128_S1600000x1_S1600000x128_1_0_0_1
    = ScatterRows.rowDims 100000 1600000 128 Facts₀.scatter_S100000x128_S1600000x1_S1600000x128_1_0_0_1_wf := rfl

/-- The printed row-gather record is the row gather at the program's extents. -/
theorem gather_rows_eq : gather_S100000x128_S1600000x1_S1600000x128_1_0_n_n_0_1_1128
    = GatherRows.rowDims 100000 1600000 128 Facts₀.gather_S100000x128_S1600000x1_S1600000x128_1_0_n_n_0_1_1128_wf := rfl

/-- The printed vector-scatter record is the scatter into a vector at the program's extents. -/
theorem scatter_vec_eq : scatter_S100000_S1600000x1_S1600000_n_0_0_1
    = ScatterVec.vecDims 100000 1600000 Facts₀.scatter_S100000_S1600000x1_S1600000_n_0_0_1_wf := rfl

/-- Rows of a real array, gathered at any start indices and added by rows into an array of zeros at any scatter
    indices, give a real array: entry (i, c) is zero plus a finite sum of entries of the array. -/
theorem scatter_gather_isFin (x z : FVec Ideal S100000x128 .f32) (ig is : IVec S1600000x1 32)
    (hz : ∀ i, z i = 0) (h : ∀ i, IsFin (x i)) (i : S100000x128.Idx) :
    IsFin (Host.scatterAdd (F := Ideal) (φ := .f32) scatter_S100000x128_S1600000x1_S1600000x128_1_0_0_1 z is
      (Host.gather gather_S100000x128_S1600000x1_S1600000x128_1_0_n_n_0_1_1128 x ig) i) := by
  obtain ⟨p, q, rfl⟩ : ∃ (p : Fin 100000) (q : Fin 128), i = ix2 p q := ⟨i 0, i 1, eq_ix2 i⟩
  rw [HostSums.hostScatterAdd_eq, scatter_rows_eq, ScatterRows.scatterAdd_rows_apply, hz]
  refine IsFin.add IsFin.zero (IsFin.sum _ _ fun e _ => ?_)
  rw [gather_rows_eq, GatherRows.gather_rows_apply (by decide)]
  exact h _

/-- The array of zeros the first aggregation accumulates into. -/
theorem zeros7 (i : S100000x128.Idx) : val_main_v7 (F := Ideal) i = 0 := by
  rw [val_main_v7_apply, val_main_cst_apply]; exact Ideal.ofBits_zero_f32

/-- The array of zeros the second aggregation accumulates into. -/
theorem zeros58 (i : S100000x128.Idx) : val_main_v58 (F := Ideal) i = 0 := by
  rw [val_main_v58_apply, val_main_cst_11_apply]; exact Ideal.ofBits_zero_f32

/-- The first aggregation of a real input array is real. -/
theorem agg1_isFin (x0 : (⟨S100000x128, .f32⟩ : BufTy).Contents (Elt Ideal)) (x1 x2 : (⟨S1600000, .i32⟩ : BufTy).Contents (Elt Ideal)) (h : ∀ i, IsFin (x0 i)) :
    ∀ i, IsFin (val_main_v9 (F := Ideal) x0 x1 x2 i) := by
  intro i
  unfold val_main_v9 val_main_v6
  exact scatter_gather_isFin x0 _ _ _ zeros7 h i

/-- The in-degree count (ones added into zeros) is real. -/
theorem deg_isFin (x2 : (⟨S1600000, .i32⟩ : BufTy).Contents (Elt Ideal)) : ∀ i, IsFin (val_main_v13 (F := Ideal) x2 i) := by
  intro i
  obtain ⟨p, rfl⟩ : ∃ p : Fin 100000, i = ix1 p := ⟨i 0, eq_ix1 i⟩
  unfold val_main_v13
  rw [HostSums.hostScatterAdd_eq, scatter_vec_eq, ScatterVec.scatterAdd_vec_apply, val_main_v11_apply, val_main_cst_2_apply]
  refine IsFin.add ?_ (IsFin.sum _ _ fun e _ => ?_)
  · show IsFin (Ideal.ofBits .f32 0x00000000#32)
    rw [Ideal.ofBits_zero_f32]; exact IsFin.zero
  · rw [val_main_v10_apply, val_main_cst_1_apply]
    show IsFin (Ideal.ofBits .f32 0x3F800000#32)
    rw [Ideal.ofBits_one_f32]; exact IsFin.one

/-- The second aggregation, of the first layer's output, is real when that output is. -/
theorem agg2_isFin (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 x6 x7 : (⟨S128, .f32⟩ : BufTy).Contents (Elt Ideal))
    (h : ∀ i, IsFin (val_main_v50 (F := Ideal) x0 x1 x2 x3 x4 x5 x6 x7 i)) :
    ∀ i, IsFin (val_main_v60 (F := Ideal) x0 x1 x2 x3 x4 x5 x6 x7 i) := by
  intro i
  unfold val_main_v60 val_main_v57
  exact scatter_gather_isFin _ _ _ _ zeros58 h i

end Cert.AggFin

end
-- ==== Proof.KI.Out.lean ====
/-
  The idealized kernel program's result is the reference's, on real inputs.

  Layer by layer. The pre-activations agree outright: both programs form, for node p and output feature q, the row's
  product with the self weights plus the degree-normalised neighbour sum's product with the neighbour weights plus the
  bias — the kernel block by block through the matrix unit, the reference by two whole products — and the neighbour
  sums and degrees are computed by the same host operations in both. The kernel then normalises with the variance
  "mean of squares minus squared mean" taken from two running column sums, the reference with the mean squared
  deviation; these agree because every pre-activation is a real number (real inputs, finite sums, a divisor that is at
  least one) and the divisor 100000 is exactly the number of nodes. The first layer's rectified output is therefore
  the same array of real numbers in both programs, and the second layer repeats the argument on it.
-/
import proofs.«172402_j2388001816783_1_alg».proof.Proof.KI.Run
import proofs.«172402_j2388001816783_1_alg».proof.Proof.KI.Fin
import proofs.«172402_j2388001816783_1_alg».proof.Proof.KI.Host
import proofs.«172402_j2388001816783_1_alg».proof.Proof.RefSide
import proofs.«172402_j2388001816783_1_alg».proof.Proof.AggFin
import proofs.«172402_j2388001816783_1_alg».proof.Proof.Sage

set_option maxRecDepth 16384

noncomputable section

namespace Cert.KernelIdeal.Val

open Cert.KernelIdeal Cert.KernelIdeal.Gen Cert.KernelIdeal.Hand Cert.Sage Cert.LibFinite
open Idealize.ShloMosaic Idealize.ShloMosaic.TcCoe Idealize.ShloMosaic.ValueIdx Idealize.SL.Sem
open Cert.ReferenceIdeal.Read (val_main_v9 val_main_v13 val_main_v24 val_main_v50 val_main_v60 val_main_v64 val_main_v75 val_main_v100)

variable (m : (ℓ : Loc nD τ sig) → Buf (Elt Ideal) ℓ) (c : Dev nD)

/-- The argument arrays on core `c`. -/
abbrev a0 : S100000x128.Idx → EReal := (m ((c.tc : Thread nD τ).loc main_arg0))
abbrev a1 : S1600000.Idx → BitVec 32 := (m ((c.tc : Thread nD τ).loc main_arg1))
abbrev a2 : S1600000.Idx → BitVec 32 := (m ((c.tc : Thread nD τ).loc main_arg2))
abbrev a3 : S128x128.Idx → EReal := (m ((c.tc : Thread nD τ).loc main_arg3))
abbrev a4 : S128x128.Idx → EReal := (m ((c.tc : Thread nD τ).loc main_arg4))
abbrev a5 : S128.Idx → EReal := (m ((c.tc : Thread nD τ).loc main_arg5))
abbrev a6 : S128.Idx → EReal := (m ((c.tc : Thread nD τ).loc main_arg6))
abbrev a7 : S128.Idx → EReal := (m ((c.tc : Thread nD τ).loc main_arg7))
abbrev a8 : S128x64.Idx → EReal := (m ((c.tc : Thread nD τ).loc main_arg8))
abbrev a9 : S128x64.Idx → EReal := (m ((c.tc : Thread nD τ).loc main_arg9))
abbrev a10 : S64.Idx → EReal := (m ((c.tc : Thread nD τ).loc main_arg10))
abbrev a11 : S64.Idx → EReal := (m ((c.tc : Thread nD τ).loc main_arg11))
abbrev a12 : S64.Idx → EReal := (m ((c.tc : Thread nD τ).loc main_arg12))

/-- Every float input entry is a real number. -/
structure RealInputs : Prop where
  h0 : ∀ i, IsFin (a0 m c i)
  h3 : ∀ i, IsFin (a3 m c i)
  h4 : ∀ i, IsFin (a4 m c i)
  h5 : ∀ i, IsFin (a5 m c i)
  h6 : ∀ i, IsFin (a6 m c i)
  h7 : ∀ i, IsFin (a7 m c i)
  h8 : ∀ i, IsFin (a8 m c i)
  h9 : ∀ i, IsFin (a9 m c i)
  h10 : ∀ i, IsFin (a10 m c i)
  h11 : ∀ i, IsFin (a11 m c i)
  h12 : ∀ i, IsFin (a12 m c i)

theorem hN : ((100000 : ℕ) : ℝ) = 100000 := by norm_num

/-! ## Layer 1 -/

theorem e1_arg0 : (W1 m c main_arg0 : S100000x128.Idx → EReal) = a0 m c := (W1_keep m c main_arg0 (by decide)).trans rfl
theorem e1_arg3 : (W1 m c main_arg3 : S128x128.Idx → EReal) = a3 m c := (W1_keep m c main_arg3 (by decide)).trans rfl
theorem e1_arg4 : (W1 m c main_arg4 : S128x128.Idx → EReal) = a4 m c := (W1_keep m c main_arg4 (by decide)).trans rfl
theorem e1_dvec : dvec (W1 m c main_v4 : S100000x1.Idx → EReal) = val_main_v13 (F := Ideal) (a2 m c) := by
  funext j
  obtain ⟨p, rfl⟩ : ∃ p : Fin 100000, j = ix1 p := ⟨j 0, eq_ix1 j⟩
  exact h1_v4 m c p
theorem e1_rowv : rowv (W1 m c main_v15 : S1x128.Idx → EReal) = a5 m c := by
  funext j
  obtain ⟨q, rfl⟩ : ∃ q : Fin 128, j = ix1 q := ⟨j 0, eq_ix1 j⟩
  exact h1_v15 m c q

/-- The first layer's pre-activation is the reference's. -/
theorem L1_eq (p : Fin 100000) (q : Fin 128) :
    L0 (U1 m) c p q = val_main_v24 (F := Ideal) (a0 m c) (a1 m c) (a2 m c) (a3 m c) (a4 m c) (a5 m c) (ix2 p q) := by
  unfold L0
  dsimp only [U1]
  rw [e1_arg0, h1_v14, e1_dvec, e1_arg3, e1_arg4, e1_rowv]
  exact (Cert.RefSide.lin1 _ _ _ _ _ _ p q).symm

variable (hr : RealInputs m c)
include hr

/-- It is a real number. -/
theorem L1_fin (p : Fin 100000) (q : Fin 128) : IsFin (L0 (U1 m) c p q) := by
  rw [L1_eq, Cert.RefSide.lin1]
  exact linAt_isFin _ _ _ _ _ _ hr.h0 (Cert.AggFin.agg1_isFin _ _ _ hr.h0) (Cert.AggFin.deg_isFin _) hr.h3 hr.h4 hr.h5 p q

omit hr in
theorem e3_lin : (W3 m c main_v16_0 : S100000x128.Idx → EReal) = G0_6 (U1 m) c :=
  (W3_keep m c main_v16_0 (by decide)).trans ((W2_arr m c 6).trans (final0_6 (U1 m) c))
omit hr in
theorem e2_S : (W2 m c main_v16_1 : S1x128.Idx → EReal) = S0 (U1 m) c := (W2_arr m c 7).trans (final0_7 (U1 m) c)
omit hr in
theorem e2_Q : (W2 m c main_v16_2 : S1x128.Idx → EReal) = Q0 (U1 m) c := (W2_arr m c 8).trans (final0_8 (U1 m) c)

/-- The first layer's output is the reference's. -/
theorem H1_eq : (W4 m c main_v25 : S100000x128.Idx → EReal)
    = val_main_v50 (F := Ideal) (a0 m c) (a1 m c) (a2 m c) (a3 m c) (a4 m c) (a5 m c) (a6 m c) (a7 m c) := by
  refine ((W4_arr m c 5).trans (final1_5 (U3 m) c)).trans ?_
  funext i
  obtain ⟨p, q, rfl⟩ : ∃ (p : Fin 100000) (q : Fin 128), i = ix2 p q := ⟨i 0, i 1, eq_ix2 i⟩
  rw [Cert.RefSide.bn1]
  have hL : (fun p q => val_main_v24 (F := Ideal) (a0 m c) (a1 m c) (a2 m c) (a3 m c) (a4 m c) (a5 m c) (ix2 p q)) = L0 (U1 m) c :=
    funext fun p => funext fun q => (L1_eq m c p q).symm
  rw [hL, ← bnK_eq hN (L0 (U1 m) c) (L1_fin m c hr) (a6 m c) (a7 m c) p q
    ((S0 (U1 m) c) (ix2 (0 : Fin 1) q)) ((Q0 (U1 m) c) (ix2 (0 : Fin 1) q))
    (by rw [S0_apply, w0_eq, zero_add]) (by rw [Q0_apply, w0_eq, zero_add])]
  show max (bnG (U3 m c main_v16_0) (U3 m c main_v18) (U3 m c main_v22) (U3 m c main_v23) (U3 m c main_v24) (ix2 p q)) w0 = _
  rw [bnG_apply]
  unfold bnK
  dsimp only [U3]
  rw [e3_lin, h3_v18, h3_v22, h3_v23, h3_v24, e2_S, e2_Q, G0_6_apply]

theorem H1_fin (i : S100000x128.Idx) :
    IsFin (val_main_v50 (F := Ideal) (a0 m c) (a1 m c) (a2 m c) (a3 m c) (a4 m c) (a5 m c) (a6 m c) (a7 m c) i) := by
  obtain ⟨p, q, rfl⟩ : ∃ (p : Fin 100000) (q : Fin 128), i = ix2 p q := ⟨i 0, i 1, eq_ix2 i⟩
  rw [Cert.RefSide.bn1]
  have hL : (fun p q => val_main_v24 (F := Ideal) (a0 m c) (a1 m c) (a2 m c) (a3 m c) (a4 m c) (a5 m c) (ix2 p q)) = L0 (U1 m) c :=
    funext fun p => funext fun q => (L1_eq m c p q).symm
  rw [hL]
  exact relu_isFin (bnAt_isFin _ (L1_fin m c hr) _ _ hr.h6 hr.h7 p q)

/-! ## Layer 2 -/

theorem e5_H : (W5 m c main_v25 : S100000x128.Idx → EReal)
    = val_main_v50 (F := Ideal) (a0 m c) (a1 m c) (a2 m c) (a3 m c) (a4 m c) (a5 m c) (a6 m c) (a7 m c) :=
  (W5_keep m c main_v25 (by decide)).trans (H1_eq m c hr)
theorem e5_agg : (W5 m c main_v35 : S100000x128.Idx → EReal)
    = val_main_v60 (F := Ideal) (a0 m c) (a1 m c) (a2 m c) (a3 m c) (a4 m c) (a5 m c) (a6 m c) (a7 m c) := by
  rw [ref_agg2, ← H1_eq m c hr]
  exact h5_v35 m c
omit hr in
theorem e5_arg8 : (W5 m c main_arg8 : S128x64.Idx → EReal) = a8 m c :=
  (W5_keep m c main_arg8 (by decide)).trans ((W4_keep m c main_arg8 (by decide)).trans ((W3_keep m c main_arg8 (by decide)).trans
    ((W2_keep m c main_arg8 (by decide)).trans ((W1_keep m c main_arg8 (by decide)).trans rfl))))
omit hr in
theorem e5_arg9 : (W5 m c main_arg9 : S128x64.Idx → EReal) = a9 m c :=
  (W5_keep m c main_arg9 (by decide)).trans ((W4_keep m c main_arg9 (by decide)).trans ((W3_keep m c main_arg9 (by decide)).trans
    ((W2_keep m c main_arg9 (by decide)).trans ((W1_keep m c main_arg9 (by decide)).trans rfl))))
omit hr in
theorem e5_dvec : dvec (W5 m c main_v4 : S100000x1.Idx → EReal) = val_main_v64 (F := Ideal) (a2 m c) := by
  rw [Cert.RefSide.deg_eq]
  have e : (W5 m c main_v4 : S100000x1.Idx → EReal) = U1 m c main_v4 :=
    (W5_keep m c main_v4 (by decide)).trans ((W4_keep m c main_v4 (by decide)).trans ((W3_keep m c main_v4 (by decide)).trans
      (W2_keep m c main_v4 (by decide))))
  rw [e]; exact e1_dvec m c
omit hr in
theorem e5_rowv : rowv (W5 m c main_v36 : S1x64.Idx → EReal) = a10 m c := by
  funext j
  obtain ⟨q, rfl⟩ : ∃ q : Fin 64, j = ix1 q := ⟨j 0, eq_ix1 j⟩
  exact h5_v36 m c q

/-- The second layer's pre-activation is the reference's. -/
theorem L2_eq (p : Fin 100000) (q : Fin 64) :
    L2 (U5 m) c p q = val_main_v75 (F := Ideal) (a0 m c) (a1 m c) (a2 m c) (a3 m c) (a4 m c) (a5 m c) (a6 m c) (a7 m c) (a8 m c) (a9 m c) (a10 m c) (ix2 p q) := by
  unfold L2
  dsimp only [U5]
  rw [e5_H m c hr, e5_agg m c hr, e5_dvec, e5_arg8, e5_arg9, e5_rowv]
  exact (Cert.RefSide.lin2 _ _ _ _ _ _ _ _ _ _ _ p q).symm

theorem L2_fin (p : Fin 100000) (q : Fin 64) : IsFin (L2 (U5 m) c p q) := by
  rw [L2_eq m c hr, Cert.RefSide.lin2]
  refine linAt_isFin _ _ _ _ _ _ (H1_fin m c hr) (Cert.AggFin.agg2_isFin _ _ _ _ _ _ _ _ (H1_fin m c hr)) ?_ hr.h8 hr.h9 hr.h10 p q
  rw [Cert.RefSide.deg_eq]; exact Cert.AggFin.deg_isFin _

omit hr in
theorem e7_lin : (W7 m c main_v37_0 : S100000x64.Idx → EReal) = G2_6 (U5 m) c :=
  (W7_keep m c main_v37_0 (by decide)).trans ((W6_arr m c 6).trans (final2_6 (U5 m) c))
omit hr in
theorem e6_S : (W6 m c main_v37_1 : S1x64.Idx → EReal) = S2 (U5 m) c := (W6_arr m c 7).trans (final2_7 (U5 m) c)
omit hr in
theorem e6_Q : (W6 m c main_v37_2 : S1x64.Idx → EReal) = Q2 (U5 m) c := (W6_arr m c 8).trans (final2_8 (U5 m) c)

/-- THE RESULT: what the idealized kernel program leaves in its result array is the reference's result term. -/
theorem out_eq : (W8 m c main_v46 : S100000x64.Idx → EReal) = val_main_v100 (F := Ideal) (a0 m c) (a1 m c) (a2 m c) (a3 m c) (a4 m c) (a5 m c) (a6 m c) (a7 m c) (a8 m c) (a9 m c) (a10 m c) (a11 m c) (a12 m c) := by
  refine ((W8_arr m c 5).trans (final3_5 (U7 m) c)).trans ?_
  funext i
  obtain ⟨p, q, rfl⟩ : ∃ (p : Fin 100000) (q : Fin 64), i = ix2 p q := ⟨i 0, i 1, eq_ix2 i⟩
  rw [Cert.RefSide.bn2]
  have hL : (fun p q => val_main_v75 (F := Ideal) (a0 m c) (a1 m c) (a2 m c) (a3 m c) (a4 m c) (a5 m c) (a6 m c) (a7 m c) (a8 m c) (a9 m c) (a10 m c) (ix2 p q)) = L2 (U5 m) c :=
    funext fun p => funext fun q => (L2_eq m c hr p q).symm
  rw [hL, ← bnK_eq hN (L2 (U5 m) c) (L2_fin m c hr) (a11 m c) (a12 m c) p q
    ((S2 (U5 m) c) (ix2 (0 : Fin 1) q)) ((Q2 (U5 m) c) (ix2 (0 : Fin 1) q))
    (by rw [S2_apply, w0_eq, zero_add]) (by rw [Q2_apply, w0_eq, zero_add])]
  show bnG (U7 m c main_v37_0) (U7 m c main_v39) (U7 m c main_v43) (U7 m c main_v44) (U7 m c main_v45) (ix2 p q) = _
  rw [bnG_apply]
  unfold bnK
  dsimp only [U7]
  rw [e7_lin, h7_v39, h7_v43, h7_v44, h7_v45, e6_S, e6_Q, G2_6_apply]

end Cert.KernelIdeal.Val

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«172402_j2388001816783_1_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.PreFin.lean ====
/-
  The precondition, decoded. The precondition of the idealized kernel program says that a printed test of its
  argument arrays evaluates to true on every device. The test is the conjunction, over the eleven floating-point
  arguments, of "every entry is below +∞ in absolute value". A conjunction of truth words is true exactly when both
  sides are, so the test splits into its eleven conjuncts, one per array, and each conjunct says that every entry of
  its array is a real number.
-/
import proofs.«172402_j2388001816783_1_alg».proof.Defs
import proofs.«172402_j2388001816783_1_alg».proof.Proof.Gen.Pre_finite_inputs
import proofs.«172402_j2388001816783_1_alg».proof.Proof.LibFinDecode
import Idealize.ShloMosaic.Lib.ReduceAll

noncomputable section

namespace Cert.PreFin

open Idealize.ShloMosaic Idealize.SL.Sem Idealize.ShloMosaic.ValueIdx Cert.LibFinite

/-- Under the precondition every entry of every floating-point argument array is a real number, on every device. -/
theorem fin_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S100000x128.Idx, IsFin (m ((c.tc : Thread Cert.KernelIdeal.nD Cert.KernelIdeal.τ).loc Cert.KernelIdeal.main_arg0) i))
    ∧ (∀ i : Cert.KernelIdeal.S128x128.Idx, IsFin (m ((c.tc : Thread Cert.KernelIdeal.nD Cert.KernelIdeal.τ).loc Cert.KernelIdeal.main_arg3) i))
    ∧ (∀ i : Cert.KernelIdeal.S128x128.Idx, IsFin (m ((c.tc : Thread Cert.KernelIdeal.nD Cert.KernelIdeal.τ).loc Cert.KernelIdeal.main_arg4) i))
    ∧ (∀ i : Cert.KernelIdeal.S128.Idx, IsFin (m ((c.tc : Thread Cert.KernelIdeal.nD Cert.KernelIdeal.τ).loc Cert.KernelIdeal.main_arg5) i))
    ∧ (∀ i : Cert.KernelIdeal.S128.Idx, IsFin (m ((c.tc : Thread Cert.KernelIdeal.nD Cert.KernelIdeal.τ).loc Cert.KernelIdeal.main_arg6) i))
    ∧ (∀ i : Cert.KernelIdeal.S128.Idx, IsFin (m ((c.tc : Thread Cert.KernelIdeal.nD Cert.KernelIdeal.τ).loc Cert.KernelIdeal.main_arg7) i))
    ∧ (∀ i : Cert.KernelIdeal.S128x64.Idx, IsFin (m ((c.tc : Thread Cert.KernelIdeal.nD Cert.KernelIdeal.τ).loc Cert.KernelIdeal.main_arg8) i))
    ∧ (∀ i : Cert.KernelIdeal.S128x64.Idx, IsFin (m ((c.tc : Thread Cert.KernelIdeal.nD Cert.KernelIdeal.τ).loc Cert.KernelIdeal.main_arg9) i))
    ∧ (∀ i : Cert.KernelIdeal.S64.Idx, IsFin (m ((c.tc : Thread Cert.KernelIdeal.nD Cert.KernelIdeal.τ).loc Cert.KernelIdeal.main_arg10) i))
    ∧ (∀ i : Cert.KernelIdeal.S64.Idx, IsFin (m ((c.tc : Thread Cert.KernelIdeal.nD Cert.KernelIdeal.τ).loc Cert.KernelIdeal.main_arg11) i))
    ∧ (∀ i : Cert.KernelIdeal.S64.Idx, IsFin (m ((c.tc : Thread Cert.KernelIdeal.nD Cert.KernelIdeal.τ).loc Cert.KernelIdeal.main_arg12) i)) := by
  -- the test's value at the one index of the scalar shape is the true word
  have e := congrFun (h c) ix0
  -- the test is a chain of assignments; substituting them leaves a left-nested conjunction of eleven conjuncts,
  -- the last array's conjunct outermost
  dsimp only [Cert.Pre_finite_inputs.fn, Cert.Pre_finite_inputs.fn_part1, Cert.Pre_finite_inputs.fn_part2,
    Cert.Pre_finite_inputs.fn_part3] at e
  -- a conjunction of truth words is true exactly when both sides are: peel the conjuncts off from the outside
  obtain ⟨r12, e12⟩ := IntOp.andi_eq_one.1 e
  obtain ⟨r11, e11⟩ := IntOp.andi_eq_one.1 r12
  obtain ⟨r10, e10⟩ := IntOp.andi_eq_one.1 r11
  obtain ⟨r9, e9⟩ := IntOp.andi_eq_one.1 r10
  obtain ⟨r8, e8⟩ := IntOp.andi_eq_one.1 r9
  obtain ⟨r7, e7⟩ := IntOp.andi_eq_one.1 r8
  obtain ⟨r6, e6⟩ := IntOp.andi_eq_one.1 r7
  obtain ⟨r5, e5⟩ := IntOp.andi_eq_one.1 r6
  obtain ⟨r4, e4⟩ := IntOp.andi_eq_one.1 r5
  obtain ⟨e0, e3⟩ := IntOp.andi_eq_one.1 r4
  -- each conjunct says "all entries of this array are below +∞ in absolute value", so every entry is real
  exact ⟨Cert.LibFinDecode.all_fin _ _ _ _ e0,
    Cert.LibFinDecode.all_fin _ _ _ _ e3,
    Cert.LibFinDecode.all_fin _ _ _ _ e4,
    Cert.LibFinDecode.all_fin _ _ _ _ e5,
    Cert.LibFinDecode.all_fin _ _ _ _ e6,
    Cert.LibFinDecode.all_fin _ _ _ _ e7,
    Cert.LibFinDecode.all_fin _ _ _ _ e8,
    Cert.LibFinDecode.all_fin _ _ _ _ e9,
    Cert.LibFinDecode.all_fin _ _ _ _ e10,
    Cert.LibFinDecode.all_fin _ _ _ _ e11,
    Cert.LibFinDecode.all_fin _ _ _ _ e12⟩

end Cert.PreFin

end
-- ==== Proof.lean ====
/-
  The certificate's claims.

  The program is two graph-convolution layers, each a gather of source-node rows and a scatter-add by destination node
  on the host, a linear layer with running column statistics in one kernel region, the mean and variance on the host,
  and a normalisation in a second kernel region. Each program's frame — it runs to the end, nothing faults, the
  argument arrays end unchanged — comes from its run through the four regions (for the printed program and for its
  idealization the same account, read at the word level and at the extended reals) and, for the reference, from its
  run as a list of host operations. The idealization rewrote nothing, so there is nothing to preserve. The two
  idealized programs end with equal results on real inputs: the pre-activations agree outright, and the two
  spellings of the variance agree because every pre-activation is a real number and 100000 is exactly the node count.
-/
import proofs.«172402_j2388001816783_1_alg».proof.Defs
import proofs.«172402_j2388001816783_1_alg».proof.Proof.Gen.Kernel
import proofs.«172402_j2388001816783_1_alg».proof.Proof.Gen.KernelIdeal
import proofs.«172402_j2388001816783_1_alg».proof.Proof.Gen.ReferenceIdeal
import proofs.«172402_j2388001816783_1_alg».proof.Proof.Gen.Pre_finite_inputs
import proofs.«172402_j2388001816783_1_alg».proof.Proof.Gen.ReferenceIdeal.Run
import proofs.«172402_j2388001816783_1_alg».proof.Proof.Gen.ReferenceIdeal.Read
import proofs.«172402_j2388001816783_1_alg».proof.Proof.K.Run
import proofs.«172402_j2388001816783_1_alg».proof.Proof.KI.Run
import proofs.«172402_j2388001816783_1_alg».proof.Proof.KI.Out
import proofs.«172402_j2388001816783_1_alg».proof.Proof.PreFin
import Idealize.ShloMosaic.Adequacy
import Idealize.ShloMosaic.Init

noncomputable section

namespace Cert.Proof

open Idealize.ShloMosaic Idealize.SL.Sem

/-- Under the precondition every float input entry is a real number. -/
theorem realInputs (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.KernelIdeal.Val.RealInputs m c := by
  obtain ⟨h0, h3, h4, h5, h6, h7, h8, h9, h10, h11, h12⟩ := Cert.PreFin.fin_of_pre m h c
  exact ⟨h0, h3, h4, h5, h6, h7, h8, h9, h10, h11, h12⟩

theorem frame_k : Cert.frame_Kernel (hKernel := Cert.Kernel.Gen.facts) (hPre_finite_inputs := Cert.Pre_finite_inputs.Gen.facts) :=
  fun m ρ _ => Cert.Kernel.Hand.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs run, and end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W8 m c (Proc.devRef .tc Cert.KernelIdeal.main_v46), ?_, ?_⟩
  · refine (θ_run (Cert.KernelIdeal.defs (F := Ideal)) _ _).mono (fun r h c => ⟨?_, ?_⟩) (Cert.KernelIdeal.Hand.run_all (F := Ideal) m ρ)
    · exact h c _ (Cert.KernelIdeal.Hand.mem_uc Cert.KernelIdeal.main_v46 (by decide))
    · exact ⟨
        (h c _ (Cert.KernelIdeal.Hand.mem_uc Cert.KernelIdeal.main_arg0 (by decide))).trans (Cert.KernelIdeal.Hand.W8_launch m c Cert.KernelIdeal.main_arg0 (by decide) (by decide) (by decide) (by decide) (by decide)),
        (h c _ (Cert.KernelIdeal.Hand.mem_uc Cert.KernelIdeal.main_arg1 (by decide))).trans (Cert.KernelIdeal.Hand.W8_launch m c Cert.KernelIdeal.main_arg1 (by decide) (by decide) (by decide) (by decide) (by decide)),
        (h c _ (Cert.KernelIdeal.Hand.mem_uc Cert.KernelIdeal.main_arg2 (by decide))).trans (Cert.KernelIdeal.Hand.W8_launch m c Cert.KernelIdeal.main_arg2 (by decide) (by decide) (by decide) (by decide) (by decide)),
        (h c _ (Cert.KernelIdeal.Hand.mem_uc Cert.KernelIdeal.main_arg3 (by decide))).trans (Cert.KernelIdeal.Hand.W8_launch m c Cert.KernelIdeal.main_arg3 (by decide) (by decide) (by decide) (by decide) (by decide)),
        (h c _ (Cert.KernelIdeal.Hand.mem_uc Cert.KernelIdeal.main_arg4 (by decide))).trans (Cert.KernelIdeal.Hand.W8_launch m c Cert.KernelIdeal.main_arg4 (by decide) (by decide) (by decide) (by decide) (by decide)),
        (h c _ (Cert.KernelIdeal.Hand.mem_uc Cert.KernelIdeal.main_arg5 (by decide))).trans (Cert.KernelIdeal.Hand.W8_launch m c Cert.KernelIdeal.main_arg5 (by decide) (by decide) (by decide) (by decide) (by decide)),
        (h c _ (Cert.KernelIdeal.Hand.mem_uc Cert.KernelIdeal.main_arg6 (by decide))).trans (Cert.KernelIdeal.Hand.W8_launch m c Cert.KernelIdeal.main_arg6 (by decide) (by decide) (by decide) (by decide) (by decide)),
        (h c _ (Cert.KernelIdeal.Hand.mem_uc Cert.KernelIdeal.main_arg7 (by decide))).trans (Cert.KernelIdeal.Hand.W8_launch m c Cert.KernelIdeal.main_arg7 (by decide) (by decide) (by decide) (by decide) (by decide)),
        (h c _ (Cert.KernelIdeal.Hand.mem_uc Cert.KernelIdeal.main_arg8 (by decide))).trans (Cert.KernelIdeal.Hand.W8_launch m c Cert.KernelIdeal.main_arg8 (by decide) (by decide) (by decide) (by decide) (by decide)),
        (h c _ (Cert.KernelIdeal.Hand.mem_uc Cert.KernelIdeal.main_arg9 (by decide))).trans (Cert.KernelIdeal.Hand.W8_launch m c Cert.KernelIdeal.main_arg9 (by decide) (by decide) (by decide) (by decide) (by decide)),
        (h c _ (Cert.KernelIdeal.Hand.mem_uc Cert.KernelIdeal.main_arg10 (by decide))).trans (Cert.KernelIdeal.Hand.W8_launch m c Cert.KernelIdeal.main_arg10 (by decide) (by decide) (by decide) (by decide) (by decide)),
        (h c _ (Cert.KernelIdeal.Hand.mem_uc Cert.KernelIdeal.main_arg11 (by decide))).trans (Cert.KernelIdeal.Hand.W8_launch m c Cert.KernelIdeal.main_arg11 (by decide) (by decide) (by decide) (by decide) (by decide)),
        (h c _ (Cert.KernelIdeal.Hand.mem_uc Cert.KernelIdeal.main_arg12 (by decide))).trans (Cert.KernelIdeal.Hand.W8_launch m c Cert.KernelIdeal.main_arg12 (by decide) (by decide) (by decide) (by decide) (by decide))⟩
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9, g10, g11, g12⟩ := hagree c
    rw [Cert.ReferenceIdeal.Read.val_main_v100_eq, g0, g1, g2, g3, g4, g5, g6, g7, g8, g9, g10, g11, g12]
    exact (Cert.KernelIdeal.Val.out_eq m c (realInputs m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
